-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1000000 : Shape := ⟨2, ![16, 1000000]⟩
abbrev S_ : Shape := ⟨0, ![]⟩

class Facts : Prop where
  bcast_S_S16x1000000 : S_.BroadcastsInDim S16x1000000 (![] : Fin 0 → Fin S16x1000000.rank)
  reducesTo_S16x1000000_S_d0_1 : S16x1000000.ReducesTo [0, 1] S_
  h_S_ : 0 < S_.numel

variable [Facts]

def fn_part1 {F : FTy → Type} [FloatOps F] (main_v8 : IVec S_ 1) (main_v16 : IVec S_ 1) : IVec S_ 1 :=
  let main_v17 : IVec S_ 1 := andi main_v8 main_v16
  main_v17

def fn {F : FTy → Type} [FloatOps F] (main_arg0 : FVec F S16x1000000 .f32) (main_arg1 : FVec F S16x1000000 .f32) (main_arg2 : IVec S16x1000000 1) : IVec S_ 1 :=
  let main_v0 : FVec F S16x1000000 .f32 := Host.absf main_arg0
  let main_cst : FVec F S_ .f32 := constant S_ .f32 0x7F800000#32
  let main_v1 : FVec F S16x1000000 .f32 := broadcastInDim S16x1000000 ![] bcast_S_S16x1000000 main_cst
  let main_v2 : IVec S16x1000000 1 := cmpf .olt main_v0 main_v1
  let main_c : IVec S_ 1 := constantI S_ 1 1#1
  let main_v3 : IVec S_ 1 := (fun x v => Host.reduce IntOp.andi x v reducesTo_S16x1000000_S_d0_1 h_S_) main_v2 main_c
  let main_v4 : FVec F S16x1000000 .f32 := Host.absf main_arg1
  let main_cst_0 : FVec F S_ .f32 := constant S_ .f32 0x7F800000#32
  let main_v5 : FVec F S16x1000000 .f32 := broadcastInDim S16x1000000 ![] bcast_S_S16x1000000 main_cst_0
  let main_v6 : IVec S16x1000000 1 := cmpf .olt main_v4 main_v5
  let main_c_1 : IVec S_ 1 := constantI S_ 1 1#1
  let main_v7 : IVec S_ 1 := (fun x v => Host.reduce IntOp.andi x v reducesTo_S16x1000000_S_d0_1 h_S_) main_v6 main_c_1
  let main_v8 : IVec S_ 1 := andi main_v3 main_v7
  let main_v9 : FVec F S16x1000000 .f32 := subf main_arg0 main_arg1
  let main_v10 : FVec F S16x1000000 .f32 := Host.absf main_v9
  let main_cst_2 : FVec F S_ .f32 := constant S_ .f32 0x41EFFE00#32
  let main_v11 : FVec F S16x1000000 .f32 := broadcastInDim S16x1000000 ![] bcast_S_S16x1000000 main_cst_2
  let main_v12 : FVec F S16x1000000 .f32 := mulf main_v10 main_v11
  let main_v13 : FVec F S16x1000000 .f32 := Host.floor main_v12
  let main_cst_3 : FVec F S_ .f32 := constant S_ .f32 0x41F00000#32
  let main_v14 : FVec F S16x1000000 .f32 := broadcastInDim S16x1000000 ![] bcast_S_S16x1000000 main_cst_3
  let main_v15 : IVec S16x1000000 1 := cmpf .olt main_v13 main_v14
  let main_c_4 : IVec S_ 1 := constantI S_ 1 1#1
  let main_v16 : IVec S_ 1 := (fun x v => Host.reduce IntOp.andi x v reducesTo_S16x1000000_S_d0_1 h_S_) main_v15 main_c_4
  fn_part1 (F := F) main_v8 main_v16
-- ==== Kernel.lean ====
abbrev S16x1000000 : Shape := ⟨2, ![16, 1000000]⟩
abbrev S1x256 : Shape := ⟨2, ![1, 256]⟩
abbrev S16x16384 : Shape := ⟨2, ![16, 16384]⟩
abbrev S1x128 : Shape := ⟨2, ![1, 128]⟩
abbrev S16384 : Shape := ⟨1, ![16384]⟩
abbrev S1x16384 : Shape := ⟨2, ![1, 16384]⟩
abbrev S1 : Shape := ⟨1, ![1]⟩
abbrev S1x1 : Shape := ⟨2, ![1, 1]⟩
abbrev S1x30 : Shape := ⟨2, ![1, 30]⟩
abbrev S30 : Shape := ⟨1, ![30]⟩
abbrev S_ : Shape := ⟨0, ![]⟩
abbrev S2 : Shape := ⟨1, ![2]⟩

abbrev nBuf : Space → Nat
  | .hbm => 35
  | .vmem => 13
  | .smem => 0
  | _ => 0

abbrev bufTy : (tb : Table) → Fin (tcTables nBuf tb) → BufTy
  | .hbm, ⟨0, _⟩ => ⟨S16x1000000, .f32⟩
  | .hbm, ⟨1, _⟩ => ⟨S16x1000000, .f32⟩
  | .hbm, ⟨2, _⟩ => ⟨S16x1000000, .i1⟩
  | .hbm, ⟨3, _⟩ => ⟨S1x256, .f32⟩
  | .hbm, ⟨4, _⟩ => ⟨S1x30, .f32⟩
  | .hbm, ⟨5, _⟩ => ⟨S30, .f32⟩
  | .hbm, ⟨6, _⟩ => ⟨S1x30, .f32⟩
  | .hbm, ⟨7, _⟩ => ⟨S30, .f32⟩
  | .hbm, ⟨8, _⟩ => ⟨S30, .f32⟩
  | .hbm, ⟨9, _⟩ => ⟨S16x1000000, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S30, .f32⟩
  | .hbm, ⟨14, _⟩ => ⟨S30, .i1⟩
  | .hbm, ⟨15, _⟩ => ⟨S30, .f32⟩
  | .hbm, ⟨16, _⟩ => ⟨S_, .f32⟩
  | .hbm, ⟨17, _⟩ => ⟨S_, .f32⟩
  | .hbm, ⟨18, _⟩ => ⟨S30, .f32⟩
  | .hbm, ⟨19, _⟩ => ⟨S30, .f32⟩
  | .hbm, ⟨20, _⟩ => ⟨S_, .f32⟩
  | .hbm, ⟨21, _⟩ => ⟨S_, .f32⟩
  | .hbm, ⟨22, _⟩ => ⟨S30, .f32⟩
  | .hbm, ⟨23, _⟩ => ⟨S30, .f32⟩
  | .hbm, ⟨24, _⟩ => ⟨S30, .f32⟩
  | .hbm, ⟨25, _⟩ => ⟨S30, .f32⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S16x1000000, .f32⟩
  | .local _ .vmem, ⟨0, _⟩ => ⟨S16x16384, .f32⟩
  | .local _ .vmem, ⟨1, _⟩ => ⟨S16x16384, .f32⟩
  | .local _ .vmem, ⟨2, _⟩ => ⟨S16x16384, .f32⟩
  | .local _ .vmem, ⟨3, _⟩ => ⟨S16x16384, .f32⟩
  | .local _ .vmem, ⟨4, _⟩ => ⟨S1x128, .f32⟩
  | .local _ .vmem, ⟨5, _⟩ => ⟨S1x128, .f32⟩
  | .local _ .vmem, ⟨6, _⟩ => ⟨S16x16384, .f32⟩
  | .local _ .vmem, ⟨7, _⟩ => ⟨S16x16384, .f32⟩
  | .local _ .vmem, ⟨8, _⟩ => ⟨S16x16384, .f32⟩
  | .local _ .vmem, ⟨9, _⟩ => ⟨S16x16384, .f32⟩
  | .local _ .vmem, ⟨10, _⟩ => ⟨S1x128, .f32⟩
  | .local _ .vmem, ⟨11, _⟩ => ⟨S16x16384, .f32⟩
  | .local _ .vmem, ⟨12, _⟩ => ⟨S16x16384, .f32⟩
  | _, _ => ⟨S16x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![2, 31], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.muli arg0 c31_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.muli arg0 c31_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![62], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x16384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x128_S1x128_0_0 : ∀ a, (![0, 0] : Fin 2 → Nat) a + S1x128.size a ≤ S1x128.size a
  h_S1x128 : 0 < S1x128.numel
  inb_S16x16384_S16x16384_0_0 : ∀ a, (![0, 0] : Fin 2 → Nat) a + S16x16384.size a ≤ S16x16384.size a
  h_S16x16384 : 0 < S16x16384.numel
  iota_S16x16384_d1_w32 : S16x16384.Iotas .tc 32 [1]
  iota_S1x128_d1_w32 : S1x128.Iotas .tc 32 [1]
  shapeCasts_S1x128_S1x128 : S1x128.ShapeCasts S1x128
  natLt_1_32 : 1 < 32
  reduces_S16x16384_S16384 : S16x16384.Reduces [0] S16384
  shapeCasts_S16384_S1x16384 : S16384.ShapeCasts S1x16384
  reduces_S1x16384_S1 : S1x16384.Reduces [1] S1
  shapeCasts_S1_S1x1 : S1.ShapeCasts S1x1
  broadcasts_S1x1_S1x128 : S1x1.Broadcasts S1x128
  slices_S1x256_S1x30_0_0 : S1x256.Slices ![0, 0] S1x30
  shapeCasts_S1x30_S30 : S1x30.ShapeCasts S30
  slices_S1x256_S1x30_0_128 : S1x256.Slices ![0, 128] S1x30
  reducesTo_S16x1000000_S_d0_1 : S16x1000000.ReducesTo [0, 1] S_
  h_S_ : 0 < S_.numel
  bcast_S_S30 : S_.BroadcastsInDim S30 (![] : Fin 0 → Fin S30.rank)
  reducesTo_S30_S_d0 : S30.ReducesTo [0] S_
  bcast_S_S1x128 : S_.BroadcastsInDim S1x128 (![] : Fin 0 → Fin S1x128.rank)
  bcast_S_S1 : S_.BroadcastsInDim S1 (![] : Fin 0 → Fin S1.rank)
  concatenates_S1_S1_S2_d0 : Shape.Concatenates [S1, S1] S2 0
  inb_S1x128_S1x1_0_0 : ∀ a, (![0, 0] : Fin 2 → Nat) a + S1x1.size a ≤ S1x128.size a
  h_S1x1 : 0 < S1x1.numel
  shapeCasts_S1x1_S1x1 : S1x1.ShapeCasts S1x1
  broadcasts_S1x1_S16x16384 : S1x1.Broadcasts S16x16384
  inb_S1x128_S1x1_0_1 : ∀ a, (![0, 1] : Fin 2 → Nat) a + S1x1.size a ≤ S1x128.size a
  inb_S1x128_S1x1_0_2 : ∀ a, (![0, 2] : Fin 2 → Nat) a + S1x1.size a ≤ S1x128.size a
  inb_S1x128_S1x1_0_3 : ∀ a, (![0, 3] : Fin 2 → Nat) a + S1x1.size a ≤ S1x128.size a
  inb_S1x128_S1x1_0_4 : ∀ a, (![0, 4] : Fin 2 → Nat) a + S1x1.size a ≤ S1x128.size a
  inb_S1x128_S1x1_0_5 : ∀ a, (![0, 5] : Fin 2 → Nat) a + S1x1.size a ≤ S1x128.size a
  inb_S1x128_S1x1_0_6 : ∀ a, (![0, 6] : Fin 2 → Nat) a + S1x1.size a ≤ S1x128.size a
  inb_S1x128_S1x1_0_7 : ∀ a, (![0, 7] : Fin 2 → Nat) a + S1x1.size a ≤ S1x128.size a
  inb_S1x128_S1x1_0_8 : ∀ a, (![0, 8] : Fin 2 → Nat) a + S1x1.size a ≤ S1x128.size a
  inb_S1x128_S1x1_0_9 : ∀ a, (![0, 9] : Fin 2 → Nat) a + S1x1.size a ≤ S1x128.size a
  inb_S1x128_S1x1_0_10 : ∀ a, (![0, 10] : Fin 2 → Nat) a + S1x1.size a ≤ S1x128.size a
  inb_S1x128_S1x1_0_11 : ∀ a, (![0, 11] : Fin 2 → Nat) a + S1x1.size a ≤ S1x128.size a
  inb_S1x128_S1x1_0_12 : ∀ a, (![0, 12] : Fin 2 → Nat) a + S1x1.size a ≤ S1x128.size a
  inb_S1x128_S1x1_0_13 : ∀ a, (![0, 13] : Fin 2 → Nat) a + S1x1.size a ≤ S1x128.size a
  inb_S1x128_S1x1_0_14 : ∀ a, (![0, 14] : Fin 2 → Nat) a + S1x1.size a ≤ S1x128.size a
  inb_S1x128_S1x1_0_15 : ∀ a, (![0, 15] : Fin 2 → Nat) a + S1x1.size a ≤ S1x128.size a
  inb_S1x128_S1x1_0_16 : ∀ a, (![0, 16] : Fin 2 → Nat) a + S1x1.size a ≤ S1x128.size a
  inb_S1x128_S1x1_0_17 : ∀ a, (![0, 17] : Fin 2 → Nat) a + S1x1.size a ≤ S1x128.size a
  inb_S1x128_S1x1_0_18 : ∀ a, (![0, 18] : Fin 2 → Nat) a + S1x1.size a ≤ S1x128.size a
  inb_S1x128_S1x1_0_19 : ∀ a, (![0, 19] : Fin 2 → Nat) a + S1x1.size a ≤ S1x128.size a
  inb_S1x128_S1x1_0_20 : ∀ a, (![0, 20] : Fin 2 → Nat) a + S1x1.size a ≤ S1x128.size a
  inb_S1x128_S1x1_0_21 : ∀ a, (![0, 21] : Fin 2 → Nat) a + S1x1.size a ≤ S1x128.size a
  inb_S1x128_S1x1_0_22 : ∀ a, (![0, 22] : Fin 2 → Nat) a + S1x1.size a ≤ S1x128.size a
  inb_S1x128_S1x1_0_23 : ∀ a, (![0, 23] : Fin 2 → Nat) a + S1x1.size a ≤ S1x128.size a
  inb_S1x128_S1x1_0_24 : ∀ a, (![0, 24] : Fin 2 → Nat) a + S1x1.size a ≤ S1x128.size a
  inb_S1x128_S1x1_0_25 : ∀ a, (![0, 25] : Fin 2 → Nat) a + S1x1.size a ≤ S1x128.size a
  inb_S1x128_S1x1_0_26 : ∀ a, (![0, 26] : Fin 2 → Nat) a + S1x1.size a ≤ S1x128.size a
  inb_S1x128_S1x1_0_27 : ∀ a, (![0, 27] : Fin 2 → Nat) a + S1x1.size a ≤ S1x128.size a
  inb_S1x128_S1x1_0_28 : ∀ a, (![0, 28] : Fin 2 → Nat) a + S1x1.size a ≤ S1x128.size a
  inb_S1x128_S1x1_0_29 : ∀ a, (![0, 29] : Fin 2 → Nat) a + S1x1.size a ≤ S1x128.size a
  scatter_S1x128_S2_S30_0_0_01_0_wf : ScatterDims.WF S1x128 S2 S30 [0] [0] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16x16384.size a < S16x1000000.size a
  hwx0_0 : ∀ i : grid0.Coords, EltTy.bits .f32 = 32 ∨ (Rect.unit (s := S16x1000000) (fun a => cc0_transform_0 i a * S16x16384.size a) (fun a => (Pipeline.Clip.of (cc0_transform_0 i a) (S16x16384.size a) (S16x1000000.size a)).extent (S16x16384.size a)) fun a => Pipeline.Clip.inb (Pipeline.Clip.ok_of (hstart0_0 i a))).WholeWords (EltTy.packing .f32)
  hwxs0_0 : ∀ i : grid0.Coords, EltTy.bits .f32 = 32 ∨ (Rect.unit (s := S16x16384) (fun _ => 0) (fun a => (Pipeline.Clip.of (cc0_transform_0 i a) (S16x16384.size a) (S16x1000000.size a)).extent (S16x16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16x16384.size a < S16x1000000.size a
  hwx0_1 : ∀ i : grid0.Coords, EltTy.bits .f32 = 32 ∨ (Rect.unit (s := S16x1000000) (fun a => cc0_transform_1 i a * S16x16384.size a) (fun a => (Pipeline.Clip.of (cc0_transform_1 i a) (S16x16384.size a) (S16x1000000.size a)).extent (S16x16384.size a)) fun a => Pipeline.Clip.inb (Pipeline.Clip.ok_of (hstart0_1 i a))).WholeWords (EltTy.packing .f32)
  hwxs0_1 : ∀ i : grid0.Coords, EltTy.bits .f32 = 32 ∨ (Rect.unit (s := S16x16384) (fun _ => 0) (fun a => (Pipeline.Clip.of (cc0_transform_1 i a) (S16x16384.size a) (S16x1000000.size a)).extent (S16x16384.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x256.size a
  hwx0_2 : ∀ i : grid0.Coords, EltTy.bits .f32 = 32 ∨ (Rect.block (s := S1x256) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S16x16384.size a < S16x1000000.size a
  hwx1_0 : ∀ i : grid1.Coords, EltTy.bits .f32 = 32 ∨ (Rect.unit (s := S16x1000000) (fun a => cc1_transform_0 i a * S16x16384.size a) (fun a => (Pipeline.Clip.of (cc1_transform_0 i a) (S16x16384.size a) (S16x1000000.size a)).extent (S16x16384.size a)) fun a => Pipeline.Clip.inb (Pipeline.Clip.ok_of (hstart1_0 i a))).WholeWords (EltTy.packing .f32)
  hwxs1_0 : ∀ i : grid1.Coords, EltTy.bits .f32 = 32 ∨ (Rect.unit (s := S16x16384) (fun _ => 0) (fun a => (Pipeline.Clip.of (cc1_transform_0 i a) (S16x16384.size a) (S16x1000000.size a)).extent (S16x16384.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S16x16384.size a < S16x1000000.size a
  hwx1_1 : ∀ i : grid1.Coords, EltTy.bits .f32 = 32 ∨ (Rect.unit (s := S16x1000000) (fun a => cc1_transform_1 i a * S16x16384.size a) (fun a => (Pipeline.Clip.of (cc1_transform_1 i a) (S16x16384.size a) (S16x1000000.size a)).extent (S16x16384.size a)) fun a => Pipeline.Clip.inb (Pipeline.Clip.ok_of (hstart1_1 i a))).WholeWords (EltTy.packing .f32)
  hwxs1_1 : ∀ i : grid1.Coords, EltTy.bits .f32 = 32 ∨ (Rect.unit (s := S16x16384) (fun _ => 0) (fun a => (Pipeline.Clip.of (cc1_transform_1 i a) (S16x16384.size a) (S16x1000000.size a)).extent (S16x16384.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S16x16384.size a < S16x1000000.size a
  hwx1_3 : ∀ i : grid1.Coords, EltTy.bits .f32 = 32 ∨ (Rect.unit (s := S16x1000000) (fun a => cc1_transform_3 i a * S16x16384.size a) (fun a => (Pipeline.Clip.of (cc1_transform_3 i a) (S16x16384.size a) (S16x1000000.size a)).extent (S16x16384.size a)) fun a => Pipeline.Clip.inb (Pipeline.Clip.ok_of (hstart1_3 i a))).WholeWords (EltTy.packing .f32)
  hwxs1_3 : ∀ i : grid1.Coords, EltTy.bits .f32 = 32 ∨ (Rect.unit (s := S16x16384) (fun _ => 0) (fun a => (Pipeline.Clip.of (cc1_transform_3 i a) (S16x16384.size a) (S16x1000000.size a)).extent (S16x16384.size a)) fun a => (Nat.zero_add _).trans_le (Pipeline.Clip.extent_le (Pipeline.Clip.ok_of (hstart1_3 i a)))).WholeWords (EltTy.packing .f32)

variable [Facts₀]

def scatter_S1x128_S2_S30_0_0_01_0 : ScatterDims S1x128 S2 S30 where
  updateWindowDims := [0]
  insertedWindowDims := [0]
  scatterDimsToOperandDims := [0, 1]
  indexVectorDim := 0
  wf := scatter_S1x128_S2_S30_0_0_01_0_wf

abbrev win0_0 : Pipeline.Window sig grid0 :=
  Pipeline.Window.ofSpecClip (Memref.whole main_arg0) S16x16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S16x16384.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_arg0) S16x16384.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_arg1) S16x16384.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v21) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpecClip (Memref.whole main_v22) S16x16384.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x1000000 : Shape := ⟨2, ![16, 1000000]⟩
abbrev S_ : Shape := ⟨0, ![]⟩
abbrev S16000000 : Shape := ⟨1, ![16000000]⟩
abbrev S30 : Shape := ⟨1, ![30]⟩
abbrev S16000000x1 : Shape := ⟨2, ![16000000, 1]⟩
abbrev S16x1000000x1 : Shape := ⟨3, ![16, 1000000, 1]⟩

abbrev nBuf : Space → Nat
  | .hbm => 61
  | .vmem => 0
  | .smem => 0
  | _ => 0

abbrev bufTy : (tb : Table) → Fin (tcTables nBuf tb) → BufTy
  | .hbm, ⟨0, _⟩ => ⟨S16x1000000, .f32⟩
  | .hbm, ⟨1, _⟩ => ⟨S16x1000000, .f32⟩
  | .hbm, ⟨2, _⟩ => ⟨S16x1000000, .i1⟩
  | .hbm, ⟨3, _⟩ => ⟨S16x1000000, .f32⟩
  | .hbm, ⟨4, _⟩ => ⟨S16x1000000, .f32⟩
  | .hbm, ⟨5, _⟩ => ⟨S_, .f32⟩
  | .hbm, ⟨6, _⟩ => ⟨S16x1000000, .f32⟩
  | .hbm, ⟨7, _⟩ => ⟨S16x1000000, .f32⟩
  | .hbm, ⟨8, _⟩ => ⟨S16x1000000, .f32⟩
  | .hbm, ⟨9, _⟩ => ⟨S16x1000000, .i32⟩
  | .hbm, ⟨10, _⟩ => ⟨S16000000, .i32⟩
  | .hbm, ⟨11, _⟩ => ⟨S_, .f32⟩
  | .hbm, ⟨12, _⟩ => ⟨S16000000, .f32⟩
  | .hbm, ⟨13, _⟩ => ⟨S_, .f32⟩
  | .hbm, ⟨14, _⟩ => ⟨S30, .f32⟩
  | .hbm, ⟨15, _⟩ => ⟨S16000000x1, .i32⟩
  | .hbm, ⟨16, _⟩ => ⟨S30, .f32⟩
  | .hbm, ⟨17, _⟩ => ⟨S16x1000000, .i32⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S_, .f32⟩
  | .hbm, ⟨22, _⟩ => ⟨S30, .f32⟩
  | .hbm, ⟨23, _⟩ => ⟨S30, .i1⟩
  | .hbm, ⟨24, _⟩ => ⟨S30, .i32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S30, .f32⟩
  | .hbm, ⟨29, _⟩ => ⟨S30, .f32⟩
  | .hbm, ⟨30, _⟩ => ⟨S_, .f32⟩
  | .hbm, ⟨31, _⟩ => ⟨S30, .f32⟩
  | .hbm, ⟨32, _⟩ => ⟨S30, .f32⟩
  | .hbm, ⟨33, _⟩ => ⟨S30, .f32⟩
  | .hbm, ⟨34, _⟩ => ⟨S30, .f32⟩
  | .hbm, ⟨35, _⟩ => ⟨S_, .i32⟩
  | .hbm, ⟨36, _⟩ => ⟨S16x1000000, .i32⟩
  | .hbm, ⟨37, _⟩ => ⟨S16x1000000, .i1⟩
  | .hbm, ⟨38, _⟩ => ⟨S_, .i32⟩
  | .hbm, ⟨39, _⟩ => ⟨S16x1000000, .i32⟩
  | .hbm, ⟨40, _⟩ => ⟨S16x1000000, .i32⟩
  | .hbm, ⟨41, _⟩ => ⟨S16x1000000, .i32⟩
  | .hbm, ⟨42, _⟩ => ⟨S16x1000000x1, .i32⟩
  | .hbm, ⟨43, _⟩ => ⟨S16x1000000, .f32⟩
  | .hbm, ⟨44, _⟩ => ⟨S_, .f32⟩
  | .hbm, ⟨45, _⟩ => ⟨S_, .f32⟩
  | .hbm, ⟨46, _⟩ => ⟨S16x1000000, .f32⟩
  | .hbm, ⟨47, _⟩ => ⟨S16x1000000, .f32⟩
  | .hbm, ⟨48, _⟩ => ⟨S16x1000000, .f32⟩
  | .hbm, ⟨49, _⟩ => ⟨S16x1000000, .f32⟩
  | .hbm, ⟨50, _⟩ => ⟨S16x1000000, .f32⟩
  | .hbm, ⟨51, _⟩ => ⟨S16x1000000, .f32⟩
  | .hbm, ⟨52, _⟩ => ⟨S_, .f32⟩
  | .hbm, ⟨53, _⟩ => ⟨S16x1000000, .f32⟩
  | .hbm, ⟨54, _⟩ => ⟨S16x1000000, .f32⟩
  | .hbm, ⟨55, _⟩ => ⟨S16x1000000, .f32⟩
  | .hbm, ⟨56, _⟩ => ⟨S16x1000000, .f32⟩
  | .hbm, ⟨57, _⟩ => ⟨S16x1000000, .f32⟩
  | .hbm, ⟨58, _⟩ => ⟨S16x1000000, .f32⟩
  | .hbm, ⟨59, _⟩ => ⟨S16x1000000, .f32⟩
  | .hbm, ⟨60, _⟩ => ⟨S16x1000000, .f32⟩
  | _, _ => ⟨S16x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  bcast_S_S16x1000000 : S_.BroadcastsInDim S16x1000000 (![] : Fin 0 → Fin S16x1000000.rank)
  shapeCasts_S16x1000000_S16000000 : S16x1000000.ShapeCasts S16000000
  bcast_S_S16000000 : S_.BroadcastsInDim S16000000 (![] : Fin 0 → Fin S16000000.rank)
  bcast_S_S30 : S_.BroadcastsInDim S30 (![] : Fin 0 → Fin S30.rank)
  bcast_S16000000_S16000000x1_0 : S16000000.BroadcastsInDim S16000000x1 (![0] : Fin 1 → Fin S16000000x1.rank)
  natLt_1_32 : 1 < 32
  reducesTo_S16x1000000_S_d0_1 : S16x1000000.ReducesTo [0, 1] S_
  h_S_ : 0 < S_.numel
  reducesTo_S30_S_d0 : S30.ReducesTo [0] S_
  bcast_S16x1000000_S16x1000000x1_0_1 : S16x1000000.BroadcastsInDim S16x1000000x1 (![0, 1] : Fin 2 → Fin S16x1000000x1.rank)
  scatter_S30_S16000000x1_S16000000_n_0_0_1_wf : ScatterDims.WF S30 S16000000x1 S16000000 [] [0] [0] 1
  gather_S30_S16x1000000x1_S16x1000000_n_0_n_n_0_2_1_wf : GatherDims.WF S30 S16x1000000x1 S16x1000000 [] [0] [] [0] [] 2 ![1]

variable [Facts₀]

def scatter_S30_S16000000x1_S16000000_n_0_0_1 : ScatterDims S30 S16000000x1 S16000000 where
  updateWindowDims := []
  insertedWindowDims := [0]
  scatterDimsToOperandDims := [0]
  indexVectorDim := 1
  wf := scatter_S30_S16000000x1_S16000000_n_0_0_1_wf
def gather_S30_S16x1000000x1_S16x1000000_n_0_n_n_0_2_1 : GatherDims S30 S16x1000000x1 S16x1000000 where
  offsetDims := []
  collapsedSliceDims := [0]
  operandBatchingDims := []
  startIndicesBatchingDims := []
  startIndexMap := [0]
  indexVectorDim := 2
  sliceSizes := ![1]
  wf := gather_S30_S16x1000000x1_S16x1000000_n_0_n_n_0_2_1_wf

class Facts : Prop extends Facts₀ where

variable [Facts]
-- ==== Proof.RefFrame.lean ====
/-
  The reference side of the claim that needs no arithmetic.

  The reference is a straight line of host operations: it has no kernel, so "every weakly fair execution ends, nothing
  faults, and the three argument arrays end as they began" is its run read back with the statement about the result
  dropped. And the idealized kernel is the kernel's own text read over the extended reals: the ideal pass rewrote no
  operation, so there is nothing for `preserves` to say.
-/
import proofs.«149492_j88261577933232_2_alg».proof.Defs
import proofs.«149492_j88261577933232_2_alg».proof.Proof.Gen.ReferenceIdeal
import proofs.«149492_j88261577933232_2_alg».proof.Proof.Gen.Pre_finite_inputs
import proofs.«149492_j88261577933232_2_alg».proof.Proof.RefRunPatched

noncomputable section

namespace Cert.Proof.Claims

open Idealize.ShloMosaic Idealize.SL.Sem

/-- The reference runs to the end without a fault and leaves `pconf`, `gconf` and `mask` as it found them: the last three
    conjuncts of its run's postcondition, for any memory at all (the precondition is not used). -/
theorem frame_ri : Cert.frame_ReferenceIdeal := fun m ρ _ =>
  (θ_run Cert.ReferenceIdeal.defs _ _).mono (fun _ h c => (h c).2)
    (Cert.ReferenceIdeal.ValueP.run (F := Ideal) m ρ)

/-- No operation was rewritten on the way from the kernel to its idealization, so the list of rewrites to justify is
    empty. -/
theorem preserves : Cert.preserves_Kernel_KernelIdeal := trivial

end Cert.Proof.Claims

end
-- ==== Proof.BitsRuns.lean ====
/-
  The two kernel bodies, run once each on arbitrary staging buffers.

  The histogram body reads its two 16 × 16384 input tiles and its 1 × 128 accumulator row and stores the accumulator
  once at the end; when the tile is the first of its half it first stores a row of zeros. So it has two behaviours,
  told apart by the second grid coordinate: after a reset the row it adds to is the zero row, otherwise it is whatever
  the buffer held. The loss body reads its two input tiles and thirty single weights and stores one 16 × 16384 tile.

  Each statement below says: started with the inputs' buffers holding given tiles, the body runs to its end without
  a fault, gives the inputs' buffers back unchanged, and leaves the output buffer overwritten by a list of stored
  pieces. The list is not written out here: it is whatever the body's stores are, found while running them, and later
  modules read it back. Nothing depends on the float format's interpretation, so one text serves the word-level and
  the extended-real reading alike.
-/
import proofs.«149492_j88261577933232_2_alg».proof.Proof.Gen.Kernel.Launch
import proofs.«149492_j88261577933232_2_alg».proof.Proof.Gen.Kernel.Skeleton
import proofs.«149492_j88261577933232_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The histogram body clears its accumulator exactly when the second grid coordinate (the tile's position inside its
    half) is zero. -/
abbrev resets (i : grid0.Coords) : Prop :=
  (Scalar.cmpi .ne (Scalar.extui (Scalar.cmpi .eq (BitVec.ofNat 32 (i 1).val) 0#32)) 0#32) = 1#1

/-- Over the 62 points in row-major order that is: at points 0 and 31. -/
theorem resets_iff : ∀ t : Fin cfg0.N, resets (grid0.coords t) ↔ t.val % 31 = 0 :=
  (by decide +kernel : ∀ t : Fin grid0.N, resets (grid0.coords t) ↔ t.val % 31 = 0)

set_option maxHeartbeats 4000000 in
/-- The body at a tile that opens its half: the accumulator row may hold anything beforehand (it is overwritten with
    zeros before it is read). -/
noncomputable def histRunA (c : Dev nD) (i : grid0.Coords)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : resets i)
    (x0 x1 : Vec F S16x16384 .f32) :
    { L : List (View.Piece (Elt F) S1x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E
              (cc0__hist_kernel i arg2 harg2 arg3 harg3 arg4 harg4) K } := by
  refine ⟨?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, Hk⟩
    obtain rfl := harg2.eq_unread hf0
    obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- The body at any later tile of a half: the accumulator row holds `xo`, which the body reads and adds to. -/
noncomputable def histRunB (c : Dev nD) (i : grid0.Coords)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : ¬ resets i)
    (x0 x1 : Vec F S16x16384 .f32) (xo : Vec F S1x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E
              (cc0__hist_kernel i arg2 harg2 arg3 harg3 arg4 harg4) K } := by
  refine ⟨?_, fun E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, Hk⟩
    obtain rfl := harg2.eq_unread hf0
    obtain rfl := harg3.eq_unread hf1
    obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- The loss body: tiles `x0` of `pconf` and `x1` of `gconf`, the weights row `x2`; the output tile may hold anything
    beforehand. -/
noncomputable def lossRun (c : Dev nD) (i : grid1.Coords)
    (arg1 : Memref sig .tc .vmem S16x16384 .f32) (harg1 : arg1.IsWhole)
    (arg2 : Memref sig .tc .vmem S16x16384 .f32) (harg2 : arg2.IsWhole)
    (arg3 : Memref sig .tc .vmem S1x128 .f32) (harg3 : arg3.IsWhole)
    (arg4 : Memref sig .tc .vmem S16x16384 .f32) (harg4 : arg4.IsWhole)
    (x0 x1 : Vec F S16x16384 .f32) (x2 : Vec F S1x128 .f32) :
    { L : List (View.Piece (Elt F) S16x16384 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E
              (cc1__loss_kernel i arg1 harg1 arg2 harg2 arg3 harg3 arg4 harg4) K } := by
  refine ⟨?_, fun E K => ?run⟩
  case run =>
    simp only [cc1__loss_kernel_eq_skeleton]; unfold cc1__loss_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Hand

end
-- ==== Proof.BitsHistData.lean ====
/-
  The histogram kernel, tile by tile.

  The grid is 2 × 31: point t = 31·h + k handles tile t of the 62 column tiles, and half h accumulates into lanes
  128·h … 128·h + 127 of a 1 × 256 row, bin b of the half at lane b. The accumulator row is cleared at the first tile of
  each half (k = 0), added to at every tile, and written back after the last tile of the half (k = 30).

  The last tile (t = 61) overhangs the arrays: only its first 576 columns exist, and a fetch leaves the other columns
  of the staging buffers holding words nobody names. The body nevertheless computes on all 16384 columns. What it
  stores does not depend on the unnamed words, because before binning it replaces |p − g| by 2 on every lane whose
  global column number 16384·t + (lane's column) is not below 1000000, and those are exactly the unnamed lanes
  (`binIdx_masked`). Everything the body computes from the tiles, it computes from that masked bin index.

  So the accumulator after point t is a function of the zero-padded tiles up to t (`outsAt0`): the body's value in the
  resetting case at k = 0, in the accumulating case over the previous value otherwise.
-/
import proofs.«149492_j88261577933232_2_alg».proof.Proof.Gen.Kernel.Launch
import proofs.«149492_j88261577933232_2_alg».proof.Proof.Gen.Kernel.Skeleton
import proofs.«149492_j88261577933232_2_alg».proof.Proof.Gen.Kernel.Points
import proofs.«149492_j88261577933232_2_alg».proof.Proof.BitsRuns
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the tiles are cut -/

/-- Only the last tile is cut. -/
theorem uncut0 : ∀ t : Fin cfg0.N, t.val ≠ 61 → ∀ a : Fin 2,
    win0_0.xsize (grid0.coords t) a = win0_0.size a ∧ win0_1.xsize (grid0.coords t) a = win0_1.size a :=
  (by decide +kernel : ∀ t : Fin grid0.N, t.val ≠ 61 → ∀ a : Fin 2,
    win0_0.xsize (grid0.coords t) a = win0_0.size a ∧ win0_1.xsize (grid0.coords t) a = win0_1.size a)

theorem cut61 : ∀ t : Fin cfg0.N, t.val = 61 →
    (grid0.coords t 0).val = 1 ∧ (grid0.coords t 1).val = 30
    ∧ win0_0.xsize (grid0.coords t) 0 = 16 ∧ win0_0.xsize (grid0.coords t) 1 = 576
    ∧ win0_1.xsize (grid0.coords t) 0 = 16 ∧ win0_1.xsize (grid0.coords t) 1 = 576 :=
  (by decide +kernel : ∀ t : Fin grid0.N, t.val = 61 →
    (grid0.coords t 0).val = 1 ∧ (grid0.coords t 1).val = 30
    ∧ win0_0.xsize (grid0.coords t) 0 = 16 ∧ win0_0.xsize (grid0.coords t) 1 = 576
    ∧ win0_1.xsize (grid0.coords t) 0 = 16 ∧ win0_1.xsize (grid0.coords t) 1 = 576)

/-- On the last tile the columns from 576 on lie past the array's end: there the column test fails. -/
theorem mask_off : ∀ n : Fin 16384, ¬ n.val < 576 →
    IntOp.cmpi CmpIPredicate.slt
      (IntOp.addi (BitVec.ofNat 32 n.val) (Scalar.muli (Scalar.addi (Scalar.muli 1#32 31#32) 30#32) 16384#32))
      1000000#32 = 0#1 := by decide +kernel

theorem binIdx_masked (t : Fin cfg0.N) (X0 X0' X1 X1' : Vec F S16x16384 .f32)
    (h0 : ∀ j, win0_0.moved (grid0.coords t) j = true → X0 j = X0' j)
    (h1 : ∀ j, win0_1.moved (grid0.coords t) j = true → X1 j = X1' j) :
    k0_pay3 (grid0.coords t) X0 X1 = k0_pay3 (grid0.coords t) X0' X1' := by
  funext j
  by_cases ht : t.val = 61
  · obtain ⟨e0, e1, a0, a1, b0, b1⟩ := cut61 t ht
    by_cases hj : (j 1).val < 576
    · have m0 : win0_0.moved (grid0.coords t) j = true := (win0_0.moved_iff _ _).mpr fun a => by
        match a with
        | ⟨0, _⟩ => rw [show ((⟨0, by decide⟩ : Fin 2)) = 0 from rfl, a0]; exact (j 0).isLt
        | ⟨1, _⟩ => rw [show ((⟨1, by decide⟩ : Fin 2)) = 1 from rfl, a1]; exact hj
      have m1 : win0_1.moved (grid0.coords t) j = true := (win0_1.moved_iff _ _).mpr fun a => by
        match a with
        | ⟨0, _⟩ => rw [show ((⟨0, by decide⟩ : Fin 2)) = 0 from rfl, b0]; exact (j 0).isLt
        | ⟨1, _⟩ => rw [show ((⟨1, by decide⟩ : Fin 2)) = 1 from rfl, b1]; exact hj
      simp only [k0_pay3, select, cmpi, mulf, subf, absf, floor, fptosi, broadcast, addi]
      rw [h0 j m0, h1 j m1]
    · simp only [k0_pay3, select, cmpi, mulf, subf, absf, floor, fptosi, broadcast, addi, iota, e0, e1]
      have hf : List.foldl (fun n a => n * (![16, 16384] : Fin 2 → Nat) a + (j a).val) 0 [1] = (j 1).val := by
        simp only [List.foldl, Nat.zero_mul, Nat.zero_add]
      have hm := mask_off ⟨(j 1).val, (j 1).isLt⟩ hj
      dsimp only at hm
      rw [hf, hm]
      simp only [Scalar.select, show ((0#1 : BitVec 1) = 1) = False from by decide, if_false]
  · have m0 : win0_0.moved (grid0.coords t) j = true := (win0_0.moved_iff _ _).mpr fun a => by
      rw [(uncut0 t ht a).1]; exact (j a).isLt
    have m1 : win0_1.moved (grid0.coords t) j = true := (win0_1.moved_iff _ _).mpr fun a => by
      rw [(uncut0 t ht a).2]; exact (j a).isLt
    simp only [k0_pay3, select, cmpi, mulf, subf, absf, floor, fptosi, broadcast, addi]
    rw [h0 j m0, h1 j m1]

/-- The first accumulation reads the tiles through the masked bin index only. -/
theorem firstAcc_masked (t : Fin cfg0.N) (X0 X0' X1 X1' : Vec F S16x16384 .f32) (v : Vec F S1x128 .f32)
    (h0 : ∀ j, win0_0.moved (grid0.coords t) j = true → X0 j = X0' j)
    (h1 : ∀ j, win0_1.moved (grid0.coords t) j = true → X1 j = X1' j) :
    k0_pay4 (grid0.coords t) X0 X1 v = k0_pay4 (grid0.coords t) X0' X1' v := by
  unfold k0_pay4; rw [binIdx_masked t X0 X0' X1 X1' h0 h1]

/-! ## Tiles and buffers -/

/-- Window `w`'s tile at point `t`: the part of its array the tile covers. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffers the body is handed at point `t`. -/
abbrev ms0_0 (t : Fin cfg0.N) : Memref sig .tc .vmem S16x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)

/-! ## What the body stores -/

/-- One accumulator staging buffer, through which the stored row is read back (which one does not matter). -/
abbrev VO0 : View sig .tc .vmem S1x128 .f32 := (Memref.whole cc0_stg2_0 : Memref sig .tc .vmem S1x128 .f32).view

/-- In either case the body's stores cover the whole accumulator row. -/
theorem histCoverA (c : Dev nD) (i : grid0.Coords)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : resets i)
    (x0 x1 : Vec F S16x16384 .f32) (y : S1x128.Idx) :
    ∃ pc ∈ (histRunA c i arg2 harg2 arg3 harg3 arg4 harg4 hc x0 x1).1, y ∈ pc.1.set :=
  View.cover_of_tiledL (histRunA c i arg2 harg2 arg3 harg3 arg4 harg4 hc x0 x1).1 S1x128.size (by sl_kernel_rfl) y
theorem histCoverB (c : Dev nD) (i : grid0.Coords)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : ¬ resets i)
    (x0 x1 : Vec F S16x16384 .f32) (xo : Vec F S1x128 .f32) (y : S1x128.Idx) :
    ∃ pc ∈ (histRunB c i arg2 harg2 arg3 harg3 arg4 harg4 hc x0 x1 xo).1, y ∈ pc.1.set :=
  View.cover_of_tiledL (histRunB c i arg2 harg2 arg3 harg3 arg4 harg4 hc x0 x1 xo).1 S1x128.size (by sl_kernel_rfl) y

/-- The accumulator row after the body at a tile that opens its half. -/
def histOutA (c : Dev nD) (i : grid0.Coords)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : resets i)
    (x0 x1 : Vec F S16x16384 .f32) : Vec F S1x128 .f32 :=
  VO0.read (Elt F) (VO0.writes (Elt F) VO0.junk (histRunA c i arg2 harg2 arg3 harg3 arg4 harg4 hc x0 x1).1)
/-- The accumulator row after the body at a later tile, over the row `xo` it found. -/
def histOutB (c : Dev nD) (i : grid0.Coords)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : ¬ resets i)
    (x0 x1 : Vec F S16x16384 .f32) (xo : Vec F S1x128 .f32) : Vec F S1x128 .f32 :=
  VO0.read (Elt F) (VO0.writes (Elt F) VO0.junk (histRunB c i arg2 harg2 arg3 harg3 arg4 harg4 hc x0 x1 xo).1)

/-- The stored row sees the tiles on the lanes inside the arrays only. -/
theorem histOutA_masked (c : Dev nD) (t : Fin cfg0.N)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : resets (grid0.coords t))
    (X0 X0' X1 X1' : Vec F S16x16384 .f32)
    (h0 : ∀ j, win0_0.moved (grid0.coords t) j = true → X0 j = X0' j)
    (h1 : ∀ j, win0_1.moved (grid0.coords t) j = true → X1 j = X1' j) :
    histOutA c (grid0.coords t) arg2 harg2 arg3 harg3 arg4 harg4 hc X0 X1 = histOutA c (grid0.coords t) arg2 harg2 arg3 harg3 arg4 harg4 hc X0' X1' := by
  have hz : (![0, 0] : Fin 2 → Nat) = fun _ => 0 := funext fun a => by fin_cases a <;> rfl
  unfold histOutA
  rw [View.read_writes_eq_canon _ _ _ (histCoverA c _ arg2 harg2 arg3 harg3 arg4 harg4 hc X0 X1),
    View.read_writes_eq_canon _ _ _ (histCoverA c _ arg2 harg2 arg3 harg3 arg4 harg4 hc X0' X1')]
  unfold histRunA
  dsimp only
  sl_unfold_words
  simp only [View.readAt_eq_ld, harg2.read_unread, harg3.read_unread, View.ld_unit_zero (S := S16x16384) hz,
    binIdx_masked t X0 X0' X1 X1' h0 h1, firstAcc_masked t X0 X0' X1 X1' _ h0 h1]
theorem histOutB_masked (c : Dev nD) (t : Fin cfg0.N)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : ¬ resets (grid0.coords t))
    (X0 X0' X1 X1' : Vec F S16x16384 .f32) (xo : Vec F S1x128 .f32)
    (h0 : ∀ j, win0_0.moved (grid0.coords t) j = true → X0 j = X0' j)
    (h1 : ∀ j, win0_1.moved (grid0.coords t) j = true → X1 j = X1' j) :
    histOutB c (grid0.coords t) arg2 harg2 arg3 harg3 arg4 harg4 hc X0 X1 xo = histOutB c (grid0.coords t) arg2 harg2 arg3 harg3 arg4 harg4 hc X0' X1' xo := by
  have hz : (![0, 0] : Fin 2 → Nat) = fun _ => 0 := funext fun a => by fin_cases a <;> rfl
  unfold histOutB
  rw [View.read_writes_eq_canon _ _ _ (histCoverB c _ arg2 harg2 arg3 harg3 arg4 harg4 hc X0 X1 xo),
    View.read_writes_eq_canon _ _ _ (histCoverB c _ arg2 harg2 arg3 harg3 arg4 harg4 hc X0' X1' xo)]
  unfold histRunB
  dsimp only
  sl_unfold_words
  simp only [View.readAt_eq_ld, harg2.read_unread, harg3.read_unread, View.ld_unit_zero (S := S16x16384) hz,
    binIdx_masked t X0 X0' X1 X1' h0 h1, firstAcc_masked t X0 X0' X1 X1' _ h0 h1]

end Cert.Kernel.Hand

end
-- ==== Proof.BitsHistBody.lean ====
/-
  The histogram kernel: the accumulator from point to point, and the body's obligation at every point.

  After point t the accumulator row holds `outsAt0 t`: at the first tile of a half the body's value after a reset, at
  any other tile its value over what the previous point left. The row's staging buffer is written back only after the
  last tile of a half, so between two points of one half it keeps what the body left.
-/
import proofs.«149492_j88261577933232_2_alg».proof.Proof.Gen.Kernel.Launch
import proofs.«149492_j88261577933232_2_alg».proof.Proof.Gen.Kernel.Skeleton
import proofs.«149492_j88261577933232_2_alg».proof.Proof.Gen.Kernel.Points
import proofs.«149492_j88261577933232_2_alg».proof.Proof.BitsHistData
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The `pconf` tile at point `t`, padded with zeros where the array has no column; the `gconf` tile likewise. -/
def pin0 (c : Dev nD) (t : Fin cfg0.N) : Vec F S16x16384 .f32 :=
  win0_0.fill (grid0.coords t) (fun _ => Scalar.ofBits .f32 0#32) (blk0 V c 0 t)
def gin0 (c : Dev nD) (t : Fin cfg0.N) : Vec F S16x16384 .f32 :=
  win0_1.fill (grid0.coords t) (fun _ => Scalar.ofBits .f32 0#32) (blk0 V c 1 t)

/-- THE ACCUMULATION: the accumulator row after the body at position `n`. -/
def outsAt0 (c : Dev nD) : (n : ℕ) → n < cfg0.N → Vec F S1x128 .f32
  | 0, hn => histOutA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((resets_iff ⟨0, hn⟩).mpr (Nat.zero_mod _))
      (pin0 V c ⟨0, hn⟩) (gin0 V c ⟨0, hn⟩)
  | n + 1, hn =>
    if h : (n + 1) % 31 = 0 then
      histOutA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((resets_iff ⟨n + 1, hn⟩).mpr h)
        (pin0 V c ⟨n + 1, hn⟩) (gin0 V c ⟨n + 1, hn⟩)
    else
      histOutB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h' => h ((resets_iff ⟨n + 1, hn⟩).mp h'))
        (pin0 V c ⟨n + 1, hn⟩) (gin0 V c ⟨n + 1, hn⟩) (outsAt0 c n (Nat.lt_of_succ_lt hn))

theorem outsAt0_A (c : Dev nD) (t : Fin cfg0.N) (h : t.val % 31 = 0) :
    outsAt0 V c t.val t.isLt = histOutA c (grid0.coords t) (ms0_0 t) (hs0_0 t) (ms0_1 t) (hs0_1 t) (ms0_2 t) (hs0_2 t) ((resets_iff t).mpr h) (pin0 V c t) (gin0 V c t) := by
  obtain ⟨n, hn⟩ := t
  cases n with
  | zero => exact rfl
  | succ n => exact (dif_pos h).trans rfl

theorem outsAt0_B (c : Dev nD) (t : Fin cfg0.N) (h : ¬ t.val % 31 = 0) :
    outsAt0 V c t.val t.isLt = histOutB c (grid0.coords t) (ms0_0 t) (hs0_0 t) (ms0_1 t) (hs0_1 t) (ms0_2 t) (hs0_2 t) (fun h' => h ((resets_iff t).mp h'))
      (pin0 V c t) (gin0 V c t) (outsAt0 V c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (dif_neg h).trans rfl

/-- What each staging buffer holds after the body at each point; the arrays as the kernel finds them. -/
def dat0 (c : Dev nD) : Dat τ (Elt F) Unit ℕ (UR sig nD τ) ℕ cfg0 c where
  A w := V c (Pipeline.arrRef spec0 w)
  after w t := match w with
    | ⟨0, _⟩ => pin0 V c t
    | ⟨1, _⟩ => gin0 V c t
    | ⟨2, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = pin0 V c t := by dsimp only [dat0]
theorem after0_1 (c : Dev nD) (t : Fin cfg0.N) : (dat0 V c).after 1 t = gin0 V c t := by dsimp only [dat0]
theorem after0_2 (c : Dev nD) (t : Fin cfg0.N) : (dat0 V c).after 2 t = outsAt0 V c t.val t.isLt := by dsimp only [dat0]

/-- The accumulator row is never fetched. -/
theorem fetch0_2 : ∀ t : Fin cfg0.N, (cfg0.win 2).fetch t = false :=
  (by decide +kernel : ∀ t : Fin grid0.N, win0_2.fetch t = false)

/-- Both input buffers arrive freshly fetched. -/
theorem before0_0 (c : Dev nD) (t : Fin cfg0.N) (d) :
    (dat0 V c).before 0 t d = win0_0.fill (grid0.coords t) d (blk0 V c 0 t) := by
  unfold Dat.before; rw [if_pos (fetch0_0 t)]; rfl
theorem before0_1 (c : Dev nD) (t : Fin cfg0.N) (d) :
    (dat0 V c).before 1 t d = win0_1.fill (grid0.coords t) d (blk0 V c 1 t) := by
  unfold Dat.before; rw [if_pos (fetch0_1 t)]; rfl
/-- At the first tile of a half the accumulator's buffer holds nothing in particular: it is the very first point, or
    the buffer was written back at the point before. -/
theorem before0_2_A (c : Dev nD) (t : Fin cfg0.N) (h : t.val % 31 = 0) (d) : (dat0 V c).before 2 t d = d := by
  unfold Dat.before
  rw [if_neg (by rw [fetch0_2 t]; exact Bool.false_ne_true)]
  split
  · rfl
  · rename_i h0
    exact if_pos ((flush0_2 _).mpr (by dsimp only; omega))
/-- At any other tile it holds what the body left at the point before. -/
theorem before0_2_B (c : Dev nD) (t : Fin cfg0.N) (h : ¬ t.val % 31 = 0) (d) :
    (dat0 V c).before 2 t d = outsAt0 V c (t.val - 1) (Nat.lt_of_le_of_lt (Nat.sub_le _ _) t.isLt) := by
  rw [Dat.before_out_kept _ 2 rfl t (by omega)
    (Bool.eq_false_iff.mpr fun hf => by have := (flush0_2 _).mp hf; dsimp only at this; omega)
    (fun _ => rfl) (fun _ _ => rfl)]
  dsimp only [dat0]

/-- On a lane the fetch filled, a fetched input buffer holds the array's entry whatever it held before. -/
theorem fill0_0_moved (c : Dev nD) (t : Fin cfg0.N) (d d' : S16x16384.Idx → Elt F .f32) (j : S16x16384.Idx)
    (hm : win0_0.moved (grid0.coords t) j = true) :
    win0_0.fill (grid0.coords t) d (blk0 V c 0 t) j = win0_0.fill (grid0.coords t) d' (blk0 V c 0 t) j := by
  unfold Window.fill; rw [dif_pos hm, dif_pos hm]
theorem fill0_1_moved (c : Dev nD) (t : Fin cfg0.N) (d d' : S16x16384.Idx → Elt F .f32) (j : S16x16384.Idx)
    (hm : win0_1.moved (grid0.coords t) j = true) :
    win0_1.fill (grid0.coords t) d (blk0 V c 1 t) j = win0_1.fill (grid0.coords t) d' (blk0 V c 1 t) j := by
  unfold Window.fill; rw [dif_pos hm, dif_pos hm]

set_option maxHeartbeats 1000000 in
/-- At every point: handed the two fetched input tiles and the accumulator's buffer (holding anything at the first tile
    of a half, the running row otherwise), the body runs to its end, leaves the inputs as they were and the
    accumulator at `outsAt0`. -/
theorem body_obligation0 (c : Dev nD) :
    BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0, before0_1 V c t d1]
  by_cases h : t.val % 31 = 0
  · rw [before0_2_A V c t h d2]
    iapply ((histRunA c (grid0.coords t) (ms0_0 t) (hs0_0 t) (ms0_1 t) (hs0_1 t) (ms0_2 t) (hs0_2 t) ((resets_iff t).mpr h) (win0_0.fill (grid0.coords t) d0 (blk0 V c 0 t)) (win0_1.fill (grid0.coords t) d1 (blk0 V c 1 t))).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]
    · iexists d0
      rw [after0_0]; unfold pin0; rw [win0_0.cut_fill]; iexact H0
    isplitl [H1]
    · iexists d1
      rw [after0_1]; unfold gin0; rw [win0_1.cut_fill]; iexact H1
    · rw [after0_2, outsAt0_A V c t h,
        histOutA_masked c t (ms0_0 t) (hs0_0 t) (ms0_1 t) (hs0_1 t) (ms0_2 t) (hs0_2 t) ((resets_iff t).mpr h) (pin0 V c t) (win0_0.fill (grid0.coords t) d0 (blk0 V c 0 t)) (gin0 V c t) (win0_1.fill (grid0.coords t) d1 (blk0 V c 1 t))
          (fun j hm => fill0_0_moved V c t _ _ j hm) (fun j hm => fill0_1_moved V c t _ _ j hm)]
      unfold owns; iexists _; isplitr
      swap; · iexact H2
      ipureintro; exact View.read_writes_of_cover _ _ _ _ _ (histCoverA c _ _ _ _ _ _ _ _ _ _)
  · rw [before0_2_B V c t h d2]
    iapply ((histRunB c (grid0.coords t) (ms0_0 t) (hs0_0 t) (ms0_1 t) (hs0_1 t) (ms0_2 t) (hs0_2 t) (fun h' => h ((resets_iff t).mp h')) (win0_0.fill (grid0.coords t) d0 (blk0 V c 0 t)) (win0_1.fill (grid0.coords t) d1 (blk0 V c 1 t)) (outsAt0 V c (t.val - 1) (Nat.lt_of_le_of_lt (Nat.sub_le _ _) t.isLt))).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]
    · iexists d0
      rw [after0_0]; unfold pin0; rw [win0_0.cut_fill]; iexact H0
    isplitl [H1]
    · iexists d1
      rw [after0_1]; unfold gin0; rw [win0_1.cut_fill]; iexact H1
    · rw [after0_2, outsAt0_B V c t h,
        histOutB_masked c t (ms0_0 t) (hs0_0 t) (ms0_1 t) (hs0_1 t) (ms0_2 t) (hs0_2 t) (fun h' => h ((resets_iff t).mp h')) (pin0 V c t) (win0_0.fill (grid0.coords t) d0 (blk0 V c 0 t)) (gin0 V c t) (win0_1.fill (grid0.coords t) d1 (blk0 V c 1 t)) _
          (fun j hm => fill0_0_moved V c t _ _ j hm) (fun j hm => fill0_1_moved V c t _ _ j hm)]
      unfold owns; iexists _; isplitr
      swap; · iexact H2
      ipureintro; exact View.read_writes_of_cover _ _ _ _ _ (histCoverB c _ _ _ _ _ _ _ _ _ _ _)

end Cert.Kernel.Hand

end
-- ==== Proof.BitsLossData.lean ====
/-
  The loss kernel, tile by tile.

  The grid has 62 points; point t handles columns 16384·t … 16384·t + 16383 of the 16 × 1000000 arrays. The last tile
  (t = 61) overhangs the arrays: only its first 576 columns exist. A fetch of that tile fills the first 576 columns of
  the staging buffer and leaves the rest holding words nobody names, the body computes on all 16384 columns, and the
  write-back copies only the first 576 columns out. So what the output array receives must not depend on the unnamed
  columns, and it does not, because the body is lane-wise: output lane j is a function of lane j of the two input
  tiles and of the thirty weights (`lossOut_local`).

  With that, the bookkeeping per point is: both input buffers hold their tile (the array's columns where they exist),
  the weights buffer holds the 1 × 128 weights row (fetched once, at the first point, and kept), and after the body
  the output buffer holds, on the columns that exist, the body's value at the zero-padded tiles.
-/
import proofs.«149492_j88261577933232_2_alg».proof.Proof.Gen.Kernel.Launch
import proofs.«149492_j88261577933232_2_alg».proof.Proof.Gen.Kernel.Skeleton
import proofs.«149492_j88261577933232_2_alg».proof.Proof.Gen.Kernel.Points
import proofs.«149492_j88261577933232_2_alg».proof.Proof.BitsRuns
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Tiles -/

/-- Window `w`'s tile at point `t`: the part of its array the tile covers (for the last tile, the 576 columns that
    exist). -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffers the body is handed at point `t`. -/
abbrev ms1_0 (t : Fin cfg1.N) : Memref sig .tc .vmem S16x16384 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x16384 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x16384 .f32 := win1_3.stage (cfg1.slots t 3)
abbrev hs1_3 (t : Fin cfg1.N) : (ms1_3 t).IsWhole := hstage1_3 ((cfg1.slots t 3).cast nbuf1_3)

/-! ## What the body stores -/

/-- One output staging buffer, through which the stored tile is read back (which one does not matter). -/
abbrev VO1 : View sig .tc .vmem S16x16384 .f32 := (Memref.whole cc1_stg3_0 : Memref sig .tc .vmem S16x16384 .f32).view

/-- The body's one store covers the whole output tile. -/
theorem lossCover (c : Dev nD) (i : grid1.Coords)
    (arg1 : Memref sig .tc .vmem S16x16384 .f32) (harg1 : arg1.IsWhole)
    (arg2 : Memref sig .tc .vmem S16x16384 .f32) (harg2 : arg2.IsWhole)
    (arg3 : Memref sig .tc .vmem S1x128 .f32) (harg3 : arg3.IsWhole)
    (arg4 : Memref sig .tc .vmem S16x16384 .f32) (harg4 : arg4.IsWhole)
    (x0 x1 : Vec F S16x16384 .f32) (x2 : Vec F S1x128 .f32) (y : S16x16384.Idx) :
    ∃ pc ∈ (lossRun c i arg1 harg1 arg2 harg2 arg3 harg3 arg4 harg4 x0 x1 x2).1, y ∈ pc.1.set :=
  View.cover_of_tiledL (lossRun c i arg1 harg1 arg2 harg2 arg3 harg3 arg4 harg4 x0 x1 x2).1 S16x16384.size (by sl_kernel_rfl) y

/-- The tile the body leaves in the output buffer, as a function of the two input tiles and the weights row. -/
def lossOut (c : Dev nD) (i : grid1.Coords)
    (arg1 : Memref sig .tc .vmem S16x16384 .f32) (harg1 : arg1.IsWhole)
    (arg2 : Memref sig .tc .vmem S16x16384 .f32) (harg2 : arg2.IsWhole)
    (arg3 : Memref sig .tc .vmem S1x128 .f32) (harg3 : arg3.IsWhole)
    (arg4 : Memref sig .tc .vmem S16x16384 .f32) (harg4 : arg4.IsWhole)
    (x0 x1 : Vec F S16x16384 .f32) (x2 : Vec F S1x128 .f32) : Vec F S16x16384 .f32 :=
  VO1.read (Elt F) (VO1.writes (Elt F) VO1.junk (lossRun c i arg1 harg1 arg2 harg2 arg3 harg3 arg4 harg4 x0 x1 x2).1)

/-- THE BODY IS LANE-WISE: its value at lane `j` sees the input tiles at lane `j` only. (Every operation between the
    loads and the store acts lane by lane; the weights enter as thirty broadcast scalars.) -/
theorem lossOut_local (c : Dev nD) (i : grid1.Coords)
    (arg1 : Memref sig .tc .vmem S16x16384 .f32) (harg1 : arg1.IsWhole)
    (arg2 : Memref sig .tc .vmem S16x16384 .f32) (harg2 : arg2.IsWhole)
    (arg3 : Memref sig .tc .vmem S1x128 .f32) (harg3 : arg3.IsWhole)
    (arg4 : Memref sig .tc .vmem S16x16384 .f32) (harg4 : arg4.IsWhole)
    (X0 X0' X1 X1' : Vec F S16x16384 .f32) (x2 : Vec F S1x128 .f32) (j : S16x16384.Idx)
    (h0 : X0 j = X0' j) (h1 : X1 j = X1' j) :
    lossOut c i arg1 harg1 arg2 harg2 arg3 harg3 arg4 harg4 X0 X1 x2 j = lossOut c i arg1 harg1 arg2 harg2 arg3 harg3 arg4 harg4 X0' X1' x2 j := by
  have hz : (![0, 0] : Fin 2 → Nat) = fun _ => 0 := funext fun a => by fin_cases a <;> rfl
  unfold lossOut
  rw [View.read_writes_eq_canon _ _ _ (lossCover c i arg1 harg1 arg2 harg2 arg3 harg3 arg4 harg4 X0 X1 x2),
    View.read_writes_eq_canon _ _ _ (lossCover c i arg1 harg1 arg2 harg2 arg3 harg3 arg4 harg4 X0' X1' x2)]
  unfold lossRun
  dsimp only
  sl_unfold_words
  rw [View.canon_unit_zero hz, View.canon_unit_zero hz]
  simp only [View.readAt_eq_ld, harg1.read_unread, harg2.read_unread, View.ld_unit_zero (S := S16x16384) hz]
  simp only [k1_pay1, k1_pay2, k1_pay3, k1_pay5, k1_pay7, k1_pay9, k1_pay11,
    select, cmpi, mulf, subf, addf, absf, floor, fptosi, maximumf, minimumf, log, log1p, broadcast]
  rw [h0, h1]

/-! ## The bookkeeping -/

/-- The `pconf` tile at point `t`, padded with zeros where the array has no column. -/
def pin1 (c : Dev nD) (t : Fin cfg1.N) : Vec F S16x16384 .f32 :=
  win1_0.fill (grid1.coords t) (fun _ => Scalar.ofBits .f32 0#32) (blk1 V c 0 t)
/-- The `gconf` tile likewise. -/
def gin1 (c : Dev nD) (t : Fin cfg1.N) : Vec F S16x16384 .f32 :=
  win1_1.fill (grid1.coords t) (fun _ => Scalar.ofBits .f32 0#32) (blk1 V c 1 t)
/-- The loss tile at point `t`: the body's value at the padded tiles and the weights row. -/
def out1 (c : Dev nD) (t : Fin cfg1.N) : Vec F S16x16384 .f32 :=
  lossOut c (grid1.coords t) (ms1_0 t) (hs1_0 t) (ms1_1 t) (hs1_1 t) (ms1_2 t) (hs1_2 t) (ms1_3 t) (hs1_3 t) (pin1 V c t) (gin1 V c t) (blk1 V c 2 t)

/-- What each staging buffer holds after the body at each point; the arrays as the kernel finds them. -/
def dat1 (c : Dev nD) : Dat τ (Elt F) Unit ℕ (UR sig nD τ) ℕ cfg1 c where
  A w := V c (Pipeline.arrRef spec1 w)
  after w t := match w with
    | ⟨0, _⟩ => pin1 V c t
    | ⟨1, _⟩ => gin1 V c t
    | ⟨2, _⟩ => blk1 V c 2 t
    | ⟨3, _⟩ => out1 V c t
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = pin1 V c t := by dsimp only [dat1]
theorem after1_1 (c : Dev nD) (t : Fin cfg1.N) : (dat1 V c).after 1 t = gin1 V c t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = out1 V c t := by dsimp only [dat1]

/-- The output tile is never fetched. -/
theorem fetch1_3 : ∀ t : Fin cfg1.N, (cfg1.win 3).fetch t = false :=
  (by decide +kernel : ∀ t : Fin grid1.N, win1_3.fetch t = false)

/-- Both input buffers arrive freshly fetched: the tile where the array has columns, whatever was there elsewhere. -/
theorem before1_0 (c : Dev nD) (t : Fin cfg1.N) (d) :
    (dat1 V c).before 0 t d = win1_0.fill (grid1.coords t) d (blk1 V c 0 t) := by
  unfold Dat.before; rw [if_pos (fetch1_0 t)]; rfl
theorem before1_1 (c : Dev nD) (t : Fin cfg1.N) (d) :
    (dat1 V c).before 1 t d = win1_1.fill (grid1.coords t) d (blk1 V c 1 t) := by
  unfold Dat.before; rw [if_pos (fetch1_1 t)]; rfl
/-- The weights buffer holds the weights row at every point: fetched at the first, untouched since. -/
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans
    (by unfold Dat.fetched Dat.blockOf blk1; rw [A_eq1]; try rfl)
/-- The output buffer arrives holding nothing in particular: it was written back at the point before. -/
theorem before1_3 (c : Dev nD) (t : Fin cfg1.N) (d) : (dat1 V c).before 3 t d = d := by
  unfold Dat.before
  rw [if_neg (by rw [fetch1_3 t]; exact Bool.false_ne_true)]
  split
  · rfl
  · exact if_pos (flush1_3 _)

/-! ## The body obligation -/

/-- The output tile is cut where the input tiles are: on each axis the three windows move the same number of lanes. -/
theorem cut_alike1 : ∀ t : Fin cfg1.N, ∀ a : Fin 2,
    win1_3.xsize (grid1.coords t) a = win1_0.xsize (grid1.coords t) a
      ∧ win1_3.xsize (grid1.coords t) a = win1_1.xsize (grid1.coords t) a :=
  (by decide +kernel : ∀ t : Fin grid1.N, ∀ a : Fin 2,
    win1_3.xsize (grid1.coords t) a = win1_0.xsize (grid1.coords t) a
      ∧ win1_3.xsize (grid1.coords t) a = win1_1.xsize (grid1.coords t) a)

/-- On a lane the fetch filled, a fetched input buffer holds the array's entry whatever it held before. -/
theorem fill0_moved (c : Dev nD) (t : Fin cfg1.N) (d d' : S16x16384.Idx → Elt F .f32) (j : S16x16384.Idx)
    (h : win1_0.moved (grid1.coords t) j = true) :
    win1_0.fill (grid1.coords t) d (blk1 V c 0 t) j = win1_0.fill (grid1.coords t) d' (blk1 V c 0 t) j := by
  unfold Window.fill; rw [dif_pos h, dif_pos h]
theorem fill1_moved (c : Dev nD) (t : Fin cfg1.N) (d d' : S16x16384.Idx → Elt F .f32) (j : S16x16384.Idx)
    (h : win1_1.moved (grid1.coords t) j = true) :
    win1_1.fill (grid1.coords t) d (blk1 V c 1 t) j = win1_1.fill (grid1.coords t) d' (blk1 V c 1 t) j := by
  unfold Window.fill; rw [dif_pos h, dif_pos h]

/-- What the write-back copies out does not depend on the unnamed columns: on the lanes it moves, the body's value at
    the buffers as fetched is its value at the zero-padded tiles. -/
theorem cut_out1 (c : Dev nD) (t : Fin cfg1.N) (d0 d1 : S16x16384.Idx → Elt F .f32) :
    win1_3.cut (grid1.coords t)
        (lossOut c (grid1.coords t) (ms1_0 t) (hs1_0 t) (ms1_1 t) (hs1_1 t) (ms1_2 t) (hs1_2 t) (ms1_3 t) (hs1_3 t)
          (win1_0.fill (grid1.coords t) d0 (blk1 V c 0 t)) (win1_1.fill (grid1.coords t) d1 (blk1 V c 1 t)) (blk1 V c 2 t))
      = win1_3.cut (grid1.coords t) (out1 V c t) := by
  funext y
  have hm0 : win1_0.moved (grid1.coords t) (win1_3.xinj (grid1.coords t) y) = true :=
    (win1_0.moved_iff _ _).mpr fun a => by
      have h : (y a).val < win1_3.xsize (grid1.coords t) a := (y a).isLt
      rw [(cut_alike1 t a).1] at h; exact h
  have hm1 : win1_1.moved (grid1.coords t) (win1_3.xinj (grid1.coords t) y) = true :=
    (win1_1.moved_iff _ _).mpr fun a => by
      have h : (y a).val < win1_3.xsize (grid1.coords t) a := (y a).isLt
      rw [(cut_alike1 t a).2] at h; exact h
  exact lossOut_local c (grid1.coords t) (ms1_0 t) (hs1_0 t) (ms1_1 t) (hs1_1 t) (ms1_2 t) (hs1_2 t) (ms1_3 t) (hs1_3 t) _ _ _ _ _ _
    (fill0_moved V c t d0 _ _ hm0) (fill1_moved V c t d1 _ _ hm1)

set_option maxHeartbeats 1000000 in
/-- At every point: handed the two fetched input tiles, the weights row and an output buffer holding anything, the
    body runs to its end and leaves the inputs and the weights as they were and, on the lanes that are written
    back, the loss tile. -/
theorem body_obligation1 (c : Dev nD) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2, before1_3 V c t d3]
  iapply ((lossRun c (grid1.coords t) (ms1_0 t) (hs1_0 t) (ms1_1 t) (hs1_1 t) (ms1_2 t) (hs1_2 t) (ms1_3 t) (hs1_3 t) (win1_0.fill (grid1.coords t) d0 (blk1 V c 0 t)) (win1_1.fill (grid1.coords t) d1 (blk1 V c 1 t)) (blk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]
  · iexists d0
    rw [after1_0]; unfold pin1; rw [win1_0.cut_fill]; iexact H0
  isplitl [H1]
  · iexists d1
    rw [after1_1]; unfold gin1; rw [win1_1.cut_fill]; iexact H1
  isplitl [H2]
  · rw [after1_2]; iexact H2
  · iexists (lossOut c (grid1.coords t) (ms1_0 t) (hs1_0 t) (ms1_1 t) (hs1_1 t) (ms1_2 t) (hs1_2 t) (ms1_3 t) (hs1_3 t)
      (win1_0.fill (grid1.coords t) d0 (blk1 V c 0 t)) (win1_1.fill (grid1.coords t) d1 (blk1 V c 1 t)) (blk1 V c 2 t))
    rw [after1_3, ← cut_out1 V c t d0 d1, win1_3.fill_cut]
    unfold owns; iexists _; isplitr
    swap; · iexact H3
    ipureintro; exact View.read_writes_of_cover _ _ _ _ _ (lossCover c _ _ _ _ _ _ _ _ _ _ _ _)

end Cert.Kernel.Hand

end
-- ==== Proof.BitsRegions.lean ====
/-
  The whole program: histogram kernel, three stretches of host arithmetic, loss kernel.

  Between consecutive items every buffer outside the kernels' scratch has a known content, computed by folding through
  the program from the launch memory: a kernel changes only the arrays its windows cover, to what its write-backs leave;
  a host stretch applies its operations. The run below says that every weakly fair execution ends without a fault with
  all those buffers at the last of these contents. Read at the three arguments that is the frame (no item writes an
  argument); read at the result it is the value the algebra is about.
-/
import proofs.«149492_j88261577933232_2_alg».proof.Proof.Gen.Kernel.Launch
import proofs.«149492_j88261577933232_2_alg».proof.Proof.Gen.Kernel.Skeleton
import proofs.«149492_j88261577933232_2_alg».proof.Proof.Gen.Kernel.Points
import proofs.«149492_j88261577933232_2_alg».proof.Proof.Gen.Kernel.Regions
import proofs.«149492_j88261577933232_2_alg».proof.Proof.BitsHistBody
import proofs.«149492_j88261577933232_2_alg».proof.Proof.BitsLossData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- At launch. -/
abbrev W0 : Dev nD → Valuation τ sig (Elt F) := fun c b => m ((c : Dev nD), b)
abbrev Ve0 : (c : Dev nD) → (b : Ref sig .tc) → Buf (Elt F) ((c : Thread nD τ).loc b) := fun c b => W0 m c b
/-- After the histogram kernel: its arrays at what its write-backs leave, everything else as it was. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vx0 : (c : Dev nD) → (b : Ref sig .tc) → Buf (Elt F) ((c : Thread nD τ).loc b) := fun c b => W1 m c b
theorem hF0 (c : Dev nD) (w : Fin cfg0.W) : (dat0 (Ve0 m) c).arrAt w cfg0.N = Vx0 m c (Pipeline.arrRef spec0 w) :=
  (W1_arr m c w).symm
theorem hrest0 (c : Dev nD) : ∀ b, b ∉ Finset.univ.image (Pipeline.arrRef spec0) → Vx0 m c b = Ve0 m c b :=
  fun b hb => W1_of_ne m c b fun w e => hb (Finset.mem_image.mpr ⟨w, Finset.mem_univ _, e⟩)
/-- After each of the three host stretches. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev Ve1 : (c : Dev nD) → (b : Ref sig .tc) → Buf (Elt F) ((c : Thread nD τ).loc b) := fun c b => W4 m c b
/-- After the loss kernel. -/
def W5 (c : Dev nD) : Valuation τ sig (Elt F) :=
  Pipeline.withArrays spec1 c (W4 m c) fun w => (dat1 (Ve1 m) c).arrAt w cfg1.N
theorem W5_arr (c : Dev nD) (w : Fin cfg1.W) :
    W5 m c (Proc.devRef .tc (Pipeline.arrRef spec1 w)) = (dat1 (Ve1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev Vx1 : (c : Dev nD) → (b : Ref sig .tc) → Buf (Elt F) ((c : Thread nD τ).loc b) := fun c b => W5 m c b
theorem hF1 (c : Dev nD) (w : Fin cfg1.W) : (dat1 (Ve1 m) c).arrAt w cfg1.N = Vx1 m c (Pipeline.arrRef spec1 w) :=
  (W5_arr m c w).symm
theorem hrest1 (c : Dev nD) : ∀ b, b ∉ Finset.univ.image (Pipeline.arrRef spec1) → Vx1 m c b = Ve1 m c b :=
  fun b hb => W5_of_ne m c b fun w e => hb (Finset.mem_image.mpr ⟨w, Finset.mem_univ _, e⟩)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
abbrev L : GSem nD τ sig → Finset Unit := fun _ => ∅
abbrev lv : GSem nD τ sig → Unit → ℕ := fun _ _ => 0
/-- What rides beside the buffers through every item: the core's generator register and its dues, which are none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The kernels as items -/

set_option backward.isDefEq.respectTransparency.types false in
/-- The histogram kernel: entered with every buffer at its launch contents, left with its arrays at what the
    write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (Ve0 m) c
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The loss kernel: entered after the host arithmetic, left at the final contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (Ve1 m) c
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev mainSegs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m) ]
theorem main_run (c : Dev nD) : main (F := F) c = Pipeline.Seg.run (mainSegs m) := (main_chain c).trans (by chain_rfl)

variable (ρ : Dev nD → PrngReg)

set_option backward.isDefEq.respectTransparency.types false in
/-- THE RUN: from any memory with zero counters every weakly fair execution ends, nothing faulting, with every buffer
    outside the kernels' scratch at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.BitsFrame.lean ====
/-
  The run read at the arguments and at the result.

  `pconf` and `gconf` are inputs of both kernels (a kernel leaves an input array as it found it) and no host operation
  writes them; `mask` is touched by no kernel and written by no host operation. So all three end as launched. The
  result array is the loss kernel's output array: it ends at what that kernel's sixty-two write-backs leave.
-/
import proofs.«149492_j88261577933232_2_alg».proof.Proof.Gen.Kernel.Launch
import proofs.«149492_j88261577933232_2_alg».proof.Proof.Gen.Kernel.Skeleton
import proofs.«149492_j88261577933232_2_alg».proof.Proof.Gen.Kernel.Points
import proofs.«149492_j88261577933232_2_alg».proof.Proof.Gen.Kernel.Regions
import proofs.«149492_j88261577933232_2_alg».proof.Proof.BitsRegions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

theorem W5_main_arg0 (c : Dev nD) : W5 m c (Proc.devRef .tc main_arg0) = m ((c : Thread nD τ).loc main_arg0) :=
  calc W5 m c (Proc.devRef .tc main_arg0)
    _ = W4 m c (Proc.devRef .tc main_arg0) := (W5_arr m c 0).trans (((dat1 (Ve1 m) c).arrAt_in 0 rfl _).trans (A_eq1 (Ve1 m) c 0))
    _ = W3 m c (Proc.devRef .tc main_arg0) := StableHlo.after_of_writes_sub hostOps1_2 _ hostOps1_2_writes (by decide : main_arg0 ∉ hostOps1_2_W)
    _ = W2 m c (Proc.devRef .tc main_arg0) := StableHlo.after_of_writes_sub hostOps1_1 _ hostOps1_1_writes (by decide : main_arg0 ∉ hostOps1_1_W)
    _ = W1 m c (Proc.devRef .tc main_arg0) := StableHlo.after_of_writes_sub hostOps1 _ hostOps1_writes (by decide : main_arg0 ∉ hostOps1_W)
    _ = W0 m c (Proc.devRef .tc main_arg0) := (W1_arr m c 0).trans (((dat0 (Ve0 m) c).arrAt_in 0 rfl _).trans (A_eq0 (Ve0 m) c 0))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := (W5_arr m c 1).trans (((dat1 (Ve1 m) c).arrAt_in 1 rfl _).trans (A_eq1 (Ve1 m) c 1))
    _ = W3 m c (Proc.devRef .tc main_arg1) := StableHlo.after_of_writes_sub hostOps1_2 _ hostOps1_2_writes (by decide : main_arg1 ∉ hostOps1_2_W)
    _ = W2 m c (Proc.devRef .tc main_arg1) := StableHlo.after_of_writes_sub hostOps1_1 _ hostOps1_1_writes (by decide : main_arg1 ∉ hostOps1_1_W)
    _ = W1 m c (Proc.devRef .tc main_arg1) := StableHlo.after_of_writes_sub hostOps1 _ hostOps1_writes (by decide : main_arg1 ∉ hostOps1_W)
    _ = W0 m c (Proc.devRef .tc main_arg1) := (W1_arr m c 1).trans (((dat0 (Ve0 m) c).arrAt_in 1 rfl _).trans (A_eq0 (Ve0 m) c 1))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := StableHlo.after_of_writes_sub hostOps1_2 _ hostOps1_2_writes (by decide : main_arg2 ∉ hostOps1_2_W)
    _ = W2 m c (Proc.devRef .tc main_arg2) := StableHlo.after_of_writes_sub hostOps1_1 _ hostOps1_1_writes (by decide : main_arg2 ∉ hostOps1_1_W)
    _ = W1 m c (Proc.devRef .tc main_arg2) := StableHlo.after_of_writes_sub hostOps1 _ hostOps1_writes (by decide : main_arg2 ∉ hostOps1_W)
    _ = W0 m c (Proc.devRef .tc main_arg2) := W1_of_ne m c main_arg2 (by decide)
    _ = m ((c : Thread nD τ).loc main_arg2) := rfl

variable (ρ : Dev nD → PrngReg)

/-- THE FRAME, at either reading of the floats: every weakly fair execution ends, nothing faulting, with the three
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

/-- The same run, with the result array named: what the loss kernel's write-backs leave in it. -/
theorem run_result : θ_run defs (onTc (τ := τ) (main (F := F))) ⟨m, fun _ => 0, ρ⟩ (fun r => ∀ c : Dev nD,
      r.2.mem ((c.tc : Thread nD τ).loc main_v22) = (dat1 (Ve1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v22 (by decide))).trans (W5_arr m c 3),
     (h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.Kernel.Hand

end
-- ==== Proof.IdealRuns.lean ====
/-
  The two kernel bodies, run once each on arbitrary staging buffers.

  The histogram body reads its two 16 × 16384 input tiles and its 1 × 128 accumulator row and stores the accumulator
  once at the end; when the tile is the first of its half it first stores a row of zeros. So it has two behaviours,
  told apart by the second grid coordinate: after a reset the row it adds to is the zero row, otherwise it is whatever
  the buffer held. The loss body reads its two input tiles and thirty single weights and stores one 16 × 16384 tile.

  Each statement below says: started with the inputs' buffers holding given tiles, the body runs to its end without
  a fault, gives the inputs' buffers back unchanged, and leaves the output buffer overwritten by a list of stored
  pieces. The list is not written out here: it is whatever the body's stores are, found while running them, and later
  modules read it back. Nothing depends on the float format's interpretation, so one text serves the word-level and
  the extended-real reading alike.
-/
import proofs.«149492_j88261577933232_2_alg».proof.Proof.Gen.KernelIdeal.Launch
import proofs.«149492_j88261577933232_2_alg».proof.Proof.Gen.KernelIdeal.Skeleton
import proofs.«149492_j88261577933232_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The histogram body clears its accumulator exactly when the second grid coordinate (the tile's position inside its
    half) is zero. -/
abbrev resets (i : grid0.Coords) : Prop :=
  (Scalar.cmpi .ne (Scalar.extui (Scalar.cmpi .eq (BitVec.ofNat 32 (i 1).val) 0#32)) 0#32) = 1#1

/-- Over the 62 points in row-major order that is: at points 0 and 31. -/
theorem resets_iff : ∀ t : Fin cfg0.N, resets (grid0.coords t) ↔ t.val % 31 = 0 :=
  (by decide +kernel : ∀ t : Fin grid0.N, resets (grid0.coords t) ↔ t.val % 31 = 0)

set_option maxHeartbeats 4000000 in
/-- The body at a tile that opens its half: the accumulator row may hold anything beforehand (it is overwritten with
    zeros before it is read). -/
noncomputable def histRunA (c : Dev nD) (i : grid0.Coords)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : resets i)
    (x0 x1 : Vec F S16x16384 .f32) :
    { L : List (View.Piece (Elt F) S1x128 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E
              (cc0__hist_kernel i arg2 harg2 arg3 harg3 arg4 harg4) K } := by
  refine ⟨?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, Hk⟩
    obtain rfl := harg2.eq_unread hf0
    obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- The body at any later tile of a half: the accumulator row holds `xo`, which the body reads and adds to. -/
noncomputable def histRunB (c : Dev nD) (i : grid0.Coords)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : ¬ resets i)
    (x0 x1 : Vec F S16x16384 .f32) (xo : Vec F S1x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L)) -∗ K ⟨⟩))
          ⊢ wp frame (wpE (defs₀ (F := F)) Variants.none c none) E
              (cc0__hist_kernel i arg2 harg2 arg3 harg3 arg4 harg4) K } := by
  refine ⟨?_, fun E K => ?run⟩
  case run =>
    simp only [cc0__hist_kernel_eq_skeleton]; unfold cc0__hist_kernel_skel
    unfold owns
    iintro ⟨⟨%f0, %hf0, H0⟩, ⟨%f1, %hf1, H1⟩, ⟨%f2, %hf2, H2⟩, Hk⟩
    obtain rfl := harg2.eq_unread hf0
    obtain rfl := harg3.eq_unread hf1
    obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 4000000 in
/-- The loss body: tiles `x0` of `pconf` and `x1` of `gconf`, the weights row `x2`; the output tile may hold anything
    beforehand. -/
noncomputable def lossRun (c : Dev nD) (i : grid1.Coords)
    (arg1 : Memref sig .tc .vmem S16x16384 .f32) (harg1 : arg1.IsWhole)
    (arg2 : Memref sig .tc .vmem S16x16384 .f32) (harg2 : arg2.IsWhole)
    (arg3 : Memref sig .tc .vmem S1x128 .f32) (harg3 : arg3.IsWhole)
    (arg4 : Memref sig .tc .vmem S16x16384 .f32) (harg4 : arg4.IsWhole)
    (x0 x1 : Vec F S16x16384 .f32) (x2 : Vec F S1x128 .f32) :
    { L : List (View.Piece (Elt F) S16x16384 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ (∃ d, owns (c : Thread nD τ) arg4 fullShare d)
            ∗ (iprop(owns (c : Thread nD τ) arg1 fullShare x0 ∗ owns (c : Thread nD τ) arg2 fullShare x1
                ∗ owns (c : Thread nD τ) arg3 fullShare x2
                ∗ (∃ f, arg4.view.loc (c : Thread nD τ) ↦[arg4.view.set]{fullShare} arg4.view.writes (Elt F) f L)) -∗ K ⟨⟩))
          ⊢ wp frame (wpE (defs₀ (F := F)) Variants.none c none) E
              (cc1__loss_kernel i arg1 harg1 arg2 harg2 arg3 harg3 arg4 harg4) K } := by
  refine ⟨?_, fun E K => ?run⟩
  case run =>
    simp only [cc1__loss_kernel_eq_skeleton]; unfold cc1__loss_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Hand

end
-- ==== Proof.IdealHistData.lean ====
/-
  The histogram kernel, tile by tile.

  The grid is 2 × 31: point t = 31·h + k handles tile t of the 62 column tiles, and half h accumulates into lanes
  128·h … 128·h + 127 of a 1 × 256 row, bin b of the half at lane b. The accumulator row is cleared at the first tile of
  each half (k = 0), added to at every tile, and written back after the last tile of the half (k = 30).

  The last tile (t = 61) overhangs the arrays: only its first 576 columns exist, and a fetch leaves the other columns
  of the staging buffers holding words nobody names. The body nevertheless computes on all 16384 columns. What it
  stores does not depend on the unnamed words, because before binning it replaces |p − g| by 2 on every lane whose
  global column number 16384·t + (lane's column) is not below 1000000, and those are exactly the unnamed lanes
  (`binIdx_masked`). Everything the body computes from the tiles, it computes from that masked bin index.

  So the accumulator after point t is a function of the zero-padded tiles up to t (`outsAt0`): the body's value in the
  resetting case at k = 0, in the accumulating case over the previous value otherwise.
-/
import proofs.«149492_j88261577933232_2_alg».proof.Proof.Gen.KernelIdeal.Launch
import proofs.«149492_j88261577933232_2_alg».proof.Proof.Gen.KernelIdeal.Skeleton
import proofs.«149492_j88261577933232_2_alg».proof.Proof.Gen.KernelIdeal.Points
import proofs.«149492_j88261577933232_2_alg».proof.Proof.IdealRuns
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the tiles are cut -/

/-- Only the last tile is cut. -/
theorem uncut0 : ∀ t : Fin cfg0.N, t.val ≠ 61 → ∀ a : Fin 2,
    win0_0.xsize (grid0.coords t) a = win0_0.size a ∧ win0_1.xsize (grid0.coords t) a = win0_1.size a :=
  (by decide +kernel : ∀ t : Fin grid0.N, t.val ≠ 61 → ∀ a : Fin 2,
    win0_0.xsize (grid0.coords t) a = win0_0.size a ∧ win0_1.xsize (grid0.coords t) a = win0_1.size a)

theorem cut61 : ∀ t : Fin cfg0.N, t.val = 61 →
    (grid0.coords t 0).val = 1 ∧ (grid0.coords t 1).val = 30
    ∧ win0_0.xsize (grid0.coords t) 0 = 16 ∧ win0_0.xsize (grid0.coords t) 1 = 576
    ∧ win0_1.xsize (grid0.coords t) 0 = 16 ∧ win0_1.xsize (grid0.coords t) 1 = 576 :=
  (by decide +kernel : ∀ t : Fin grid0.N, t.val = 61 →
    (grid0.coords t 0).val = 1 ∧ (grid0.coords t 1).val = 30
    ∧ win0_0.xsize (grid0.coords t) 0 = 16 ∧ win0_0.xsize (grid0.coords t) 1 = 576
    ∧ win0_1.xsize (grid0.coords t) 0 = 16 ∧ win0_1.xsize (grid0.coords t) 1 = 576)

/-- On the last tile the columns from 576 on lie past the array's end: there the column test fails. -/
theorem mask_off : ∀ n : Fin 16384, ¬ n.val < 576 →
    IntOp.cmpi CmpIPredicate.slt
      (IntOp.addi (BitVec.ofNat 32 n.val) (Scalar.muli (Scalar.addi (Scalar.muli 1#32 31#32) 30#32) 16384#32))
      1000000#32 = 0#1 := by decide +kernel

theorem binIdx_masked (t : Fin cfg0.N) (X0 X0' X1 X1' : Vec F S16x16384 .f32)
    (h0 : ∀ j, win0_0.moved (grid0.coords t) j = true → X0 j = X0' j)
    (h1 : ∀ j, win0_1.moved (grid0.coords t) j = true → X1 j = X1' j) :
    k0_pay3 (grid0.coords t) X0 X1 = k0_pay3 (grid0.coords t) X0' X1' := by
  funext j
  by_cases ht : t.val = 61
  · obtain ⟨e0, e1, a0, a1, b0, b1⟩ := cut61 t ht
    by_cases hj : (j 1).val < 576
    · have m0 : win0_0.moved (grid0.coords t) j = true := (win0_0.moved_iff _ _).mpr fun a => by
        match a with
        | ⟨0, _⟩ => rw [show ((⟨0, by decide⟩ : Fin 2)) = 0 from rfl, a0]; exact (j 0).isLt
        | ⟨1, _⟩ => rw [show ((⟨1, by decide⟩ : Fin 2)) = 1 from rfl, a1]; exact hj
      have m1 : win0_1.moved (grid0.coords t) j = true := (win0_1.moved_iff _ _).mpr fun a => by
        match a with
        | ⟨0, _⟩ => rw [show ((⟨0, by decide⟩ : Fin 2)) = 0 from rfl, b0]; exact (j 0).isLt
        | ⟨1, _⟩ => rw [show ((⟨1, by decide⟩ : Fin 2)) = 1 from rfl, b1]; exact hj
      simp only [k0_pay3, select, cmpi, mulf, subf, absf, floor, fptosi, broadcast, addi]
      rw [h0 j m0, h1 j m1]
    · simp only [k0_pay3, select, cmpi, mulf, subf, absf, floor, fptosi, broadcast, addi, iota, e0, e1]
      have hf : List.foldl (fun n a => n * (![16, 16384] : Fin 2 → Nat) a + (j a).val) 0 [1] = (j 1).val := by
        simp only [List.foldl, Nat.zero_mul, Nat.zero_add]
      have hm := mask_off ⟨(j 1).val, (j 1).isLt⟩ hj
      dsimp only at hm
      rw [hf, hm]
      simp only [Scalar.select, show ((0#1 : BitVec 1) = 1) = False from by decide, if_false]
  · have m0 : win0_0.moved (grid0.coords t) j = true := (win0_0.moved_iff _ _).mpr fun a => by
      rw [(uncut0 t ht a).1]; exact (j a).isLt
    have m1 : win0_1.moved (grid0.coords t) j = true := (win0_1.moved_iff _ _).mpr fun a => by
      rw [(uncut0 t ht a).2]; exact (j a).isLt
    simp only [k0_pay3, select, cmpi, mulf, subf, absf, floor, fptosi, broadcast, addi]
    rw [h0 j m0, h1 j m1]

/-- The first accumulation reads the tiles through the masked bin index only. -/
theorem firstAcc_masked (t : Fin cfg0.N) (X0 X0' X1 X1' : Vec F S16x16384 .f32) (v : Vec F S1x128 .f32)
    (h0 : ∀ j, win0_0.moved (grid0.coords t) j = true → X0 j = X0' j)
    (h1 : ∀ j, win0_1.moved (grid0.coords t) j = true → X1 j = X1' j) :
    k0_pay4 (grid0.coords t) X0 X1 v = k0_pay4 (grid0.coords t) X0' X1' v := by
  unfold k0_pay4; rw [binIdx_masked t X0 X0' X1 X1' h0 h1]

/-! ## Tiles and buffers -/

/-- Window `w`'s tile at point `t`: the part of its array the tile covers. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffers the body is handed at point `t`. -/
abbrev ms0_0 (t : Fin cfg0.N) : Memref sig .tc .vmem S16x16384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)

/-! ## What the body stores -/

/-- One accumulator staging buffer, through which the stored row is read back (which one does not matter). -/
abbrev VO0 : View sig .tc .vmem S1x128 .f32 := (Memref.whole cc0_stg2_0 : Memref sig .tc .vmem S1x128 .f32).view

/-- In either case the body's stores cover the whole accumulator row. -/
theorem histCoverA (c : Dev nD) (i : grid0.Coords)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : resets i)
    (x0 x1 : Vec F S16x16384 .f32) (y : S1x128.Idx) :
    ∃ pc ∈ (histRunA c i arg2 harg2 arg3 harg3 arg4 harg4 hc x0 x1).1, y ∈ pc.1.set :=
  View.cover_of_tiledL (histRunA c i arg2 harg2 arg3 harg3 arg4 harg4 hc x0 x1).1 S1x128.size (by sl_kernel_rfl) y
theorem histCoverB (c : Dev nD) (i : grid0.Coords)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : ¬ resets i)
    (x0 x1 : Vec F S16x16384 .f32) (xo : Vec F S1x128 .f32) (y : S1x128.Idx) :
    ∃ pc ∈ (histRunB c i arg2 harg2 arg3 harg3 arg4 harg4 hc x0 x1 xo).1, y ∈ pc.1.set :=
  View.cover_of_tiledL (histRunB c i arg2 harg2 arg3 harg3 arg4 harg4 hc x0 x1 xo).1 S1x128.size (by sl_kernel_rfl) y

/-- The accumulator row after the body at a tile that opens its half. -/
def histOutA (c : Dev nD) (i : grid0.Coords)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : resets i)
    (x0 x1 : Vec F S16x16384 .f32) : Vec F S1x128 .f32 :=
  VO0.read (Elt F) (VO0.writes (Elt F) VO0.junk (histRunA c i arg2 harg2 arg3 harg3 arg4 harg4 hc x0 x1).1)
/-- The accumulator row after the body at a later tile, over the row `xo` it found. -/
def histOutB (c : Dev nD) (i : grid0.Coords)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : ¬ resets i)
    (x0 x1 : Vec F S16x16384 .f32) (xo : Vec F S1x128 .f32) : Vec F S1x128 .f32 :=
  VO0.read (Elt F) (VO0.writes (Elt F) VO0.junk (histRunB c i arg2 harg2 arg3 harg3 arg4 harg4 hc x0 x1 xo).1)

/-- The stored row sees the tiles on the lanes inside the arrays only. -/
theorem histOutA_masked (c : Dev nD) (t : Fin cfg0.N)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : resets (grid0.coords t))
    (X0 X0' X1 X1' : Vec F S16x16384 .f32)
    (h0 : ∀ j, win0_0.moved (grid0.coords t) j = true → X0 j = X0' j)
    (h1 : ∀ j, win0_1.moved (grid0.coords t) j = true → X1 j = X1' j) :
    histOutA c (grid0.coords t) arg2 harg2 arg3 harg3 arg4 harg4 hc X0 X1 = histOutA c (grid0.coords t) arg2 harg2 arg3 harg3 arg4 harg4 hc X0' X1' := by
  have hz : (![0, 0] : Fin 2 → Nat) = fun _ => 0 := funext fun a => by fin_cases a <;> rfl
  unfold histOutA
  rw [View.read_writes_eq_canon _ _ _ (histCoverA c _ arg2 harg2 arg3 harg3 arg4 harg4 hc X0 X1),
    View.read_writes_eq_canon _ _ _ (histCoverA c _ arg2 harg2 arg3 harg3 arg4 harg4 hc X0' X1')]
  unfold histRunA
  dsimp only
  sl_unfold_words
  simp only [View.readAt_eq_ld, harg2.read_unread, harg3.read_unread, View.ld_unit_zero (S := S16x16384) hz,
    binIdx_masked t X0 X0' X1 X1' h0 h1, firstAcc_masked t X0 X0' X1 X1' _ h0 h1]
theorem histOutB_masked (c : Dev nD) (t : Fin cfg0.N)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : ¬ resets (grid0.coords t))
    (X0 X0' X1 X1' : Vec F S16x16384 .f32) (xo : Vec F S1x128 .f32)
    (h0 : ∀ j, win0_0.moved (grid0.coords t) j = true → X0 j = X0' j)
    (h1 : ∀ j, win0_1.moved (grid0.coords t) j = true → X1 j = X1' j) :
    histOutB c (grid0.coords t) arg2 harg2 arg3 harg3 arg4 harg4 hc X0 X1 xo = histOutB c (grid0.coords t) arg2 harg2 arg3 harg3 arg4 harg4 hc X0' X1' xo := by
  have hz : (![0, 0] : Fin 2 → Nat) = fun _ => 0 := funext fun a => by fin_cases a <;> rfl
  unfold histOutB
  rw [View.read_writes_eq_canon _ _ _ (histCoverB c _ arg2 harg2 arg3 harg3 arg4 harg4 hc X0 X1 xo),
    View.read_writes_eq_canon _ _ _ (histCoverB c _ arg2 harg2 arg3 harg3 arg4 harg4 hc X0' X1' xo)]
  unfold histRunB
  dsimp only
  sl_unfold_words
  simp only [View.readAt_eq_ld, harg2.read_unread, harg3.read_unread, View.ld_unit_zero (S := S16x16384) hz,
    binIdx_masked t X0 X0' X1 X1' h0 h1, firstAcc_masked t X0 X0' X1 X1' _ h0 h1]

end Cert.KernelIdeal.Hand

end
-- ==== Proof.IdealHistBody.lean ====
/-
  The histogram kernel: the accumulator from point to point, and the body's obligation at every point.

  After point t the accumulator row holds `outsAt0 t`: at the first tile of a half the body's value after a reset, at
  any other tile its value over what the previous point left. The row's staging buffer is written back only after the
  last tile of a half, so between two points of one half it keeps what the body left.
-/
import proofs.«149492_j88261577933232_2_alg».proof.Proof.Gen.KernelIdeal.Launch
import proofs.«149492_j88261577933232_2_alg».proof.Proof.Gen.KernelIdeal.Skeleton
import proofs.«149492_j88261577933232_2_alg».proof.Proof.Gen.KernelIdeal.Points
import proofs.«149492_j88261577933232_2_alg».proof.Proof.IdealHistData
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The `pconf` tile at point `t`, padded with zeros where the array has no column; the `gconf` tile likewise. -/
def pin0 (c : Dev nD) (t : Fin cfg0.N) : Vec F S16x16384 .f32 :=
  win0_0.fill (grid0.coords t) (fun _ => Scalar.ofBits .f32 0#32) (blk0 V c 0 t)
def gin0 (c : Dev nD) (t : Fin cfg0.N) : Vec F S16x16384 .f32 :=
  win0_1.fill (grid0.coords t) (fun _ => Scalar.ofBits .f32 0#32) (blk0 V c 1 t)

/-- THE ACCUMULATION: the accumulator row after the body at position `n`. -/
def outsAt0 (c : Dev nD) : (n : ℕ) → n < cfg0.N → Vec F S1x128 .f32
  | 0, hn => histOutA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((resets_iff ⟨0, hn⟩).mpr (Nat.zero_mod _))
      (pin0 V c ⟨0, hn⟩) (gin0 V c ⟨0, hn⟩)
  | n + 1, hn =>
    if h : (n + 1) % 31 = 0 then
      histOutA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((resets_iff ⟨n + 1, hn⟩).mpr h)
        (pin0 V c ⟨n + 1, hn⟩) (gin0 V c ⟨n + 1, hn⟩)
    else
      histOutB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h' => h ((resets_iff ⟨n + 1, hn⟩).mp h'))
        (pin0 V c ⟨n + 1, hn⟩) (gin0 V c ⟨n + 1, hn⟩) (outsAt0 c n (Nat.lt_of_succ_lt hn))

theorem outsAt0_A (c : Dev nD) (t : Fin cfg0.N) (h : t.val % 31 = 0) :
    outsAt0 V c t.val t.isLt = histOutA c (grid0.coords t) (ms0_0 t) (hs0_0 t) (ms0_1 t) (hs0_1 t) (ms0_2 t) (hs0_2 t) ((resets_iff t).mpr h) (pin0 V c t) (gin0 V c t) := by
  obtain ⟨n, hn⟩ := t
  cases n with
  | zero => exact rfl
  | succ n => exact (dif_pos h).trans rfl

theorem outsAt0_B (c : Dev nD) (t : Fin cfg0.N) (h : ¬ t.val % 31 = 0) :
    outsAt0 V c t.val t.isLt = histOutB c (grid0.coords t) (ms0_0 t) (hs0_0 t) (ms0_1 t) (hs0_1 t) (ms0_2 t) (hs0_2 t) (fun h' => h ((resets_iff t).mp h'))
      (pin0 V c t) (gin0 V c t) (outsAt0 V c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (dif_neg h).trans rfl

/-- What each staging buffer holds after the body at each point; the arrays as the kernel finds them. -/
def dat0 (c : Dev nD) : Dat τ (Elt F) Unit ℕ (UR sig nD τ) ℕ cfg0 c where
  A w := V c (Pipeline.arrRef spec0 w)
  after w t := match w with
    | ⟨0, _⟩ => pin0 V c t
    | ⟨1, _⟩ => gin0 V c t
    | ⟨2, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = pin0 V c t := by dsimp only [dat0]
theorem after0_1 (c : Dev nD) (t : Fin cfg0.N) : (dat0 V c).after 1 t = gin0 V c t := by dsimp only [dat0]
theorem after0_2 (c : Dev nD) (t : Fin cfg0.N) : (dat0 V c).after 2 t = outsAt0 V c t.val t.isLt := by dsimp only [dat0]

/-- The accumulator row is never fetched. -/
theorem fetch0_2 : ∀ t : Fin cfg0.N, (cfg0.win 2).fetch t = false :=
  (by decide +kernel : ∀ t : Fin grid0.N, win0_2.fetch t = false)

/-- Both input buffers arrive freshly fetched. -/
theorem before0_0 (c : Dev nD) (t : Fin cfg0.N) (d) :
    (dat0 V c).before 0 t d = win0_0.fill (grid0.coords t) d (blk0 V c 0 t) := by
  unfold Dat.before; rw [if_pos (fetch0_0 t)]; rfl
theorem before0_1 (c : Dev nD) (t : Fin cfg0.N) (d) :
    (dat0 V c).before 1 t d = win0_1.fill (grid0.coords t) d (blk0 V c 1 t) := by
  unfold Dat.before; rw [if_pos (fetch0_1 t)]; rfl
/-- At the first tile of a half the accumulator's buffer holds nothing in particular: it is the very first point, or
    the buffer was written back at the point before. -/
theorem before0_2_A (c : Dev nD) (t : Fin cfg0.N) (h : t.val % 31 = 0) (d) : (dat0 V c).before 2 t d = d := by
  unfold Dat.before
  rw [if_neg (by rw [fetch0_2 t]; exact Bool.false_ne_true)]
  split
  · rfl
  · rename_i h0
    exact if_pos ((flush0_2 _).mpr (by dsimp only; omega))
/-- At any other tile it holds what the body left at the point before. -/
theorem before0_2_B (c : Dev nD) (t : Fin cfg0.N) (h : ¬ t.val % 31 = 0) (d) :
    (dat0 V c).before 2 t d = outsAt0 V c (t.val - 1) (Nat.lt_of_le_of_lt (Nat.sub_le _ _) t.isLt) := by
  rw [Dat.before_out_kept _ 2 rfl t (by omega)
    (Bool.eq_false_iff.mpr fun hf => by have := (flush0_2 _).mp hf; dsimp only at this; omega)
    (fun _ => rfl) (fun _ _ => rfl)]
  dsimp only [dat0]

/-- On a lane the fetch filled, a fetched input buffer holds the array's entry whatever it held before. -/
theorem fill0_0_moved (c : Dev nD) (t : Fin cfg0.N) (d d' : S16x16384.Idx → Elt F .f32) (j : S16x16384.Idx)
    (hm : win0_0.moved (grid0.coords t) j = true) :
    win0_0.fill (grid0.coords t) d (blk0 V c 0 t) j = win0_0.fill (grid0.coords t) d' (blk0 V c 0 t) j := by
  unfold Window.fill; rw [dif_pos hm, dif_pos hm]
theorem fill0_1_moved (c : Dev nD) (t : Fin cfg0.N) (d d' : S16x16384.Idx → Elt F .f32) (j : S16x16384.Idx)
    (hm : win0_1.moved (grid0.coords t) j = true) :
    win0_1.fill (grid0.coords t) d (blk0 V c 1 t) j = win0_1.fill (grid0.coords t) d' (blk0 V c 1 t) j := by
  unfold Window.fill; rw [dif_pos hm, dif_pos hm]

set_option maxHeartbeats 1000000 in
/-- At every point: handed the two fetched input tiles and the accumulator's buffer (holding anything at the first tile
    of a half, the running row otherwise), the body runs to its end, leaves the inputs as they were and the
    accumulator at `outsAt0`. -/
theorem body_obligation0 (c : Dev nD) :
    BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0, before0_1 V c t d1]
  by_cases h : t.val % 31 = 0
  · rw [before0_2_A V c t h d2]
    iapply ((histRunA c (grid0.coords t) (ms0_0 t) (hs0_0 t) (ms0_1 t) (hs0_1 t) (ms0_2 t) (hs0_2 t) ((resets_iff t).mpr h) (win0_0.fill (grid0.coords t) d0 (blk0 V c 0 t)) (win0_1.fill (grid0.coords t) d1 (blk0 V c 1 t))).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]
    · iexists d0
      rw [after0_0]; unfold pin0; rw [win0_0.cut_fill]; iexact H0
    isplitl [H1]
    · iexists d1
      rw [after0_1]; unfold gin0; rw [win0_1.cut_fill]; iexact H1
    · rw [after0_2, outsAt0_A V c t h,
        histOutA_masked c t (ms0_0 t) (hs0_0 t) (ms0_1 t) (hs0_1 t) (ms0_2 t) (hs0_2 t) ((resets_iff t).mpr h) (pin0 V c t) (win0_0.fill (grid0.coords t) d0 (blk0 V c 0 t)) (gin0 V c t) (win0_1.fill (grid0.coords t) d1 (blk0 V c 1 t))
          (fun j hm => fill0_0_moved V c t _ _ j hm) (fun j hm => fill0_1_moved V c t _ _ j hm)]
      unfold owns; iexists _; isplitr
      swap; · iexact H2
      ipureintro; exact View.read_writes_of_cover _ _ _ _ _ (histCoverA c _ _ _ _ _ _ _ _ _ _)
  · rw [before0_2_B V c t h d2]
    iapply ((histRunB c (grid0.coords t) (ms0_0 t) (hs0_0 t) (ms0_1 t) (hs0_1 t) (ms0_2 t) (hs0_2 t) (fun h' => h ((resets_iff t).mp h')) (win0_0.fill (grid0.coords t) d0 (blk0 V c 0 t)) (win0_1.fill (grid0.coords t) d1 (blk0 V c 1 t)) (outsAt0 V c (t.val - 1) (Nat.lt_of_le_of_lt (Nat.sub_le _ _) t.isLt))).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]
    · iexists d0
      rw [after0_0]; unfold pin0; rw [win0_0.cut_fill]; iexact H0
    isplitl [H1]
    · iexists d1
      rw [after0_1]; unfold gin0; rw [win0_1.cut_fill]; iexact H1
    · rw [after0_2, outsAt0_B V c t h,
        histOutB_masked c t (ms0_0 t) (hs0_0 t) (ms0_1 t) (hs0_1 t) (ms0_2 t) (hs0_2 t) (fun h' => h ((resets_iff t).mp h')) (pin0 V c t) (win0_0.fill (grid0.coords t) d0 (blk0 V c 0 t)) (gin0 V c t) (win0_1.fill (grid0.coords t) d1 (blk0 V c 1 t)) _
          (fun j hm => fill0_0_moved V c t _ _ j hm) (fun j hm => fill0_1_moved V c t _ _ j hm)]
      unfold owns; iexists _; isplitr
      swap; · iexact H2
      ipureintro; exact View.read_writes_of_cover _ _ _ _ _ (histCoverB c _ _ _ _ _ _ _ _ _ _ _)

end Cert.KernelIdeal.Hand

end
-- ==== Proof.IdealLossData.lean ====
/-
  The loss kernel, tile by tile.

  The grid has 62 points; point t handles columns 16384·t … 16384·t + 16383 of the 16 × 1000000 arrays. The last tile
  (t = 61) overhangs the arrays: only its first 576 columns exist. A fetch of that tile fills the first 576 columns of
  the staging buffer and leaves the rest holding words nobody names, the body computes on all 16384 columns, and the
  write-back copies only the first 576 columns out. So what the output array receives must not depend on the unnamed
  columns, and it does not, because the body is lane-wise: output lane j is a function of lane j of the two input
  tiles and of the thirty weights (`lossOut_local`).

  With that, the bookkeeping per point is: both input buffers hold their tile (the array's columns where they exist),
  the weights buffer holds the 1 × 128 weights row (fetched once, at the first point, and kept), and after the body
  the output buffer holds, on the columns that exist, the body's value at the zero-padded tiles.
-/
import proofs.«149492_j88261577933232_2_alg».proof.Proof.Gen.KernelIdeal.Launch
import proofs.«149492_j88261577933232_2_alg».proof.Proof.Gen.KernelIdeal.Skeleton
import proofs.«149492_j88261577933232_2_alg».proof.Proof.Gen.KernelIdeal.Points
import proofs.«149492_j88261577933232_2_alg».proof.Proof.IdealRuns
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Tiles -/

/-- Window `w`'s tile at point `t`: the part of its array the tile covers (for the last tile, the 576 columns that
    exist). -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffers the body is handed at point `t`. -/
abbrev ms1_0 (t : Fin cfg1.N) : Memref sig .tc .vmem S16x16384 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x16384 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x16384 .f32 := win1_3.stage (cfg1.slots t 3)
abbrev hs1_3 (t : Fin cfg1.N) : (ms1_3 t).IsWhole := hstage1_3 ((cfg1.slots t 3).cast nbuf1_3)

/-! ## What the body stores -/

/-- One output staging buffer, through which the stored tile is read back (which one does not matter). -/
abbrev VO1 : View sig .tc .vmem S16x16384 .f32 := (Memref.whole cc1_stg3_0 : Memref sig .tc .vmem S16x16384 .f32).view

/-- The body's one store covers the whole output tile. -/
theorem lossCover (c : Dev nD) (i : grid1.Coords)
    (arg1 : Memref sig .tc .vmem S16x16384 .f32) (harg1 : arg1.IsWhole)
    (arg2 : Memref sig .tc .vmem S16x16384 .f32) (harg2 : arg2.IsWhole)
    (arg3 : Memref sig .tc .vmem S1x128 .f32) (harg3 : arg3.IsWhole)
    (arg4 : Memref sig .tc .vmem S16x16384 .f32) (harg4 : arg4.IsWhole)
    (x0 x1 : Vec F S16x16384 .f32) (x2 : Vec F S1x128 .f32) (y : S16x16384.Idx) :
    ∃ pc ∈ (lossRun c i arg1 harg1 arg2 harg2 arg3 harg3 arg4 harg4 x0 x1 x2).1, y ∈ pc.1.set :=
  View.cover_of_tiledL (lossRun c i arg1 harg1 arg2 harg2 arg3 harg3 arg4 harg4 x0 x1 x2).1 S16x16384.size (by sl_kernel_rfl) y

/-- The tile the body leaves in the output buffer, as a function of the two input tiles and the weights row. -/
def lossOut (c : Dev nD) (i : grid1.Coords)
    (arg1 : Memref sig .tc .vmem S16x16384 .f32) (harg1 : arg1.IsWhole)
    (arg2 : Memref sig .tc .vmem S16x16384 .f32) (harg2 : arg2.IsWhole)
    (arg3 : Memref sig .tc .vmem S1x128 .f32) (harg3 : arg3.IsWhole)
    (arg4 : Memref sig .tc .vmem S16x16384 .f32) (harg4 : arg4.IsWhole)
    (x0 x1 : Vec F S16x16384 .f32) (x2 : Vec F S1x128 .f32) : Vec F S16x16384 .f32 :=
  VO1.read (Elt F) (VO1.writes (Elt F) VO1.junk (lossRun c i arg1 harg1 arg2 harg2 arg3 harg3 arg4 harg4 x0 x1 x2).1)

/-- THE BODY IS LANE-WISE: its value at lane `j` sees the input tiles at lane `j` only. (Every operation between the
    loads and the store acts lane by lane; the weights enter as thirty broadcast scalars.) -/
theorem lossOut_local (c : Dev nD) (i : grid1.Coords)
    (arg1 : Memref sig .tc .vmem S16x16384 .f32) (harg1 : arg1.IsWhole)
    (arg2 : Memref sig .tc .vmem S16x16384 .f32) (harg2 : arg2.IsWhole)
    (arg3 : Memref sig .tc .vmem S1x128 .f32) (harg3 : arg3.IsWhole)
    (arg4 : Memref sig .tc .vmem S16x16384 .f32) (harg4 : arg4.IsWhole)
    (X0 X0' X1 X1' : Vec F S16x16384 .f32) (x2 : Vec F S1x128 .f32) (j : S16x16384.Idx)
    (h0 : X0 j = X0' j) (h1 : X1 j = X1' j) :
    lossOut c i arg1 harg1 arg2 harg2 arg3 harg3 arg4 harg4 X0 X1 x2 j = lossOut c i arg1 harg1 arg2 harg2 arg3 harg3 arg4 harg4 X0' X1' x2 j := by
  have hz : (![0, 0] : Fin 2 → Nat) = fun _ => 0 := funext fun a => by fin_cases a <;> rfl
  unfold lossOut
  rw [View.read_writes_eq_canon _ _ _ (lossCover c i arg1 harg1 arg2 harg2 arg3 harg3 arg4 harg4 X0 X1 x2),
    View.read_writes_eq_canon _ _ _ (lossCover c i arg1 harg1 arg2 harg2 arg3 harg3 arg4 harg4 X0' X1' x2)]
  unfold lossRun
  dsimp only
  sl_unfold_words
  rw [View.canon_unit_zero hz, View.canon_unit_zero hz]
  simp only [View.readAt_eq_ld, harg1.read_unread, harg2.read_unread, View.ld_unit_zero (S := S16x16384) hz]
  simp only [k1_pay1, k1_pay2, k1_pay3, k1_pay5, k1_pay7, k1_pay9, k1_pay11,
    select, cmpi, mulf, subf, addf, absf, floor, fptosi, maximumf, minimumf, log, log1p, broadcast]
  rw [h0, h1]

/-! ## The bookkeeping -/

/-- The `pconf` tile at point `t`, padded with zeros where the array has no column. -/
def pin1 (c : Dev nD) (t : Fin cfg1.N) : Vec F S16x16384 .f32 :=
  win1_0.fill (grid1.coords t) (fun _ => Scalar.ofBits .f32 0#32) (blk1 V c 0 t)
/-- The `gconf` tile likewise. -/
def gin1 (c : Dev nD) (t : Fin cfg1.N) : Vec F S16x16384 .f32 :=
  win1_1.fill (grid1.coords t) (fun _ => Scalar.ofBits .f32 0#32) (blk1 V c 1 t)
/-- The loss tile at point `t`: the body's value at the padded tiles and the weights row. -/
def out1 (c : Dev nD) (t : Fin cfg1.N) : Vec F S16x16384 .f32 :=
  lossOut c (grid1.coords t) (ms1_0 t) (hs1_0 t) (ms1_1 t) (hs1_1 t) (ms1_2 t) (hs1_2 t) (ms1_3 t) (hs1_3 t) (pin1 V c t) (gin1 V c t) (blk1 V c 2 t)

/-- What each staging buffer holds after the body at each point; the arrays as the kernel finds them. -/
def dat1 (c : Dev nD) : Dat τ (Elt F) Unit ℕ (UR sig nD τ) ℕ cfg1 c where
  A w := V c (Pipeline.arrRef spec1 w)
  after w t := match w with
    | ⟨0, _⟩ => pin1 V c t
    | ⟨1, _⟩ => gin1 V c t
    | ⟨2, _⟩ => blk1 V c 2 t
    | ⟨3, _⟩ => out1 V c t
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = pin1 V c t := by dsimp only [dat1]
theorem after1_1 (c : Dev nD) (t : Fin cfg1.N) : (dat1 V c).after 1 t = gin1 V c t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = out1 V c t := by dsimp only [dat1]

/-- The output tile is never fetched. -/
theorem fetch1_3 : ∀ t : Fin cfg1.N, (cfg1.win 3).fetch t = false :=
  (by decide +kernel : ∀ t : Fin grid1.N, win1_3.fetch t = false)

/-- Both input buffers arrive freshly fetched: the tile where the array has columns, whatever was there elsewhere. -/
theorem before1_0 (c : Dev nD) (t : Fin cfg1.N) (d) :
    (dat1 V c).before 0 t d = win1_0.fill (grid1.coords t) d (blk1 V c 0 t) := by
  unfold Dat.before; rw [if_pos (fetch1_0 t)]; rfl
theorem before1_1 (c : Dev nD) (t : Fin cfg1.N) (d) :
    (dat1 V c).before 1 t d = win1_1.fill (grid1.coords t) d (blk1 V c 1 t) := by
  unfold Dat.before; rw [if_pos (fetch1_1 t)]; rfl
/-- The weights buffer holds the weights row at every point: fetched at the first, untouched since. -/
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans
    (by unfold Dat.fetched Dat.blockOf blk1; rw [A_eq1]; try rfl)
/-- The output buffer arrives holding nothing in particular: it was written back at the point before. -/
theorem before1_3 (c : Dev nD) (t : Fin cfg1.N) (d) : (dat1 V c).before 3 t d = d := by
  unfold Dat.before
  rw [if_neg (by rw [fetch1_3 t]; exact Bool.false_ne_true)]
  split
  · rfl
  · exact if_pos (flush1_3 _)

/-! ## The body obligation -/

/-- The output tile is cut where the input tiles are: on each axis the three windows move the same number of lanes. -/
theorem cut_alike1 : ∀ t : Fin cfg1.N, ∀ a : Fin 2,
    win1_3.xsize (grid1.coords t) a = win1_0.xsize (grid1.coords t) a
      ∧ win1_3.xsize (grid1.coords t) a = win1_1.xsize (grid1.coords t) a :=
  (by decide +kernel : ∀ t : Fin grid1.N, ∀ a : Fin 2,
    win1_3.xsize (grid1.coords t) a = win1_0.xsize (grid1.coords t) a
      ∧ win1_3.xsize (grid1.coords t) a = win1_1.xsize (grid1.coords t) a)

/-- On a lane the fetch filled, a fetched input buffer holds the array's entry whatever it held before. -/
theorem fill0_moved (c : Dev nD) (t : Fin cfg1.N) (d d' : S16x16384.Idx → Elt F .f32) (j : S16x16384.Idx)
    (h : win1_0.moved (grid1.coords t) j = true) :
    win1_0.fill (grid1.coords t) d (blk1 V c 0 t) j = win1_0.fill (grid1.coords t) d' (blk1 V c 0 t) j := by
  unfold Window.fill; rw [dif_pos h, dif_pos h]
theorem fill1_moved (c : Dev nD) (t : Fin cfg1.N) (d d' : S16x16384.Idx → Elt F .f32) (j : S16x16384.Idx)
    (h : win1_1.moved (grid1.coords t) j = true) :
    win1_1.fill (grid1.coords t) d (blk1 V c 1 t) j = win1_1.fill (grid1.coords t) d' (blk1 V c 1 t) j := by
  unfold Window.fill; rw [dif_pos h, dif_pos h]

/-- What the write-back copies out does not depend on the unnamed columns: on the lanes it moves, the body's value at
    the buffers as fetched is its value at the zero-padded tiles. -/
theorem cut_out1 (c : Dev nD) (t : Fin cfg1.N) (d0 d1 : S16x16384.Idx → Elt F .f32) :
    win1_3.cut (grid1.coords t)
        (lossOut c (grid1.coords t) (ms1_0 t) (hs1_0 t) (ms1_1 t) (hs1_1 t) (ms1_2 t) (hs1_2 t) (ms1_3 t) (hs1_3 t)
          (win1_0.fill (grid1.coords t) d0 (blk1 V c 0 t)) (win1_1.fill (grid1.coords t) d1 (blk1 V c 1 t)) (blk1 V c 2 t))
      = win1_3.cut (grid1.coords t) (out1 V c t) := by
  funext y
  have hm0 : win1_0.moved (grid1.coords t) (win1_3.xinj (grid1.coords t) y) = true :=
    (win1_0.moved_iff _ _).mpr fun a => by
      have h : (y a).val < win1_3.xsize (grid1.coords t) a := (y a).isLt
      rw [(cut_alike1 t a).1] at h; exact h
  have hm1 : win1_1.moved (grid1.coords t) (win1_3.xinj (grid1.coords t) y) = true :=
    (win1_1.moved_iff _ _).mpr fun a => by
      have h : (y a).val < win1_3.xsize (grid1.coords t) a := (y a).isLt
      rw [(cut_alike1 t a).2] at h; exact h
  exact lossOut_local c (grid1.coords t) (ms1_0 t) (hs1_0 t) (ms1_1 t) (hs1_1 t) (ms1_2 t) (hs1_2 t) (ms1_3 t) (hs1_3 t) _ _ _ _ _ _
    (fill0_moved V c t d0 _ _ hm0) (fill1_moved V c t d1 _ _ hm1)

set_option maxHeartbeats 1000000 in
/-- At every point: handed the two fetched input tiles, the weights row and an output buffer holding anything, the
    body runs to its end and leaves the inputs and the weights as they were and, on the lanes that are written
    back, the loss tile. -/
theorem body_obligation1 (c : Dev nD) :
    BodyObligationLoose (dat1 (F := F) V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩⟩
  rw [before1_0 V c t d0, before1_1 V c t d1, before1_2 V c t d2, before1_3 V c t d3]
  iapply ((lossRun c (grid1.coords t) (ms1_0 t) (hs1_0 t) (ms1_1 t) (hs1_1 t) (ms1_2 t) (hs1_2 t) (ms1_3 t) (hs1_3 t) (win1_0.fill (grid1.coords t) d0 (blk1 V c 0 t)) (win1_1.fill (grid1.coords t) d1 (blk1 V c 1 t)) (blk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]
  · iexists d0
    rw [after1_0]; unfold pin1; rw [win1_0.cut_fill]; iexact H0
  isplitl [H1]
  · iexists d1
    rw [after1_1]; unfold gin1; rw [win1_1.cut_fill]; iexact H1
  isplitl [H2]
  · rw [after1_2]; iexact H2
  · iexists (lossOut c (grid1.coords t) (ms1_0 t) (hs1_0 t) (ms1_1 t) (hs1_1 t) (ms1_2 t) (hs1_2 t) (ms1_3 t) (hs1_3 t)
      (win1_0.fill (grid1.coords t) d0 (blk1 V c 0 t)) (win1_1.fill (grid1.coords t) d1 (blk1 V c 1 t)) (blk1 V c 2 t))
    rw [after1_3, ← cut_out1 V c t d0 d1, win1_3.fill_cut]
    unfold owns; iexists _; isplitr
    swap; · iexact H3
    ipureintro; exact View.read_writes_of_cover _ _ _ _ _ (lossCover c _ _ _ _ _ _ _ _ _ _ _ _)

end Cert.KernelIdeal.Hand

end
-- ==== Proof.IdealRegions.lean ====
/-
  The whole program: histogram kernel, three stretches of host arithmetic, loss kernel.

  Between consecutive items every buffer outside the kernels' scratch has a known content, computed by folding through
  the program from the launch memory: a kernel changes only the arrays its windows cover, to what its write-backs leave;
  a host stretch applies its operations. The run below says that every weakly fair execution ends without a fault with
  all those buffers at the last of these contents. Read at the three arguments that is the frame (no item writes an
  argument); read at the result it is the value the algebra is about.
-/
import proofs.«149492_j88261577933232_2_alg».proof.Proof.Gen.KernelIdeal.Launch
import proofs.«149492_j88261577933232_2_alg».proof.Proof.Gen.KernelIdeal.Skeleton
import proofs.«149492_j88261577933232_2_alg».proof.Proof.Gen.KernelIdeal.Points
import proofs.«149492_j88261577933232_2_alg».proof.Proof.Gen.KernelIdeal.Regions
import proofs.«149492_j88261577933232_2_alg».proof.Proof.IdealHistBody
import proofs.«149492_j88261577933232_2_alg».proof.Proof.IdealLossData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- At launch. -/
abbrev W0 : Dev nD → Valuation τ sig (Elt F) := fun c b => m ((c : Dev nD), b)
abbrev Ve0 : (c : Dev nD) → (b : Ref sig .tc) → Buf (Elt F) ((c : Thread nD τ).loc b) := fun c b => W0 m c b
/-- After the histogram kernel: its arrays at what its write-backs leave, everything else as it was. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vx0 : (c : Dev nD) → (b : Ref sig .tc) → Buf (Elt F) ((c : Thread nD τ).loc b) := fun c b => W1 m c b
theorem hF0 (c : Dev nD) (w : Fin cfg0.W) : (dat0 (Ve0 m) c).arrAt w cfg0.N = Vx0 m c (Pipeline.arrRef spec0 w) :=
  (W1_arr m c w).symm
theorem hrest0 (c : Dev nD) : ∀ b, b ∉ Finset.univ.image (Pipeline.arrRef spec0) → Vx0 m c b = Ve0 m c b :=
  fun b hb => W1_of_ne m c b fun w e => hb (Finset.mem_image.mpr ⟨w, Finset.mem_univ _, e⟩)
/-- After each of the three host stretches. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev Ve1 : (c : Dev nD) → (b : Ref sig .tc) → Buf (Elt F) ((c : Thread nD τ).loc b) := fun c b => W4 m c b
/-- After the loss kernel. -/
def W5 (c : Dev nD) : Valuation τ sig (Elt F) :=
  Pipeline.withArrays spec1 c (W4 m c) fun w => (dat1 (Ve1 m) c).arrAt w cfg1.N
theorem W5_arr (c : Dev nD) (w : Fin cfg1.W) :
    W5 m c (Proc.devRef .tc (Pipeline.arrRef spec1 w)) = (dat1 (Ve1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev Vx1 : (c : Dev nD) → (b : Ref sig .tc) → Buf (Elt F) ((c : Thread nD τ).loc b) := fun c b => W5 m c b
theorem hF1 (c : Dev nD) (w : Fin cfg1.W) : (dat1 (Ve1 m) c).arrAt w cfg1.N = Vx1 m c (Pipeline.arrRef spec1 w) :=
  (W5_arr m c w).symm
theorem hrest1 (c : Dev nD) : ∀ b, b ∉ Finset.univ.image (Pipeline.arrRef spec1) → Vx1 m c b = Ve1 m c b :=
  fun b hb => W5_of_ne m c b fun w e => hb (Finset.mem_image.mpr ⟨w, Finset.mem_univ _, e⟩)

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
abbrev L : GSem nD τ sig → Finset Unit := fun _ => ∅
abbrev lv : GSem nD τ sig → Unit → ℕ := fun _ _ => 0
/-- What rides beside the buffers through every item: the core's generator register and its dues, which are none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The kernels as items -/

set_option backward.isDefEq.respectTransparency.types false in
/-- The histogram kernel: entered with every buffer at its launch contents, left with its arrays at what the
    write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (Ve0 m) c
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The loss kernel: entered after the host arithmetic, left at the final contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (Ve1 m) c
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the run -/

abbrev mainSegs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m) ]
theorem main_run (c : Dev nD) : main (F := F) c = Pipeline.Seg.run (mainSegs m) := (main_chain c).trans (by chain_rfl)

variable (ρ : Dev nD → PrngReg)

set_option backward.isDefEq.respectTransparency.types false in
/-- THE RUN: from any memory with zero counters every weakly fair execution ends, nothing faulting, with every buffer
    outside the kernels' scratch at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.IdealFrame.lean ====
/-
  The run read at the arguments and at the result.

  `pconf` and `gconf` are inputs of both kernels (a kernel leaves an input array as it found it) and no host operation
  writes them; `mask` is touched by no kernel and written by no host operation. So all three end as launched. The
  result array is the loss kernel's output array: it ends at what that kernel's sixty-two write-backs leave.
-/
import proofs.«149492_j88261577933232_2_alg».proof.Proof.Gen.KernelIdeal.Launch
import proofs.«149492_j88261577933232_2_alg».proof.Proof.Gen.KernelIdeal.Skeleton
import proofs.«149492_j88261577933232_2_alg».proof.Proof.Gen.KernelIdeal.Points
import proofs.«149492_j88261577933232_2_alg».proof.Proof.Gen.KernelIdeal.Regions
import proofs.«149492_j88261577933232_2_alg».proof.Proof.IdealRegions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

theorem W5_main_arg0 (c : Dev nD) : W5 m c (Proc.devRef .tc main_arg0) = m ((c : Thread nD τ).loc main_arg0) :=
  calc W5 m c (Proc.devRef .tc main_arg0)
    _ = W4 m c (Proc.devRef .tc main_arg0) := (W5_arr m c 0).trans (((dat1 (Ve1 m) c).arrAt_in 0 rfl _).trans (A_eq1 (Ve1 m) c 0))
    _ = W3 m c (Proc.devRef .tc main_arg0) := StableHlo.after_of_writes_sub hostOps1_2 _ hostOps1_2_writes (by decide : main_arg0 ∉ hostOps1_2_W)
    _ = W2 m c (Proc.devRef .tc main_arg0) := StableHlo.after_of_writes_sub hostOps1_1 _ hostOps1_1_writes (by decide : main_arg0 ∉ hostOps1_1_W)
    _ = W1 m c (Proc.devRef .tc main_arg0) := StableHlo.after_of_writes_sub hostOps1 _ hostOps1_writes (by decide : main_arg0 ∉ hostOps1_W)
    _ = W0 m c (Proc.devRef .tc main_arg0) := (W1_arr m c 0).trans (((dat0 (Ve0 m) c).arrAt_in 0 rfl _).trans (A_eq0 (Ve0 m) c 0))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := (W5_arr m c 1).trans (((dat1 (Ve1 m) c).arrAt_in 1 rfl _).trans (A_eq1 (Ve1 m) c 1))
    _ = W3 m c (Proc.devRef .tc main_arg1) := StableHlo.after_of_writes_sub hostOps1_2 _ hostOps1_2_writes (by decide : main_arg1 ∉ hostOps1_2_W)
    _ = W2 m c (Proc.devRef .tc main_arg1) := StableHlo.after_of_writes_sub hostOps1_1 _ hostOps1_1_writes (by decide : main_arg1 ∉ hostOps1_1_W)
    _ = W1 m c (Proc.devRef .tc main_arg1) := StableHlo.after_of_writes_sub hostOps1 _ hostOps1_writes (by decide : main_arg1 ∉ hostOps1_W)
    _ = W0 m c (Proc.devRef .tc main_arg1) := (W1_arr m c 1).trans (((dat0 (Ve0 m) c).arrAt_in 1 rfl _).trans (A_eq0 (Ve0 m) c 1))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := StableHlo.after_of_writes_sub hostOps1_2 _ hostOps1_2_writes (by decide : main_arg2 ∉ hostOps1_2_W)
    _ = W2 m c (Proc.devRef .tc main_arg2) := StableHlo.after_of_writes_sub hostOps1_1 _ hostOps1_1_writes (by decide : main_arg2 ∉ hostOps1_1_W)
    _ = W1 m c (Proc.devRef .tc main_arg2) := StableHlo.after_of_writes_sub hostOps1 _ hostOps1_writes (by decide : main_arg2 ∉ hostOps1_W)
    _ = W0 m c (Proc.devRef .tc main_arg2) := W1_of_ne m c main_arg2 (by decide)
    _ = m ((c : Thread nD τ).loc main_arg2) := rfl

variable (ρ : Dev nD → PrngReg)

/-- THE FRAME, at either reading of the floats: every weakly fair execution ends, nothing faulting, with the three
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

/-- The same run, with the result array named: what the loss kernel's write-backs leave in it. -/
theorem run_result : θ_run defs (onTc (τ := τ) (main (F := F))) ⟨m, fun _ => 0, ρ⟩ (fun r => ∀ c : Dev nD,
      r.2.mem ((c.tc : Thread nD τ).loc main_v22) = (dat1 (Ve1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v22 (by decide))).trans (W5_arr m c 3),
     (h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.KernelIdeal.Hand

end
-- ==== Proof.LossSpec.lean ====
/-
  What both programs compute, written once over the extended reals.

  For arrays P, G of shape 16 × 1000000 and a mask K of bits:
    * the bin of an entry is b = ⌊|p − g| · (30 − 2⁻¹⁰)⌋ as a 32-bit integer;
    * count[b] is the number of entries whose bin is b, n the number of set mask bits, and #nonempty the number of bins
      0 … 29 with a positive count;
    * the weight of bin b is n / max(2⁻¹⁰, count[b] · #nonempty);
    * the result at an entry is bce(p, g) · weight[bin], with
        bce(p, g) = −(g · log p̄ + (1 − g) · log1p(−p̄)),   p̄ = min(1 − 2⁻¹⁰, max(2⁻¹⁰, p)).
  Every operation is the ideal instance's own (a float operation read as the exact one on the extended reals), spelt in
  the order the programs apply them, so that either program's term reaches these by unfolding alone. The float
  literals stay as their words: 0x41EFFE00 is 30 − 2⁻¹⁰, 0x3A800000 is 2⁻¹⁰, 0x3F7FC000 is 1 − 2⁻¹⁰, 0x3F800000 is 1.
-/
import Idealize.ShloMosaic.PureOps.Ideal

noncomputable section

namespace Cert.LossSpec

open Idealize.ShloMosaic

/-- The arrays' shape. -/
abbrev SBig : Shape := ⟨2, ![16, 1000000]⟩

/-- The bin of an entry. -/
def binOf (p g : Ideal .f32) : BitVec 32 :=
  FloatOps.fptosi 32 (FloatOps.floor (FloatOps.mulf (FloatOps.absf (FloatOps.subf p g))
    (FloatOps.ofBits (F := Ideal) .f32 0x41EFFE00#32)))

/-- p clipped into [2⁻¹⁰, 1 − 2⁻¹⁰]. -/
def clipP (p : Ideal .f32) : Ideal .f32 :=
  FloatOps.minimumf (FloatOps.ofBits (F := Ideal) .f32 0x3F7FC000#32)
    (FloatOps.maximumf (FloatOps.ofBits (F := Ideal) .f32 0x3A800000#32) p)

/-- The binary cross-entropy of a probability p against a target g. -/
def bce (p g : Ideal .f32) : Ideal .f32 :=
  FloatOps.subf (FloatOps.ofBits (F := Ideal) .f32 0x00000000#32)
    (FloatOps.addf (FloatOps.mulf g (FloatOps.log (clipP p)))
      (FloatOps.mulf (FloatOps.subf (FloatOps.ofBits (F := Ideal) .f32 0x3F800000#32) g)
        (FloatOps.log1p (FloatOps.subf (FloatOps.ofBits (F := Ideal) .f32 0x00000000#32) (clipP p)))))

/-- How many entries fall in bin b. -/
def cnt (P G : SBig.Idx → EReal) (b : BitVec 32) : EReal :=
  ∑ i : SBig.Idx, if binOf (P i) (G i) = b then (1 : EReal) else 0

/-- How many mask bits are set. -/
def nMask (K : SBig.Idx → BitVec 1) : EReal :=
  ∑ i : SBig.Idx, if K i = 1#1 then (1 : EReal) else 0

/-- How many of the bins 0 … 29 are non-empty. -/
def nNonempty (P G : SBig.Idx → EReal) : EReal :=
  ∑ b : Fin 30, if (0 : EReal) < cnt P G (BitVec.ofNat 32 b.val) then (1 : EReal) else 0

/-- The weight of bin b. -/
def weight (P G : SBig.Idx → EReal) (K : SBig.Idx → BitVec 1) (b : BitVec 32) : Ideal .f32 :=
  FloatOps.hostDivf (F := Ideal) (φ := .f32) (nMask K)
    (FloatOps.maximumf (FloatOps.ofBits (F := Ideal) .f32 0x3A800000#32)
      (FloatOps.mulf (F := Ideal) (φ := .f32) (cnt P G b) (nNonempty P G)))

/-- The result at an entry. -/
def result (P G : SBig.Idx → EReal) (K : SBig.Idx → BitVec 1) (i : SBig.Idx) : Ideal .f32 :=
  FloatOps.mulf (bce (P i) (G i)) (weight P G K (binOf (P i) (G i)))

end Cert.LossSpec

end
-- ==== Proof.IdealLossValue.lean ====
/-
  The loss tile, lane by lane, over the extended reals.

  At lane j the body's value is bce(p, g) times a weight picked by thirty successive tests of the bin index b against
  0, 1, …, 29, each test replacing the running value by that bin's weight when it succeeds; the running value starts
  at 0. Bins are distinct, so for b in 0 … 29 the outcome is the weight stored for b, and for any other b it is 0.
  The weights are read one at a time from columns 0 … 29 of the 1 × 128 weights row.
-/
import proofs.«149492_j88261577933232_2_alg».proof.Proof.Gen.KernelIdeal.Launch
import proofs.«149492_j88261577933232_2_alg».proof.Proof.Gen.KernelIdeal.Skeleton
import proofs.«149492_j88261577933232_2_alg».proof.Proof.Gen.KernelIdeal.Points
import proofs.«149492_j88261577933232_2_alg».proof.Proof.IdealLossData
import proofs.«149492_j88261577933232_2_alg».proof.Proof.LossSpec
import Idealize.ShloMosaic.Lib.Pipeline.Value
import Idealize.ShloMosaic.Lib.ValueIdx
import Idealize.ShloMosaic.Lib.ValueLayout
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A choice made by an equality test of two words is an if-then-else on their being equal. -/
theorem select_eq {α : Type} {w : Nat} (x y : BitVec w) (A B : α) :
    Scalar.select (IntOp.cmpi CmpIPredicate.eq x y) A B = if x = y then A else B := by
  unfold Scalar.select IntOp.cmpi
  by_cases h : x = y
  · subst h; simp
  · have : (x == y) = false := by simpa using h
    simp [this, h]

/-- Column k of the 1 × 128 row (read modulo 128, so that it is defined for every k). -/
def rowAt {α : Type} (x2 : S1x128.Idx → α) (k : Nat) : α :=
  x2 (ValueIdx.ix2 (0 : Fin 1) (⟨k % 128, Nat.mod_lt _ (by decide)⟩ : Fin 128))

/-- One weight, loaded as a 1 × 1 block at column k and broadcast over the tile, is the row's column k at every lane. -/
theorem wload (x2 : Vec Ideal S1x128 .f32) (k : Nat) (inb : ∀ a, (![0, k] : Fin 2 → Nat) a + (![1, 1] : Fin 2 → Nat) a ≤ S1x128.size a)
    (sc1 sc2 : S1x1.ShapeCasts S1x1) (bc : S1x1.Broadcasts S16x16384) (j : S16x16384.Idx) :
    broadcastTo S16x16384 (shapeCast S1x1 (shapeCast S1x1 (View.ld (Val := Elt Ideal) (e' := .f32) x2 (Rect.unit (s := S1x128) ![0, k] ![1, 1] inb)) sc1) sc2) bc j
      = rowAt x2 k := by
  have hk : k < 128 := by have := inb 1; simp at this; omega
  rw [broadcastTo_apply _ bc j (ValueIdx.ix2 (0 : Fin 1) (0 : Fin 1)) (fun a => by fin_cases a <;> rfl), shapeCast_self,
    shapeCast_apply _ sc1 _ (ValueIdx.ix2 (0 : Fin 1) (0 : Fin 1)) rfl]
  show x2 ((Rect.unit (s := S1x128) ![0, k] ![1, 1] inb).emb (ValueIdx.ix2 (0 : Fin 1) (0 : Fin 1))) = rowAt x2 k
  unfold rowAt
  refine congrArg x2 (funext fun a => Fin.ext ?_)
  rw [Rect.emb_apply]
  match a with
  | ⟨0, _⟩ => rfl
  | ⟨1, _⟩ => show k + 1 * 0 = k % 128; rw [Nat.mod_eq_of_lt hk]; omega

/-- The value picked by testing b against n − 1, n − 2, …, 0 in that order of precedence, z if none matches. -/
def pickW {α : Type} (w : Nat → α) (z : α) (b : BitVec 32) : Nat → α
  | 0 => z
  | n + 1 => if b = BitVec.ofNat 32 n then w n else pickW w z b n

/-- A word below n picks its own entry. -/
theorem pickW_eq {α : Type} (w : Nat → α) (z : α) (b : BitVec 32) :
    ∀ n : Nat, n ≤ 2 ^ 32 → b.toNat < n → pickW w z b n = w b.toNat
  | 0, _, h => absurd h (Nat.not_lt_zero _)
  | n + 1, hn, h => by
    unfold pickW
    by_cases e : b = BitVec.ofNat 32 n
    · rw [if_pos e, e, BitVec.toNat_ofNat, Nat.mod_eq_of_lt (by omega)]
    · rw [if_neg e]
      refine pickW_eq w z b n (by omega) ?_
      have : b.toNat ≠ n := fun h' => e (by
        apply BitVec.eq_of_toNat_eq; rw [BitVec.toNat_ofNat, Nat.mod_eq_of_lt (by omega)]; exact h')
      omega

/-- THE LOSS TILE AT A LANE: bce of the two inputs' entries there, times the weight picked by their bin. -/
theorem lossOut_at (c : Dev nD) (i : grid1.Coords)
    (arg1 : Memref sig .tc .vmem S16x16384 .f32) (harg1 : arg1.IsWhole)
    (arg2 : Memref sig .tc .vmem S16x16384 .f32) (harg2 : arg2.IsWhole)
    (arg3 : Memref sig .tc .vmem S1x128 .f32) (harg3 : arg3.IsWhole)
    (arg4 : Memref sig .tc .vmem S16x16384 .f32) (harg4 : arg4.IsWhole)
    (X0 X1 : Vec Ideal S16x16384 .f32) (x2 : Vec Ideal S1x128 .f32) (j : S16x16384.Idx) :
    lossOut (F := Ideal) c i arg1 harg1 arg2 harg2 arg3 harg3 arg4 harg4 X0 X1 x2 j
      = FloatOps.mulf (F := Ideal) (φ := .f32) (Cert.LossSpec.bce (X0 j) (X1 j))
          (pickW (rowAt x2) (FloatOps.ofBits (F := Ideal) .f32 0#32) (Cert.LossSpec.binOf (X0 j) (X1 j)) 30) := by
  have hz : (![0, 0] : Fin 2 → Nat) = fun _ => 0 := funext fun a => by fin_cases a <;> rfl
  unfold lossOut
  rw [View.read_writes_eq_canon _ _ _ (lossCover c i arg1 harg1 arg2 harg2 arg3 harg3 arg4 harg4 X0 X1 x2)]
  unfold lossRun
  dsimp only
  sl_unfold_words
  rw [View.canon_unit_zero hz]
  simp only [View.readAt_eq_ld, harg1.read_unread, harg2.read_unread, harg3.read_unread, View.ld_unit_zero (S := S16x16384) hz]
  simp only [k1_pay1, k1_pay2, k1_pay3, k1_pay5, k1_pay7, k1_pay9, k1_pay11, k1_pay4, k1_pay6, k1_pay8, k1_pay10, k1_pay12,
    select, cmpi, mulf, subf, addf, absf, floor, fptosi, maximumf, minimumf, log, log1p, broadcast]
  simp only [select_eq]
  repeat rw [wload]
  unfold Cert.LossSpec.bce Cert.LossSpec.clipP Cert.LossSpec.binOf
  simp only [pickW]

end Cert.KernelIdeal.Hand

end
-- ==== Proof.IdealLossFinal.lean ====
/-
  The result array: the sixty-two loss tiles put together.

  Tile t is written back onto columns 16384·t … of the 16 × 1000000 result, cut at column 1000000 (the last tile
  contributes 576 columns). Every entry (r, col) of the result lies in exactly the tile t = col / 16384, and what that
  tile writes there is the body's value at the lane (r, col − 16384·t), whose two input entries are the arrays' entries
  at (r, col). So the array ends, entry by entry, at bce(p, g) times the weight the weights row holds for the bin.
-/
import proofs.«149492_j88261577933232_2_alg».proof.Proof.Gen.KernelIdeal.Launch
import proofs.«149492_j88261577933232_2_alg».proof.Proof.Gen.KernelIdeal.Skeleton
import proofs.«149492_j88261577933232_2_alg».proof.Proof.Gen.KernelIdeal.Points
import proofs.«149492_j88261577933232_2_alg».proof.Proof.IdealLossValue
import proofs.«149492_j88261577933232_2_alg».proof.Proof.LossSpec
import Idealize.ShloMosaic.Lib.Pipeline.Value
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- Where the tiles lie: every window's block index at point t, and how many columns of the output tile exist. -/
theorem tiles1 : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = t.val
    ∧ win1_3.xsize (grid1.coords t) (0 : Fin 2) = 16
    ∧ win1_3.xsize (grid1.coords t) (1 : Fin 2) = min 16384 (1000000 - 16384 * t.val) :=
  (by decide +kernel : ∀ t : Fin grid1.N, _)

/-- The result as one function of the two input arrays and the weights row. -/
def lossArr (P G : S16x1000000.Idx → EReal) (W : S1x128.Idx → EReal) : S16x1000000.Idx → EReal := fun i =>
  FloatOps.mulf (F := Ideal) (φ := .f32) (Cert.LossSpec.bce (P i) (G i))
    (pickW (rowAt W) (FloatOps.ofBits (F := Ideal) .f32 0#32) (Cert.LossSpec.binOf (P i) (G i)) 30)

/-- WHAT POINT t WRITES BACK is tile t of `lossArr` of the arrays as the kernel finds them. -/
theorem flushed1_eq (c : Dev nD) (t : Fin cfg1.N) :
    (dat1 V c).flushed 3 t
      = ((cfg1.win 3).blk t).view.read (Elt Ideal) (lossArr (V c main_arg0) (V c main_arg1) (V c main_v21)) := by
  show (cfg1.win 3).cut (grid1.coords t) ((dat1 V c).after 3 t) = _
  rw [after1_3]
  obtain ⟨a0, a1, b0, b1, w0, w1, o0, o1, x0, x1⟩ := tiles1 t
  funext y
  have hy0 : (y 0).val < win1_3.xsize (grid1.coords t) (0 : Fin 2) := (y 0).isLt
  have hy1 : (y 1).val < win1_3.xsize (grid1.coords t) (1 : Fin 2) := (y 1).isLt
  have hm0 : win1_0.moved (grid1.coords t) (win1_3.xinj (grid1.coords t) y) = true :=
    (win1_0.moved_iff _ _).mpr fun a => by
      have h : (y a).val < win1_3.xsize (grid1.coords t) a := (y a).isLt
      rw [(cut_alike1 t a).1] at h; exact h
  have hm1 : win1_1.moved (grid1.coords t) (win1_3.xinj (grid1.coords t) y) = true :=
    (win1_1.moved_iff _ _).mpr fun a => by
      have h : (y a).val < win1_3.xsize (grid1.coords t) a := (y a).isLt
      rw [(cut_alike1 t a).2] at h; exact h
  have e0 : pin1 V c t (win1_3.xinj (grid1.coords t) y) = V c main_arg0 (((cfg1.win 3).blk t).view.emb y) := by
    unfold pin1 Window.fill; rw [dif_pos hm0]
    show V c main_arg0 (((cfg1.win 0).blk t).view.emb _) = V c main_arg0 (((cfg1.win 3).blk t).view.emb y)
    refine congrArg (V c main_arg0) (funext fun a => Fin.ext ?_)
    match a with
    | ⟨0, _⟩ => show win1_0.index t (0 : Fin 2) * 16 + 1 * (y 0).val = win1_3.index t (0 : Fin 2) * 16 + 1 * (y 0).val; omega
    | ⟨1, _⟩ => show win1_0.index t (1 : Fin 2) * 16384 + 1 * (y 1).val = win1_3.index t (1 : Fin 2) * 16384 + 1 * (y 1).val; omega
  have e1 : gin1 V c t (win1_3.xinj (grid1.coords t) y) = V c main_arg1 (((cfg1.win 3).blk t).view.emb y) := by
    unfold gin1 Window.fill; rw [dif_pos hm1]
    show V c main_arg1 (((cfg1.win 1).blk t).view.emb _) = V c main_arg1 (((cfg1.win 3).blk t).view.emb y)
    refine congrArg (V c main_arg1) (funext fun a => Fin.ext ?_)
    match a with
    | ⟨0, _⟩ => show win1_1.index t (0 : Fin 2) * 16 + 1 * (y 0).val = win1_3.index t (0 : Fin 2) * 16 + 1 * (y 0).val; omega
    | ⟨1, _⟩ => show win1_1.index t (1 : Fin 2) * 16384 + 1 * (y 1).val = win1_3.index t (1 : Fin 2) * 16384 + 1 * (y 1).val; omega
  have e2 : rowAt (blk1 V c 2 t) = rowAt (V c main_v21) := by
    funext k
    unfold rowAt
    show V c main_v21 (((cfg1.win 2).blk t).view.emb _) = V c main_v21 _
    refine congrArg (V c main_v21) (funext fun a => Fin.ext ?_)
    match a with
    | ⟨0, _⟩ => show win1_2.index t (0 : Fin 2) * 1 + 1 * 0 = 0; omega
    | ⟨1, _⟩ => show win1_2.index t (1 : Fin 2) * 128 + 1 * (k % 128) = k % 128; omega
  show out1 V c t (win1_3.xinj (grid1.coords t) y) = lossArr _ _ _ (((cfg1.win 3).blk t).view.emb y)
  unfold out1 lossArr
  rw [lossOut_at, e0, e1, e2]

/-- An entry of the result is in tile t's block iff its coordinates are in the block's ranges, the columns cut at the
    array's end. -/
theorem mem_blk1 (t : Fin cfg1.N) (i : S16x1000000.Idx) :
    i ∈ ((cfg1.win 3).blk t).view.set ↔ ∀ a : Fin 2, win1_3.index t a * S16x16384.size a ≤ (i a).val
      ∧ (i a).val < win1_3.index t a * S16x16384.size a + win1_3.xsize (grid1.coords t) a := by
  show i ∈ ((View.whole main_v22).slice (win1_3.rect t)).set ↔ _
  rw [View.set_slice_whole, Rect.mem_set_unit]
  exact Iff.rfl

/-- Every entry of the result is in some tile's block: that of t = column / 16384. -/
theorem cover1 (i : S16x1000000.Idx) :
    ∃ t : Fin cfg1.N, (cfg1.win 3).flush t = true ∧ i ∈ ((cfg1.win 3).blk t).view.set := by
  have h0 : (i 0).val < 16 := (i 0).isLt
  have h1 : (i 1).val < 1000000 := (i 1).isLt
  have hN : cfg1.N = 62 := N_1
  refine ⟨⟨(i 1).val / 16384, by omega⟩, flush1_3 _, ?_⟩
  rw [mem_blk1]
  obtain ⟨a0, a1, b0, b1, w0, w1, o0, o1, x0, x1⟩ := tiles1 ⟨(i 1).val / 16384, by omega⟩
  intro a
  match a with
  | ⟨0, _⟩ =>
    show win1_3.index _ (0 : Fin 2) * 16 ≤ (i 0).val ∧ (i 0).val < win1_3.index _ (0 : Fin 2) * 16 + win1_3.xsize _ (0 : Fin 2)
    rw [o0, x0]; omega
  | ⟨1, _⟩ =>
    show win1_3.index _ (1 : Fin 2) * 16384 ≤ (i 1).val ∧ (i 1).val < win1_3.index _ (1 : Fin 2) * 16384 + win1_3.xsize _ (1 : Fin 2)
    rw [o1, x1]; dsimp only; omega

/-- THE RESULT ARRAY after the loss kernel. -/
theorem final1 (c : Dev nD) :
    (dat1 V c).arrAt 3 cfg1.N = lossArr (V c main_arg0) (V c main_arg1) (V c main_v21) :=
  (dat1 V c).arrAt_eq_of_cover 3 _ (fun t _ => flushed1_eq V c t) (cover1)

end Cert.KernelIdeal.Hand

end
-- ==== Proof.LibScatterSet.lean ====
/-
  A scatter whose body returns the update (an array `.at[…].set(v)`), read at one index.

  The scatter is a left fold over the update indices; each step replaces the element at the update's target, if it has
  one inside the operand. At an operand index that exactly one update index targets, every other step leaves the
  element alone and that one step writes its update, so the result holds that update there. At an index no update
  targets, the operand's element stays.
-/
import Idealize.ShloMosaic.PureOps.ShapeOps
import Idealize.ShloMosaic.Lib.ValueIdx

namespace Cert.LibScatterSet

open Idealize.ShloMosaic

variable {α : Type} {s si u : Shape} {w : Nat}

/-- One step of the scatter's fold: update `n` replaces the element at its target, when it has one. -/
def step (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (step d f idx upd) x := rfl

theorem step_of_ne (d : ScatterDims s si u) (f : α → α → α) (idx : IVec si w) (upd : u.Idx → α) (r : s.Idx → α)
    (n : Fin u.numel) (i₀ : s.Idx) (h : d.resultIdx? (u.rowMajor.symm n) idx ≠ some i₀) :
    step d f idx upd r n i₀ = r i₀ := by
  unfold step
  cases hh : d.resultIdx? (u.rowMajor.symm n) idx with
  | none => rfl
  | some i =>
    have hne : i₀ ≠ i := fun e => h (by rw [hh, e])
    simp only [if_neg hne]

theorem step_of_eq (d : ScatterDims s si u) (idx : IVec si w) (upd : u.Idx → α) (r : s.Idx → α)
    (n : Fin u.numel) (i₀ : s.Idx) (h : d.resultIdx? (u.rowMajor.symm n) idx = some i₀) :
    step d (fun _ b => b) idx upd r n i₀ = upd (u.rowMajor.symm n) := by
  unfold step
  rw [h]
  simp only [if_true]

theorem foldl_of_ne (d : ScatterDims s si u) (f : α → α → α) (idx : IVec si w) (upd : u.Idx → α) (i₀ : s.Idx) :
    ∀ (l : List (Fin u.numel)) (r : s.Idx → α), (∀ n ∈ l, d.resultIdx? (u.rowMajor.symm n) idx ≠ some i₀) →
      l.foldl (step d f idx upd) r i₀ = r i₀
  | [], r, _ => rfl
  | a :: l, r, h => by
    rw [List.foldl_cons, foldl_of_ne d f idx upd i₀ l _ (fun n hn => h n (List.mem_cons_of_mem _ hn))]
    exact step_of_ne d f idx upd r a i₀ (h a (List.mem_cons_self ..))

theorem foldl_of_mem (d : ScatterDims s si u) (idx : IVec si w) (upd : u.Idx → α) (i₀ : s.Idx) (n₀ : Fin u.numel)
    (h₀ : d.resultIdx? (u.rowMajor.symm n₀) idx = some i₀)
    (huniq : ∀ n, d.resultIdx? (u.rowMajor.symm n) idx = some i₀ → n = n₀) :
    ∀ (l : List (Fin u.numel)) (r : s.Idx → α), n₀ ∈ l →
      l.foldl (step d (fun _ b => b) idx upd) r i₀ = upd (u.rowMajor.symm n₀)
  | [], _, h => nomatch h
  | a :: l, r, h => by
    rw [List.foldl_cons]
    by_cases hl : n₀ ∈ l
    · exact foldl_of_mem d idx upd i₀ n₀ h₀ huniq l _ hl
    · have ha : a = n₀ := by
        rcases List.mem_cons.1 h with e | e
        · exact e.symm
        · exact absurd e hl
      subst ha
      rw [foldl_of_ne d _ idx upd i₀ l _ (fun n hn e => hl (huniq n e ▸ hn))]
      exact step_of_eq d idx upd r a i₀ h₀

/-- A scatter whose body returns the update: an operand index that exactly one update index targets holds that
update afterwards. -/
theorem scatter_set_apply (d : ScatterDims s si u) (x : s.Idx → α) (idx : IVec si w) (upd : u.Idx → α) (i₀ : s.Idx)
    (j₀ : u.Idx) (h₀ : d.resultIdx? j₀ idx = some i₀) (huniq : ∀ j, d.resultIdx? j idx = some i₀ → j = j₀) :
    Host.scatter d (fun _ b => b) x idx upd i₀ = upd j₀ := by
  rw [scatter_eq_foldl]
  have := foldl_of_mem d idx upd i₀ (u.rowMajor j₀) (by simpa using h₀)
    (fun n hn => by
      have := huniq _ hn
      rw [← this]; simp) (List.finRange u.numel) x (List.mem_finRange _)
  simpa using this

/-- An operand index that no update targets keeps the operand's element. -/
theorem scatter_apply_of_ne (d : ScatterDims s si u) (f : α → α → α) (x : s.Idx → α) (idx : IVec si w) (upd : u.Idx → α)
    (i₀ : s.Idx) (h : ∀ j, d.resultIdx? j idx ≠ some i₀) :
    Host.scatter d f x idx upd i₀ = x i₀ := by
  rw [scatter_eq_foldl]
  exact foldl_of_ne d f idx upd i₀ _ x (fun n _ => h _)

end Cert.LibScatterSet
-- ==== Proof.IdealHostScatter.lean ====
/-
  The program's scatter, read at row 0: zeros((1, 128)).at[0, :30].set(v).

  The scatter has one start index vector (r, c), read off a two-element integer array, and a window of 30 columns: update
  k lands at (r + 0, c + k). With both start indices zero, update k lands at row 0, column k, for every k below 30, inside
  the 1 × 128 operand; different updates land in different columns. So the result at (0, k) is update k.
-/
import proofs.«149492_j88261577933232_2_alg».proof.KernelIdeal
import proofs.«149492_j88261577933232_2_alg».proof.Proof.LibScatterSet
import Idealize.ShloMosaic.Lib.ValueIdx

namespace Cert.KernelIdeal.HostStretch

open Idealize.ShloMosaic Idealize.ShloMosaic.ValueIdx Cert.KernelIdeal

variable [Cert.KernelIdeal.Facts]

/-- With zero start indices, every operand axis's window starts at 0. -/
theorem start_zero (idx : IVec S2 32) (hidx : ∀ b, idx b = 0#32) (j : S30.Idx) (a : Fin S1x128.rank) :
    scatter_S1x128_S2_S30_0_0_01_0.start j idx a = 0 := by
  unfold ScatterDims.start
  split <;> simp [hidx]

/-- Operand axis 0 is an inserted axis: its window coordinate is 0. -/
theorem window_zero (j : S30.Idx) : scatter_S1x128_S2_S30_0_0_01_0.window j (0 : Fin 2) = 0 := by
  unfold ScatterDims.window
  have h0 : (0 : Fin 2) ∉ scatter_S1x128_S2_S30_0_0_01_0.sKept := (show (0 : Fin 2) ∉ Shape.kept S1x128 [0] by decide)
  rw [dif_neg h0]

/-- Operand axis 1 carries the update's one axis. -/
theorem window_one (j : S30.Idx) : scatter_S1x128_S2_S30_0_0_01_0.window j (1 : Fin 2) = (j 0).val := by
  unfold ScatterDims.window
  have h1 : (1 : Fin 2) ∈ scatter_S1x128_S2_S30_0_0_01_0.sKept := (show (1 : Fin 2) ∈ Shape.kept S1x128 [0] by decide)
  rw [dif_pos h1]
  rfl

/-- Update j lands at row 0, column j. -/
theorem resultIdx_eq (idx : IVec S2 32) (hidx : ∀ b, idx b = 0#32) (j : S30.Idx) :
    scatter_S1x128_S2_S30_0_0_01_0.resultIdx? j idx
      = some (ix2 (0 : Fin 1) (⟨(j 0).val, by have := (j 0).isLt; simp at this; omega⟩ : Fin 128)) := by
  have hs := start_zero idx hidx j
  unfold ScatterDims.resultIdx?
  rw [dif_pos]
  · congr 1
    funext a
    match a with
    | ⟨0, _⟩ => apply Fin.ext; simp [hs, window_zero]
    | ⟨1, _⟩ => apply Fin.ext; simp [hs, window_one]
  · intro a
    have := (j 0).isLt
    match a with
    | ⟨0, _⟩ => simp [hs, window_zero]
    | ⟨1, _⟩ => simp [hs, window_one]; simp at this; omega

/-- The scatter of the program, with both start indices zero: update k lands at row 0, column k. -/
theorem scatter_row {α : Type} (x : S1x128.Idx → α) (idx : IVec S2 32) (hidx : ∀ b, idx b = 0#32) (upd : S30.Idx → α)
    (k : Fin 30) :
    Host.scatter scatter_S1x128_S2_S30_0_0_01_0 (fun _ b => b) x idx upd
        (ix2 (0 : Fin 1) (⟨k.val, by omega⟩ : Fin 128)) = upd (ix1 k) := by
  apply Cert.LibScatterSet.scatter_set_apply
  · rw [resultIdx_eq idx hidx]
  · intro j hj
    rw [resultIdx_eq idx hidx] at hj
    have h1 := congrFun (Option.some.inj hj) (1 : Fin 2)
    have h1' : (⟨(j 0).val, by have := (j 0).isLt; simp at this; omega⟩ : Fin 128) = ⟨k.val, by omega⟩ := h1
    have h2 : (j 0).val = k.val := Fin.mk.inj h1'
    rw [eq_ix1 j]
    congr 1
    exact Fin.ext h2

end Cert.KernelIdeal.HostStretch
-- ==== Proof.IdealHostTerm.lean ====
/-
  The host arithmetic between the two kernels, as one term.

  After the histogram kernel the program slices the 1 × 256 histogram row into its columns 0 … 29 and 128 … 157 and adds
  them (the 30 counts), sums the mask bits (n), counts the bins with a positive count, and forms the 30 weights
  n / max(2⁻¹⁰, count · #nonempty); it then writes them into row 0, columns 0 … 29 of a zero 1 × 128 row. The contents of
  that row after the three stretches of host operations are the composite of the operations' functions applied to the
  histogram row and the mask as they stand after the first kernel.
-/
import proofs.«149492_j88261577933232_2_alg».proof.Proof.IdealRegions
import proofs.«149492_j88261577933232_2_alg».proof.Proof.LossSpec
import proofs.«149492_j88261577933232_2_alg».proof.Proof.IdealHostScatter
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.KernelIdeal.HostStretch

open Cert.KernelIdeal Cert.KernelIdeal.Gen Cert.KernelIdeal.Hand
open Idealize.ShloMosaic Idealize.ShloMosaic.ValueIdx Idealize.ShloMosaic.StableHlo

/-- The 30 counts: the histogram row's columns 0 … 29 plus its columns 128 … 157. -/
def Hrow (V0 : S1x256.Idx → EReal) : S30.Idx → EReal :=
  addf (F := Ideal) (φ := .f32)
    (shapeCast S30 (extractStridedSlice S1x30 ![0, 0] V0 slices_S1x256_S1x30_0_0) shapeCasts_S1x30_S30)
    (shapeCast S30 (extractStridedSlice S1x30 ![0, 128] V0 slices_S1x256_S1x30_0_128) shapeCasts_S1x30_S30)

/-- The number of set mask bits. -/
def nTot (Km : S16x1000000.Idx → BitVec 1) : S_.Idx → EReal :=
  Host.reduceAdd (F := Ideal) (φ := .f32) (uitofp .f32 Km) (constant S_ .f32 0x00000000#32) reducesTo_S16x1000000_S_d0_1 h_S_

/-- The number of non-empty bins. -/
def nNe (V0 : S1x256.Idx → EReal) : S_.Idx → EReal :=
  Host.reduceAdd (F := Ideal) (φ := .f32)
    (uitofp .f32 (cmpf (F := Ideal) (φ := .f32) .ogt (Hrow V0) (broadcastInDim S30 ![] bcast_S_S30 (constant S_ .f32 0x00000000#32))))
    (constant S_ .f32 0x00000000#32) reducesTo_S30_S_d0 h_S_

/-- The 30 weights. -/
def wRow (V0 : S1x256.Idx → EReal) (Km : S16x1000000.Idx → BitVec 1) : S30.Idx → EReal :=
  Host.divf (F := Ideal) (φ := .f32) (broadcastInDim S30 ![] bcast_S_S30 (nTot Km))
    (maximumf (F := Ideal) (φ := .f32) (broadcastInDim S30 ![] bcast_S_S30 (constant (F := Ideal) S_ .f32 0x3A800000#32))
      (mulf (F := Ideal) (φ := .f32) (Hrow V0) (broadcastInDim S30 ![] bcast_S_S30 (nNe V0))))

/-- The scatter's start indices. -/
def idx0 : IVec S2 32 :=
  concatenate S2 0 [⟨S1, broadcastInDim S1 ![] bcast_S_S1 (constantI S_ 32 0#32)⟩,
    ⟨S1, broadcastInDim S1 ![] bcast_S_S1 (constantI S_ 32 0#32)⟩] concatenates_S1_S1_S2_d0

/-- The weights row after the host operations, as the operations' composite over the histogram row and the mask. -/
theorem v21_eq (m : (ℓ : Loc nD τ sig) → Buf (Elt Ideal) ℓ) (c : Dev nD) :
    (W4 m c (Proc.devRef .tc main_v21) : S1x128.Idx → EReal)
      = Host.scatter scatter_S1x128_S2_S30_0_0_01_0 (fun _ b => b)
          (broadcastInDim S1x128 ![] bcast_S_S1x128 (constant (F := Ideal) S_ .f32 0x00000000#32)) idx0
          (wRow (W1 m c (Proc.devRef .tc main_v0)) (W1 m c (Proc.devRef .tc main_arg2))) := by
  dsimp only [W4, W3, W2, hostOps1, hostOps1_1, hostOps1_2]
  after_results
  rfl

end Cert.KernelIdeal.HostStretch
-- ==== Proof.IdealHostStretch.lean ====
/-
  The weights row the loss kernel reads, entry by entry.

  Given that the histogram row's two halves add up to the specification's counts, the host arithmetic between the
  kernels leaves at row 0, column k (k below 30) of the weights row the specification's weight of bin k:
  n / max(2⁻¹⁰, count[k] · #nonempty), with n the number of set mask bits and #nonempty the number of bins with a positive
  count. Each operation is read at an index: the slices and reshapes pick histogram columns k and 128 + k, the two
  reductions are total sums (of mask bits read as 0 / 1, and of the bits "count > 0" read as 0 / 1), the broadcasts
  repeat a scalar, and the scatter puts weight k at column k.
-/
import proofs.«149492_j88261577933232_2_alg».proof.Proof.IdealHostTerm

set_option maxRecDepth 16384

noncomputable section

namespace Cert.KernelIdeal.HostStretch

open Cert.KernelIdeal Cert.KernelIdeal.Gen Cert.KernelIdeal.Hand
open Idealize.ShloMosaic Idealize.ShloMosaic.ValueIdx Idealize.ShloMosaic.StableHlo

/-- Both start indices are zero. -/
theorem idx0_zero (b : S2.Idx) : idx0 b = 0#32 := by
  obtain ⟨a, rfl⟩ : ∃ a, b = ix1 a := ⟨b 0, eq_ix1 b⟩
  unfold idx0
  match a with
  | ⟨0, _⟩ =>
    exact concatenate_pair_apply_left (0 : Fin S2.rank) _ _ concatenates_S1_S1_S2_d0 _ rfl (ix1 (0 : Fin 1))
      (by intro b; match b with | ⟨0, _⟩ => rfl)
  | ⟨1, _⟩ =>
    exact concatenate_pair_apply_right (0 : Fin S2.rank) _ _ concatenates_S1_S1_S2_d0 _ rfl rfl (ix1 (0 : Fin 1))
      (by intro b hb; match b with | ⟨0, _⟩ => exact absurd rfl hb) (by rfl)

/-- A count: the two histogram halves added. -/
theorem Hrow_apply (V0 : S1x256.Idx → EReal) (k : Fin 30) :
    Hrow V0 (ix1 k) = V0 (ix2 (0 : Fin 1) (⟨k.val, by omega⟩ : Fin 256))
      + V0 (ix2 (0 : Fin 1) (⟨128 + k.val, by omega⟩ : Fin 256)) := by
  unfold Hrow
  rw [addf_apply]
  congr 1
  · rw [shapeCast_apply _ shapeCasts_S1x30_S30 (ix1 k) (ix2 (0 : Fin 1) k)
      (by rw [Shape.rowMajor_val_two, Shape.rowMajor_val_one]; simp)]
    exact extractStridedSlice_apply _ _ _ _ _ (by
      intro a
      match a with
      | ⟨0, _⟩ => rfl
      | ⟨1, _⟩ => simp)
  · rw [shapeCast_apply _ shapeCasts_S1x30_S30 (ix1 k) (ix2 (0 : Fin 1) k)
      (by rw [Shape.rowMajor_val_two, Shape.rowMajor_val_one]; simp)]
    exact extractStridedSlice_apply _ _ _ _ _ (by
      intro a
      match a with
      | ⟨0, _⟩ => rfl
      | ⟨1, _⟩ => simp)

/-- A bit read as a float is 1 or 0. -/
theorem uitofp_bit (b : BitVec 1) : ((b.toNat : ℝ) : EReal) = if b = 1#1 then 1 else 0 := by
  have h : b = 0#1 ∨ b = 1#1 := by revert b; decide
  rcases h with rfl | rfl <;> simp

/-- The bit "a > 0" read as a float is 1 or 0. -/
theorem gt_bit (a : EReal) :
    (((Ideal.cmp .ogt a (Ideal.ofBits .f32 0x00000000#32)).toNat : ℝ) : EReal) = if 0 < a then 1 else 0 := by
  rw [Ideal.ofBits_zero_f32]
  by_cases h : (0 : EReal) < a <;> simp [Ideal.cmp, h]

/-- The rank-1 indices of length 30 are the numbers below 30. -/
def e30 : Fin 30 ≃ S30.Idx := ⟨ix1, fun j => j 0, fun _ => rfl, fun j => (eq_ix1 j).symm⟩

/-- n: the number of set mask bits. -/
theorem nTot_apply (Km : S16x1000000.Idx → BitVec 1) :
    nTot Km ix0 = ∑ i : S16x1000000.Idx, if Km i = 1#1 then (1 : EReal) else 0 := by
  unfold nTot
  rw [hostReduceAdd_apply, Ideal.hostReduceAdd_total _ (fun b => b.elim0), constant_apply, Ideal.ofBits_zero_f32, zero_add]
  apply Finset.sum_congr rfl
  intro i _
  exact uitofp_bit (Km i)

/-- The number of bins with a positive count. -/
theorem nNe_apply (V0 : S1x256.Idx → EReal) :
    nNe V0 ix0 = ∑ b : Fin 30, if (0 : EReal) < Hrow V0 (ix1 b) then (1 : EReal) else 0 := by
  unfold nNe
  rw [hostReduceAdd_apply, Ideal.hostReduceAdd_total _ (fun b => b.elim0), constant_apply, Ideal.ofBits_zero_f32, zero_add,
    ← e30.sum_comp]
  apply Finset.sum_congr rfl
  intro b _
  exact gt_bit (Hrow V0 (ix1 b))

/-- A weight. -/
theorem wRow_apply (V0 : S1x256.Idx → EReal) (Km : S16x1000000.Idx → BitVec 1) (k : Fin 30) :
    wRow V0 Km (ix1 k) = Ideal.div (nTot Km ix0)
      (max (Ideal.ofBits .f32 0x3A800000#32) (Hrow V0 (ix1 k) * nNe V0 ix0)) := by
  unfold wRow
  rw [hostDivf_apply, broadcastInDim_scalar_apply, maximumf_apply, broadcastInDim_scalar_apply, constant_apply, mulf_apply,
    broadcastInDim_scalar_apply]

/-- The histogram row after the first kernel, as a function of its index. -/
abbrev histRow (m : (ℓ : Loc nD τ sig) → Buf (Elt Ideal) ℓ) (c : Dev nD) : S1x256.Idx → EReal :=
  W1 m c (Proc.devRef .tc main_v0)

/-- The weights row at row 0, column k is the specification's weight of bin k, given that the histogram row's two
halves add up to the specification's counts. -/
theorem table_weight (m : (ℓ : Loc nD τ sig) → Buf (Elt Ideal) ℓ) (c : Dev nD)
    (hcnt : ∀ k : Fin 30,
      histRow m c (ix2 (0 : Fin 1) (⟨k.val, by omega⟩ : Fin 256))
        + histRow m c (ix2 (0 : Fin 1) (⟨128 + k.val, by omega⟩ : Fin 256))
        = Cert.LossSpec.cnt (m ((c.tc : Thread nD τ).loc main_arg0)) (m ((c.tc : Thread nD τ).loc main_arg1))
            (BitVec.ofNat 32 k.val))
    (k : Fin 30) :
    (W4 m c (Proc.devRef .tc main_v21) : S1x128.Idx → EReal) (ix2 (0 : Fin 1) (⟨k.val, by omega⟩ : Fin 128))
      = Cert.LossSpec.weight (m ((c.tc : Thread nD τ).loc main_arg0)) (m ((c.tc : Thread nD τ).loc main_arg1))
          (m ((c.tc : Thread nD τ).loc main_arg2)) (BitVec.ofNat 32 k.val) := by
  have hK : W1 m c (Proc.devRef .tc main_arg2) = m ((c.tc : Thread nD τ).loc main_arg2) :=
    W1_of_ne m c main_arg2 (by decide)
  have hne : nNe (W1 m c (Proc.devRef .tc main_v0)) ix0
      = Cert.LossSpec.nNonempty (m ((c.tc : Thread nD τ).loc main_arg0)) (m ((c.tc : Thread nD τ).loc main_arg1)) := by
    rw [nNe_apply]
    unfold Cert.LossSpec.nNonempty
    apply Finset.sum_congr rfl
    intro b _
    rw [Hrow_apply, hcnt b]
  rw [v21_eq, scatter_row _ _ idx0_zero _ k, wRow_apply, Hrow_apply, hcnt k, hne, nTot_apply, hK]
  rfl

end Cert.KernelIdeal.HostStretch
-- ==== Proof.PreRange.lean ====
import proofs.«149492_j88261577933232_2_alg».proof.Defs
import proofs.«149492_j88261577933232_2_alg».proof.Proof.Gen.Pre_finite_inputs
import proofs.«149492_j88261577933232_2_alg».proof.Proof.LossSpec
import Idealize.ShloMosaic.Lib.ReduceAll
import Idealize.ShloMosaic.Lib.ValueIdx
import Idealize.ShloMosaic.PureOps.Ideal

/-
  The precondition, read back: every entry's bin lies in 0 … 29.

  The precondition states that a predicate of the two float arrays evaluates to the bit 1. Its third conjunct is
  "for every entry, ⌊|p − g| · (30 − 2⁻¹⁰)⌋ < 30" over the extended reals. The quantity on the left is also
  nonnegative (an absolute value times a positive scale, floored), so it is a real number in [0, 30), and the 32-bit
  integer it converts to, the entry's bin, has a value below 30.
-/

namespace Cert.Proof.PreRange

open Idealize.ShloMosaic

/-- A value in [0, 30) converts to a 32-bit integer whose value is below 30: it is a real number, its integer part
toward zero is its floor, between 0 and 29, and no clamping occurs. -/
theorem fptosi_toNat_lt (y : EReal) (h0 : 0 ≤ y) (h30 : y < ((30 : ℝ) : EReal)) :
    (Ideal.fptosi 32 y).toNat < 30 := by
  induction y using EReal.rec with
  | bot => simp at h0
  | top => simp at h30
  | coe r =>
    have hr0 : 0 ≤ r := by exact_mod_cast h0
    have hr30 : r < 30 := by exact_mod_cast h30
    rw [Ideal.fptosi, Ideal.toIntClamped_coe, if_pos hr0]
    have hf0 : 0 ≤ ⌊r⌋ := Int.floor_nonneg.2 hr0
    have hf30 : ⌊r⌋ < 30 := Int.floor_lt.2 (by exact_mod_cast hr30)
    have hc : max (-((2 ^ (32 - 1) : ℕ) : ℤ)) (min (((2 ^ (32 - 1) : ℕ) : ℤ) - 1) ⌊r⌋) = ⌊r⌋ := by
      rw [min_eq_right (by norm_num; omega), max_eq_right (by norm_num; omega)]
    rw [hc, BitVec.toNat_ofInt]
    omega

/-- The word 0x41F00000 is the float 30. -/
theorem thirty : Ideal.ofBits .f32 0x41F00000#32 = ((30 : ℝ) : EReal) := by
  simp [Ideal.ofBits, Ideal.ieee, -EReal.coe_mul]; norm_num

/-- The scale 0x41EFFE00 (30 − 2⁻¹⁰) is positive. -/
theorem scale_pos : (0 : EReal) < Ideal.ofBits .f32 0x41EFFE00#32 := by
  simp [Ideal.ofBits, Ideal.ieee, -EReal.coe_mul]

/-- A rank-0 shape has one index. -/
instance : Subsingleton Cert.Pre_finite_inputs.S_.Idx := ⟨fun a b => funext fun d => d.elim0⟩

/-- The predicate's third conjunct at one entry: the floored scaled distance is below 30. -/
theorem fn_elem (P G : FVec Ideal Cert.Pre_finite_inputs.S16x1000000 .f32) (K : IVec Cert.Pre_finite_inputs.S16x1000000 1)
    (h : Cert.Pre_finite_inputs.fn (F := Ideal) P G K = fun _ => 1#1) (i : Cert.Pre_finite_inputs.S16x1000000.Idx) :
    FloatOps.floor (FloatOps.mulf (FloatOps.absf (FloatOps.subf (P i) (G i)))
      (FloatOps.ofBits (F := Ideal) .f32 0x41EFFE00#32)) < ((30 : ℝ) : EReal) := by
  have h0 := congrFun h ValueIdx.ix0
  dsimp only [Cert.Pre_finite_inputs.fn, Cert.Pre_finite_inputs.fn_part1] at h0
  have h1 := (IntOp.andi_eq_one.1 h0).2
  have h2 := Host.reduce_andi_all _ _ _ _ _ h1 i
  rw [← thirty]
  have h3 : BitVec.ofBool (decide (FloatOps.floor (FloatOps.mulf (FloatOps.absf (FloatOps.subf (P i) (G i)))
      (FloatOps.ofBits (F := Ideal) .f32 0x41EFFE00#32)) < Ideal.ofBits .f32 0x41F00000#32)) = 1#1 := h2
  cases hd : decide (FloatOps.floor (FloatOps.mulf (FloatOps.absf (FloatOps.subf (P i) (G i)))
      (FloatOps.ofBits (F := Ideal) .f32 0x41EFFE00#32)) < Ideal.ofBits .f32 0x41F00000#32) with
  | true => exact of_decide_eq_true hd
  | false => rw [hd] at h3; exact absurd h3 (by decide)

/-- An absolute value max x (−x) is nonnegative on the extended reals, the infinities included. -/
theorem abs_nonneg' (x : EReal) : (0 : EReal) ≤ max x (-x) := by
  rcases le_total 0 x with hx | hx
  · exact le_max_of_le_left hx
  · exact le_max_of_le_right (by simpa using EReal.neg_le_neg_iff.2 hx)

/-- The floor of a nonnegative extended real is nonnegative. -/
theorem floor_nonneg' (z : EReal) (hz : 0 ≤ z) : (0 : EReal) ≤ Ideal.liftRound Int.floor z := by
  induction z using EReal.rec with
  | bot => simp at hz
  | top => simp
  | coe r =>
    have hr : 0 ≤ r := by exact_mod_cast hz
    rw [Ideal.liftRound_coe]
    exact_mod_cast Int.floor_nonneg.2 hr

/-- The floored scaled distance is nonnegative. -/
theorem bin_nonneg (p g : Ideal .f32) :
    (0 : EReal) ≤ FloatOps.floor (FloatOps.mulf (FloatOps.absf (FloatOps.subf p g))
      (FloatOps.ofBits (F := Ideal) .f32 0x41EFFE00#32)) := by
  refine floor_nonneg' _ ?_
  exact mul_nonneg (abs_nonneg' _) scale_pos.le

/-- Arrays on which the predicate is 1 have every bin below 30. -/
theorem fn_inRange (P G : FVec Ideal Cert.Pre_finite_inputs.S16x1000000 .f32) (K : IVec Cert.Pre_finite_inputs.S16x1000000 1)
    (h : Cert.Pre_finite_inputs.fn (F := Ideal) P G K = fun _ => 1#1) (i : Cert.Pre_finite_inputs.S16x1000000.Idx) :
    (Cert.LossSpec.binOf (P i) (G i)).toNat < 30 :=
  fptosi_toNat_lt _ (bin_nonneg (P i) (G i)) (fn_elem P G K h i)

/-- Under the claim's precondition, on every device, every entry's bin is below 30. -/
theorem pre_inRange (m : (ℓ : Loc Cert.KernelIdeal.nD Cert.KernelIdeal.τ Cert.KernelIdeal.sig) → Buf (Elt Ideal) ℓ)
    (h : Cert.Pre_KernelIdeal m) (c : Dev Cert.KernelIdeal.nD) (i : Cert.LossSpec.SBig.Idx) :
    (Cert.LossSpec.binOf (m ((c.tc : Thread Cert.KernelIdeal.nD Cert.KernelIdeal.τ).loc Cert.KernelIdeal.main_arg0) i)
                         (m ((c.tc : Thread Cert.KernelIdeal.nD Cert.KernelIdeal.τ).loc Cert.KernelIdeal.main_arg1) i)).toNat < 30 :=
  fn_inRange _ _ _ (h c) i

end Cert.Proof.PreRange
-- ==== Proof.IdealResult.lean ====
/-
  The kernel's result array is the specification's result.

  The loss kernel leaves, entry by entry, bce(p, g) times the weight it picks from the weights row by testing the entry's
  bin against 29, 28, …, 0. Under the precondition every bin is below 30, so the test picks the row's column "bin"; the
  host arithmetic put the specification's weight of that bin there. Hence the array is the specification's result.
-/
import proofs.«149492_j88261577933232_2_alg».proof.Proof.IdealLossFinal
import proofs.«149492_j88261577933232_2_alg».proof.Proof.IdealFrame
import proofs.«149492_j88261577933232_2_alg».proof.Proof.IdealHostStretch
import proofs.«149492_j88261577933232_2_alg».proof.Proof.PreRange

set_option maxRecDepth 16384

noncomputable section

namespace Cert.KernelIdeal.Hand

open Cert.KernelIdeal Cert.KernelIdeal.Gen
open Idealize.ShloMosaic Idealize.ShloMosaic.TcCoe
open Idealize.SL Idealize.SL.Sem

/-- With the specification's weights in columns 0 … 29 of the row and every bin below 30, the kernel's array is the
specification's result. -/
theorem lossArr_result (P G : Cert.LossSpec.SBig.Idx → EReal) (K : Cert.LossSpec.SBig.Idx → BitVec 1) (W : S1x128.Idx → EReal)
    (hW : ∀ k : Fin 30, W (ValueIdx.ix2 (0 : Fin 1) (⟨k.val, by omega⟩ : Fin 128))
      = Cert.LossSpec.weight P G K (BitVec.ofNat 32 k.val))
    (hin : ∀ i, (Cert.LossSpec.binOf (P i) (G i)).toNat < 30) : lossArr P G W = Cert.LossSpec.result P G K := by
  funext i
  unfold lossArr Cert.LossSpec.result
  rw [pickW_eq _ _ _ 30 (by norm_num) (hin i)]
  refine congrArg (fun w => FloatOps.mulf (F := Ideal) (φ := .f32) (Cert.LossSpec.bce (P i) (G i)) w) ?_
  have hb := hin i
  have e1 : BitVec.ofNat 32 (Cert.LossSpec.binOf (P i) (G i)).toNat = Cert.LossSpec.binOf (P i) (G i) := by
    apply BitVec.eq_of_toNat_eq
    rw [BitVec.toNat_ofNat]
    exact Nat.mod_eq_of_lt (by omega)
  have e2 : (⟨(Cert.LossSpec.binOf (P i) (G i)).toNat % 128, Nat.mod_lt _ (by decide)⟩ : Fin 128)
      = ⟨(Cert.LossSpec.binOf (P i) (G i)).toNat, by omega⟩ := Fin.ext (Nat.mod_eq_of_lt (by omega))
  have h := hW ⟨(Cert.LossSpec.binOf (P i) (G i)).toNat, hb⟩
  unfold rowAt
  exact (congrArg (fun q => W (ValueIdx.ix2 (0 : Fin 1) q)) e2).trans (h.trans (congrArg _ e1))

variable (m : (ℓ : Loc nD τ sig) → Buf (Elt Ideal) ℓ)

/-- No host operation and no kernel writes the first input array. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps1_2 _ hostOps1_2_writes (by decide : main_arg0 ∉ hostOps1_2_W)
    _ = W2 m c (Proc.devRef .tc main_arg0) := StableHlo.after_of_writes_sub hostOps1_1 _ hostOps1_1_writes (by decide : main_arg0 ∉ hostOps1_1_W)
    _ = W1 m c (Proc.devRef .tc main_arg0) := StableHlo.after_of_writes_sub hostOps1 _ hostOps1_writes (by decide : main_arg0 ∉ hostOps1_W)
    _ = W0 m c (Proc.devRef .tc main_arg0) := (W1_arr m c 0).trans (((dat0 (Ve0 m) c).arrAt_in 0 rfl _).trans (A_eq0 (Ve0 m) c 0))
    _ = m ((c : Thread nD τ).loc main_arg0) := rfl

/-- Nor the second. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps1_2 _ hostOps1_2_writes (by decide : main_arg1 ∉ hostOps1_2_W)
    _ = W2 m c (Proc.devRef .tc main_arg1) := StableHlo.after_of_writes_sub hostOps1_1 _ hostOps1_1_writes (by decide : main_arg1 ∉ hostOps1_1_W)
    _ = W1 m c (Proc.devRef .tc main_arg1) := StableHlo.after_of_writes_sub hostOps1 _ hostOps1_writes (by decide : main_arg1 ∉ hostOps1_W)
    _ = W0 m c (Proc.devRef .tc main_arg1) := (W1_arr m c 1).trans (((dat0 (Ve0 m) c).arrAt_in 1 rfl _).trans (A_eq0 (Ve0 m) c 1))
    _ = m ((c : Thread nD τ).loc main_arg1) := rfl

/-- The array the loss kernel leaves is the specification's result of the launch arrays, given the precondition and
that the histogram row's halves add up to the specification's counts. -/
theorem kernel_result (c : Dev nD) (hpre : Cert.Pre_KernelIdeal m)
    (hcnt : ∀ k : Fin 30,
      HostStretch.histRow m c (ValueIdx.ix2 (0 : Fin 1) (⟨k.val, by omega⟩ : Fin 256))
        + HostStretch.histRow m c (ValueIdx.ix2 (0 : Fin 1) (⟨128 + k.val, by omega⟩ : Fin 256))
        = Cert.LossSpec.cnt (m ((c.tc : Thread nD τ).loc main_arg0)) (m ((c.tc : Thread nD τ).loc main_arg1))
            (BitVec.ofNat 32 k.val)) :
    (dat1 (Ve1 m) c).arrAt 3 cfg1.N
      = Cert.LossSpec.result (m ((c.tc : Thread nD τ).loc main_arg0)) (m ((c.tc : Thread nD τ).loc main_arg1))
          (m ((c.tc : Thread nD τ).loc main_arg2)) := by
  rw [final1 (Ve1 m) c]
  show lossArr (W4 m c (Proc.devRef .tc main_arg0)) (W4 m c (Proc.devRef .tc main_arg1)) (W4 m c (Proc.devRef .tc main_v21)) = _
  rw [W4_main_arg0, W4_main_arg1]
  exact lossArr_result _ _ (m ((c.tc : Thread nD τ).loc main_arg2)) _
    (fun k => HostStretch.table_weight m c hcnt k) (fun i => Cert.Proof.PreRange.pre_inRange m hpre c i)

end Cert.KernelIdeal.Hand
-- ==== Proof.IdealHistArr.lean ====
/-
  The 1 × 256 histogram row after the first kernel.

  Half h of the grid (points 31·h … 31·h + 30) accumulates in one 1 × 128 buffer, which is written back once, after the
  half's last point, onto lanes 128·h … 128·h + 127 of the row. So lane x of the row holds lane x mod 128 of what the
  accumulator held after point 31·(x / 128) + 30.
-/
import proofs.«149492_j88261577933232_2_alg».proof.Proof.Gen.KernelIdeal.Launch
import proofs.«149492_j88261577933232_2_alg».proof.Proof.Gen.KernelIdeal.Skeleton
import proofs.«149492_j88261577933232_2_alg».proof.Proof.Gen.KernelIdeal.Points
import proofs.«149492_j88261577933232_2_alg».proof.Proof.IdealHistBody
import Idealize.ShloMosaic.Lib.Pipeline.Value
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable {F : FTy → Type} [FloatOps F]
variable (V : (c : Dev nD) → (b : Ref sig .tc) → Buf (Elt F) ((c : Thread nD τ).loc b))

/-- Where the accumulator's block lies at each point (row 0, the half's 128 lanes), and that it is never cut. -/
theorem tiles0 : ∀ t : Fin cfg0.N,
    win0_2.index t (0 : Fin 2) = 0 ∧ win0_2.index t (1 : Fin 2) = t.val / 31
    ∧ win0_2.xsize (grid0.coords t) (0 : Fin 2) = 1 ∧ win0_2.xsize (grid0.coords t) (1 : Fin 2) = 128 :=
  (by decide +kernel : ∀ t : Fin grid0.N, _)

/-- The accumulation does not depend on how its position is written. -/
theorem outsAt0_congr (c : Dev nD) (n n' : ℕ) (h : n = n') (hn : n < cfg0.N) (hn' : n' < cfg0.N) :
    outsAt0 V c n hn = outsAt0 V c n' hn' := by subst h; rfl

/-- The histogram row as one function of the accumulations. -/
def histArr (c : Dev nD) : S1x256.Idx → Elt F .f32 := fun i =>
  outsAt0 V c (31 * ((i 1).val / 128) + 30)
    (by have h := (i 1).isLt; have hN : cfg0.N = 62 := N_0; change (i 1).val < 256 at h; omega)
    (ValueIdx.ix2 (0 : Fin 1) (⟨(i 1).val % 128, Nat.mod_lt _ (by decide)⟩ : Fin 128))

/-- WHAT A WRITING-BACK POINT WRITES is its half of `histArr`. -/
theorem flushed0_eq (c : Dev nD) (t : Fin cfg0.N) (hf : (cfg0.win 2).flush t = true) :
    (dat0 V c).flushed 2 t = ((cfg0.win 2).blk t).view.read (Elt F) (histArr V c) := by
  have h30 : t.val % 31 = 30 := (flush0_2 t).mp hf
  have hN : t.val < 62 := lt_of_lt_of_eq t.isLt N_0
  obtain ⟨i0, i1, x0, x1⟩ := tiles0 t
  show (cfg0.win 2).cut (grid0.coords t) ((dat0 V c).after 2 t) = _
  rw [after0_2]
  funext y
  have hy1 : (y 1).val < win0_2.xsize (grid0.coords t) (1 : Fin 2) := (y 1).isLt
  rw [x1] at hy1
  show outsAt0 V c t.val t.isLt (win0_2.xinj (grid0.coords t) y) = histArr V c (((cfg0.win 2).blk t).view.emb y)
  unfold histArr
  have e1 : ((((cfg0.win 2).blk t).view.emb y) 1).val = win0_2.index t (1 : Fin 2) * 128 + 1 * (y 1).val := rfl
  have hpos : 31 * (((((cfg0.win 2).blk t).view.emb y) 1).val / 128) + 30 = t.val := by rw [e1, i1]; omega
  rw [outsAt0_congr V c (31 * (((((cfg0.win 2).blk t).view.emb y) 1).val / 128) + 30) t.val hpos _ t.isLt]
  refine congrArg (outsAt0 V c t.val t.isLt) (funext fun a => Fin.ext ?_)
  match a with
  | ⟨0, _⟩ => have := (y 0).isLt; have h0 : (y 0).val < win0_2.xsize (grid0.coords t) (0 : Fin 2) := (y 0).isLt; rw [x0] at h0; show (y 0).val = 0; omega
  | ⟨1, _⟩ => show (y 1).val = ((((cfg0.win 2).blk t).view.emb y) 1).val % 128; rw [e1, i1]; omega

/-- A lane of the row is in point t's block iff it is among the half's 128 lanes. -/
theorem mem_blk0 (t : Fin cfg0.N) (i : S1x256.Idx) :
    i ∈ ((cfg0.win 2).blk t).view.set ↔ ∀ a : Fin 2, win0_2.index t a * S1x128.size a ≤ (i a).val
      ∧ (i a).val < win0_2.index t a * S1x128.size a + win0_2.xsize (grid0.coords t) a := by
  show i ∈ ((View.whole main_v0).slice (win0_2.rect t)).set ↔ _
  rw [View.set_slice_whole, Rect.mem_set_unit]
  exact Iff.rfl

/-- Every lane of the row is written back by the last point of its half. -/
theorem cover0 (i : S1x256.Idx) :
    ∃ t : Fin cfg0.N, (cfg0.win 2).flush t = true ∧ i ∈ ((cfg0.win 2).blk t).view.set := by
  have h0 : (i 0).val < 1 := (i 0).isLt
  have h1 : (i 1).val < 256 := (i 1).isLt
  have hN : cfg0.N = 62 := N_0
  refine ⟨⟨31 * ((i 1).val / 128) + 30, by omega⟩, (flush0_2 _).mpr (by dsimp only; omega), ?_⟩
  rw [mem_blk0]
  obtain ⟨i0, i1, x0, x1⟩ := tiles0 ⟨31 * ((i 1).val / 128) + 30, by omega⟩
  intro a
  match a with
  | ⟨0, _⟩ =>
    show win0_2.index _ (0 : Fin 2) * 1 ≤ (i 0).val ∧ (i 0).val < win0_2.index _ (0 : Fin 2) * 1 + win0_2.xsize _ (0 : Fin 2)
    rw [i0, x0]; omega
  | ⟨1, _⟩ =>
    show win0_2.index _ (1 : Fin 2) * 128 ≤ (i 1).val ∧ (i 1).val < win0_2.index _ (1 : Fin 2) * 128 + win0_2.xsize _ (1 : Fin 2)
    rw [i1, x1]; dsimp only; omega

/-- THE HISTOGRAM ROW after the first kernel. -/
theorem final0 (c : Dev nD) : (dat0 V c).arrAt 2 cfg0.N = histArr V c :=
  (dat0 V c).arrAt_eq_of_cover 2 _ (fun t hf => flushed0_eq V c t hf) (cover0)

end Cert.KernelIdeal.Hand

end
-- ==== Proof.IdealHistBins.lean ====
/-
  One tile's contribution to the histogram row, bin by bin.

  For one tile with bin indices B (one 32-bit integer per lane of the 16 × 16384 tile) the body adds to the running
  1 × 128 row, for b = 0, 1, …, 29 in turn, the row that is 1 at lane b and 0 elsewhere times the number of lanes of
  the tile whose bin is b (counted by summing the indicator down the 16 rows, then along the 16384 columns).
  `accUpTo B xo n` is the row after the first n bins.
-/
import proofs.«149492_j88261577933232_2_alg».proof.Proof.Gen.KernelIdeal.Launch
import proofs.«149492_j88261577933232_2_alg».proof.Proof.Gen.KernelIdeal.Skeleton
import proofs.«149492_j88261577933232_2_alg».proof.Proof.Gen.KernelIdeal.Points
import proofs.«149492_j88261577933232_2_alg».proof.Proof.IdealHistBody
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Generic

variable {F : FTy → Type} [FloatOps F]

/-- The row that is 1 at lane b and 0 elsewhere. -/
def laneOH (b : BitVec 32) : FVec F S1x128 .f32 :=
  sitofp .f32 (extui 32 (cmpi .eq (iota .tc S1x128 32 [1] iota_S1x128_d1_w32) (broadcast S1x128 b)) natLt_1_32)

/-- The number of lanes of the tile whose bin is b, as a 1 × 1 block: the indicator summed down the rows, then along the
    columns. -/
def tileCount (B : IVec S16x16384 32) (b : BitVec 32) : FVec F S1x1 .f32 :=
  shapeCast S1x1
    (multiReduction .add [1] S1
      (shapeCast S1x16384
        (multiReduction .add [0] S16384 (sitofp .f32 (extui 32 (cmpi .eq B (broadcast S16x16384 b)) natLt_1_32))
          0x00000000#32 reduces_S16x16384_S16384 (.inl rfl) rfl)
        shapeCasts_S16384_S1x16384)
      0x00000000#32 reduces_S1x16384_S1 (.inl rfl) rfl)
    shapeCasts_S1_S1x1

/-- The running row after the first n bins. -/
def accUpTo (B : IVec S16x16384 32) (xo : FVec F S1x128 .f32) : Nat → FVec F S1x128 .f32
  | 0 => xo
  | n + 1 => addf (accUpTo B xo n)
      (mulf (laneOH (BitVec.ofNat 32 n)) (broadcastTo S1x128 (tileCount B (BitVec.ofNat 32 n)) broadcasts_S1x1_S1x128))

end Generic

end Cert.KernelIdeal.Hand

end
-- ==== Proof.IdealHistValue.lean ====
/-
  The stored histogram row is the row found with all thirty bins added.

  The body's final store, with every intermediate value written out, is the thirty-fold sum of `accUpTo`: the row it
  loaded (after a reset: the zero row it had just stored), plus bin 0's contribution, plus bin 1's, and so on, in that
  order.
-/
import proofs.«149492_j88261577933232_2_alg».proof.Proof.Gen.KernelIdeal.Launch
import proofs.«149492_j88261577933232_2_alg».proof.Proof.Gen.KernelIdeal.Skeleton
import proofs.«149492_j88261577933232_2_alg».proof.Proof.Gen.KernelIdeal.Points
import proofs.«149492_j88261577933232_2_alg».proof.Proof.IdealHistBins
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- At a tile that does not open its half, the stored row is the row found with all thirty bins added. -/
theorem histOutB_eq (c : Dev nD) (i : grid0.Coords)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : ¬ resets i)
    (X0 X1 : Vec F S16x16384 .f32) (xo : Vec F S1x128 .f32) :
    histOutB c i arg2 harg2 arg3 harg3 arg4 harg4 hc X0 X1 xo = accUpTo (k0_pay3 i X0 X1) xo 30 := by
  have hz : (![0, 0] : Fin 2 → Nat) = fun _ => 0 := funext fun a => by fin_cases a <;> rfl
  unfold histOutB
  rw [View.read_writes_eq_canon _ _ _ (histCoverB c i arg2 harg2 arg3 harg3 arg4 harg4 hc X0 X1 xo)]
  unfold histRunB
  dsimp only
  sl_unfold_words
  rw [View.canon_unit_zero hz]
  simp only [View.readAt_eq_ld, harg2.read_unread, harg3.read_unread, harg4.read_unread,
    View.ld_unit_zero (S := S16x16384) hz, View.ld_unit_zero (S := S1x128) hz]
  simp only [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, shapeCast_self]
  simp only [accUpTo, laneOH, tileCount]

set_option maxHeartbeats 4000000 in
/-- At a tile that opens its half, the stored row is the zero row with all thirty bins added. -/
theorem histOutA_eq (c : Dev nD) (i : grid0.Coords)
    (arg2 : Memref sig .tc .vmem S16x16384 .f32) (harg2 : arg2.IsWhole)
    (arg3 : Memref sig .tc .vmem S16x16384 .f32) (harg3 : arg3.IsWhole)
    (arg4 : Memref sig .tc .vmem S1x128 .f32) (harg4 : arg4.IsWhole) (hc : resets i)
    (X0 X1 : Vec F S16x16384 .f32) :
    histOutA c i arg2 harg2 arg3 harg3 arg4 harg4 hc X0 X1 = accUpTo (k0_pay3 i X0 X1) (k0_pay2 (F := F)) 30 := by
  have hz : (![0, 0] : Fin 2 → Nat) = fun _ => 0 := funext fun a => by fin_cases a <;> rfl
  unfold histOutA
  rw [View.read_writes_eq_canon _ _ _ (histCoverA c i arg2 harg2 arg3 harg3 arg4 harg4 hc X0 X1)]
  unfold histRunA
  dsimp only
  sl_unfold_words
  rw [View.canon_cons_unit_zero hz]
  simp only [View.readAt_eq_ld, harg2.read_unread, harg3.read_unread, View.readCov_unit_zero (S := S1x128) arg4.view hz,
    View.ld_unit_zero (S := S16x16384) hz, View.ld_unit_zero (S := S1x128) hz]
  simp only [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, shapeCast_self]
  simp only [accUpTo, laneOH, tileCount]

end Cert.KernelIdeal.Hand

end
-- ==== Proof.IdealBinSums.lean ====
/-
  One tile's contribution to the histogram row, read over the extended reals.

  The number of lanes of a 16 × 16384 tile whose bin is b, which the body forms by summing the indicator down the rows
  and then along the columns, is the double sum over columns and rows of the indicator [B(row, col) = b]: a reduction
  by addition over one axis is the sum over that axis's coordinates, and the two shape casts between them keep the
  row-major position. The one-hot row is 1 at lane b and 0 elsewhere, since the lane iota at lane k is the word k. So
  after the first n bins the running row holds, at lane k, what it held before plus the tile's count of bin k when
  k < n (0 · x = 0, 1 · x = x and a + 0 = a hold for every extended real).
-/
import proofs.«149492_j88261577933232_2_alg».proof.Proof.Gen.KernelIdeal.Launch
import proofs.«149492_j88261577933232_2_alg».proof.Proof.Gen.KernelIdeal.Skeleton
import proofs.«149492_j88261577933232_2_alg».proof.Proof.Gen.KernelIdeal.Points
import proofs.«149492_j88261577933232_2_alg».proof.Proof.IdealHistBody
import proofs.«149492_j88261577933232_2_alg».proof.Proof.IdealHistBins
import Idealize.ShloMosaic.Lib.Affine
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- The number of lanes of the tile whose bin is b: the sum over columns and rows of the indicator. -/
def tileSum (B : IVec S16x16384 32) (b : BitVec 32) : EReal :=
  ∑ col : Fin 16384, ∑ row : Fin 16, if B (ValueIdx.ix2 row col) = b then (1 : EReal) else 0

/-- The comparison bit "x = b", widened to 32 bits and converted (signed) to a float, is the indicator over the extended
    reals: the word is 1 or 0. -/
theorem ind_eq (x b : BitVec 32) :
    FloatOps.sitofp (F := Ideal) .f32 ((IntOp.cmpi .eq x b).setWidth 32) = if x = b then (1 : EReal) else 0 := by
  by_cases h : x = b
  · have hc : IntOp.cmpi .eq x b = 1#1 := IntOp.cmpi_eq.mpr h
    have h1 : ((1#1 : BitVec 1).setWidth 32).toInt = 1 := by decide
    rw [hc, if_pos h]
    show ((((1#1 : BitVec 1).setWidth 32).toInt : ℝ) : EReal) = 1
    rw [h1]; simp
  · have hc : IntOp.cmpi .eq x b = 0#1 := eq_zero_of_ne_one (fun h' => h (IntOp.cmpi_eq.mp h'))
    have h0 : ((0#1 : BitVec 1).setWidth 32).toInt = 0 := by decide
    rw [hc, if_neg h]
    show ((((0#1 : BitVec 1).setWidth 32).toInt : ℝ) : EReal) = 0
    rw [h0]; simp

/-- The tile's count of bin b, as the body forms it, is the double sum of the indicator. -/
theorem tileCount_eq (B : IVec S16x16384 32) (b : BitVec 32) (j : S1x1.Idx) :
    tileCount (F := Ideal) B b j = tileSum B b := by
  unfold tileCount tileSum
  have hj0 : (j 0).val < 1 := (j 0).isLt
  have hj1 : (j 1).val < 1 := (j 1).isLt
  rw [shapeCast_apply _ shapeCasts_S1_S1x1 j (ix1 (0 : Fin 1)) (by
    rw [Shape.rowMajor_val_one, Shape.rowMajor_val_two]
    show 0 = (j 0).val * 1 + (j 1).val
    omega)]
  refine (Ideal.multiReduction_add_single _ _ _ _ _ _).trans ?_
  refine Finset.sum_congr rfl fun c _ => ?_
  rw [shapeCast_apply _ shapeCasts_S16384_S1x16384 _ (ix1 c) (by
    rw [Shape.rowMajor_val_one, Shape.rowMajor_val_two]
    show c.val = 0 * 16384 + c.val
    omega)]
  refine (Ideal.multiReduction_add_single _ _ _ _ _ _).trans ?_
  refine Finset.sum_congr rfl fun r _ => ?_
  have hidx : reduces_S16x16384_S16384.lift (ix1 c) r = ix2 r c := by
    funext a; match a with | ⟨0, _⟩ => rfl | ⟨1, _⟩ => rfl
  rw [hidx]
  exact ind_eq (B (ix2 r c)) b

/-- The one-hot row at lane k: 1 when k is the bin, else 0. -/
theorem laneOH_at (b : BitVec 32) (k : Fin 128) :
    laneOH (F := Ideal) b (ValueIdx.ix2 (0 : Fin 1) k) = if BitVec.ofNat 32 k.val = b then (1 : EReal) else 0 := by
  have hi : iota .tc S1x128 32 [1] iota_S1x128_d1_w32 (ix2 (0 : Fin 1) k) = BitVec.ofNat 32 k.val := by
    show BitVec.ofNat 32 (0 * 128 + k.val) = _
    rw [Nat.zero_mul, Nat.zero_add]
  unfold laneOH
  show FloatOps.sitofp (F := Ideal) .f32
    ((IntOp.cmpi .eq (iota .tc S1x128 32 [1] iota_S1x128_d1_w32 (ix2 (0 : Fin 1) k)) b).setWidth 32) = _
  rw [hi]
  exact ind_eq _ b

/-- Two numbers below 2³² are the same 32-bit word exactly when they are equal. -/
theorem ofNat32_inj {k n : Nat} (hk : k < 2 ^ 32) (hn : n < 2 ^ 32) : BitVec.ofNat 32 k = BitVec.ofNat 32 n ↔ k = n := by
  constructor
  · intro h
    have := congrArg BitVec.toNat h
    rw [BitVec.toNat_ofNat, BitVec.toNat_ofNat, Nat.mod_eq_of_lt hk, Nat.mod_eq_of_lt hn] at this
    exact this
  · intro h; rw [h]

/-- One more bin: the row after n + 1 bins is the row after n bins plus bin n's one-hot row times its count. -/
theorem accUpTo_succ (B : IVec S16x16384 32) (xo : FVec Ideal S1x128 .f32) (n : Nat) :
    accUpTo (F := Ideal) B xo (n + 1) = addf (accUpTo (F := Ideal) B xo n)
      (mulf (laneOH (F := Ideal) (BitVec.ofNat 32 n))
        (broadcastTo S1x128 (tileCount (F := Ideal) B (BitVec.ofNat 32 n)) broadcasts_S1x1_S1x128)) := rfl

/-- The running row after the first n bins, at lane k: what it held plus the tile's count of bin k when k < n. -/
theorem accUpTo_at (B : IVec S16x16384 32) (xo : FVec Ideal S1x128 .f32) (k : Fin 128) (n : Nat) (hn : n ≤ 128) :
    accUpTo (F := Ideal) B xo n (ValueIdx.ix2 (0 : Fin 1) k)
      = xo (ValueIdx.ix2 (0 : Fin 1) k) + (if k.val < n then tileSum B (BitVec.ofNat 32 k.val) else 0) := by
  induction n with
  | zero => rw [if_neg (Nat.not_lt_zero _), add_zero]; rfl
  | succ n ih =>
    have hk := k.isLt
    rw [accUpTo_succ, addf_apply, mulf_apply, ih (by omega), laneOH_at]
    unfold broadcastTo
    rw [tileCount_eq]
    by_cases h1 : k.val < n
    · have hne : ¬ BitVec.ofNat 32 k.val = BitVec.ofNat 32 n := fun h =>
        absurd ((ofNat32_inj (by omega) (by omega)).mp h) (by omega)
      rw [if_pos h1, if_neg hne, if_pos (by omega), zero_mul, add_zero]
    · by_cases h2 : k.val = n
      · rw [if_neg h1, if_pos (by rw [h2]), if_pos (by omega), add_zero, one_mul, h2]
      · have hne : ¬ BitVec.ofNat 32 k.val = BitVec.ofNat 32 n := fun h =>
          h2 ((ofNat32_inj (by omega) (by omega)).mp h)
        rw [if_neg h1, if_neg hne, if_neg (by omega), zero_mul, add_zero]

end Cert.KernelIdeal.Hand

end
-- ==== Proof.IdealMaskedBins.lean ====
/-
  The histogram kernel's masked bin index, lane by lane.

  At grid point t the kernel holds tile t of the two input arrays: 16 rows by 16384 columns starting at column 16384·t,
  the last tile reaching past the arrays' 1000000 columns. Before binning it replaces |p − g| by the constant 2 on every
  lane whose global column 16384·t + (lane's column) is not below 1000000. So at a lane inside the arrays the masked bin
  index is the bin of the arrays' entries at (row, 16384·t + column), and at a lane past the end it is the bin of 2, which
  is ⌊2 · (30 − 2⁻¹⁰)⌋ = 59, none of the bins 0 … 29.
-/
import proofs.«149492_j88261577933232_2_alg».proof.Proof.IdealHistBody
import proofs.«149492_j88261577933232_2_alg».proof.Proof.LossSpec
import proofs.«149492_j88261577933232_2_alg».proof.Proof.PreRange
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe

/-- Where the histogram kernel's input tiles lie. -/
theorem inTiles0 : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_0.xsize (grid0.coords t) (0 : Fin 2) = 16
    ∧ win0_0.xsize (grid0.coords t) (1 : Fin 2) = min 16384 (1000000 - 16384 * t.val)
    ∧ win0_1.xsize (grid0.coords t) (0 : Fin 2) = 16
    ∧ win0_1.xsize (grid0.coords t) (1 : Fin 2) = min 16384 (1000000 - 16384 * t.val)
    ∧ Scalar.muli (Scalar.addi (Scalar.muli (BitVec.ofNat 32 (grid0.coords t 0).val) 31#32)
        (BitVec.ofNat 32 (grid0.coords t 1).val)) 16384#32 = BitVec.ofNat 32 (16384 * t.val)
    ∧ t.val < 62 :=
  (by decide +kernel : ∀ t : Fin grid0.N, _)

/-- The column test on words: for a lane column a below 16384 and a tile offset b below 2²⁰, the signed comparison of
their 32-bit sum with 1000000 is the comparison of the numbers. -/
theorem slt_mask (a b : Nat) (ha : a < 16384) (hb : b < 1048576) :
    IntOp.cmpi CmpIPredicate.slt (IntOp.addi (BitVec.ofNat 32 a) (BitVec.ofNat 32 b)) 1000000#32
      = if b + a < 1000000 then 1#1 else 0#1 := by
  have e : IntOp.addi (BitVec.ofNat 32 a) (BitVec.ofNat 32 b) = BitVec.ofNat 32 (a + b) := by
    show BitVec.ofNat 32 a + BitVec.ofNat 32 b = _
    rw [← BitVec.ofNat_add]
  have hn : (BitVec.ofNat 32 (a + b)).toNat = a + b := by
    rw [BitVec.toNat_ofNat]; exact Nat.mod_eq_of_lt (by omega)
  have hi : (BitVec.ofNat 32 (a + b)).toInt = ((a + b : Nat) : Int) := by
    rw [BitVec.toInt_eq_toNat_cond, hn]
    rw [if_pos (by omega)]
  have hc : (1000000#32 : BitVec 32).toInt = 1000000 := by decide
  rw [e]
  by_cases h : b + a < 1000000
  · rw [if_pos h, IntOp.cmpi_slt, hi, hc]; omega
  · rw [if_neg h]
    refine ValueIdx.eq_zero_of_ne_one fun h1 => h ?_
    rw [IntOp.cmpi_slt, hi, hc] at h1
    omega

/-- THE MASKED BIN INDEX AT A LANE: inside the array it is the bin of the two arrays' entries at the lane's global
position; past the array's end it is the bin of the constant 2. -/
theorem binIdx_at (V : (c : Dev nD) → (b : Ref sig .tc) → Buf (Elt Ideal) ((c : Thread nD τ).loc b)) (c : Dev nD)
    (t : Fin cfg0.N) (row : Fin 16) (col : Fin 16384) :
    k0_pay3 (F := Ideal) (grid0.coords t) (pin0 V c t) (gin0 V c t) (ValueIdx.ix2 row col)
      = if h : 16384 * t.val + col.val < 1000000
        then Cert.LossSpec.binOf ((V c main_arg0 : S16x1000000.Idx → EReal) (ValueIdx.ix2 row ⟨16384 * t.val + col.val, h⟩))
          ((V c main_arg1 : S16x1000000.Idx → EReal) (ValueIdx.ix2 row ⟨16384 * t.val + col.val, h⟩))
        else FloatOps.fptosi (F := Ideal) 32 (FloatOps.floor (FloatOps.mulf (FloatOps.ofBits (F := Ideal) .f32 0x40000000#32)
          (FloatOps.ofBits (F := Ideal) .f32 0x41EFFE00#32))) := by
  obtain ⟨i00, i01, i10, i11, x00, x01, x10, x11, hv, ht⟩ := inTiles0 t
  simp only [k0_pay3, select, cmpi, mulf, subf, absf, floor, fptosi, broadcast, addi, iota]
  have hf : List.foldl (fun n a => n * (![16, 16384] : Fin 2 → Nat) a + ((ValueIdx.ix2 row col : S16x16384.Idx) a).val) 0 [1]
      = col.val := by
    simp only [List.foldl, Nat.zero_mul, Nat.zero_add]
  rw [hf, hv, slt_mask col.val (16384 * t.val) col.isLt (by omega)]
  by_cases h : 16384 * t.val + col.val < 1000000
  · rw [dif_pos h, if_pos h, ValueIdx.select_one]
    have hm0 : win0_0.moved (grid0.coords t) (ValueIdx.ix2 row col) = true := (win0_0.moved_iff _ _).mpr fun a => by
      match a with
      | ⟨0, _⟩ => rw [show ((⟨0, by decide⟩ : Fin 2)) = 0 from rfl, x00]; exact row.isLt
      | ⟨1, _⟩ => rw [show ((⟨1, by decide⟩ : Fin 2)) = 1 from rfl, x01]; show col.val < _; have := col.isLt; omega
    have hm1 : win0_1.moved (grid0.coords t) (ValueIdx.ix2 row col) = true := (win0_1.moved_iff _ _).mpr fun a => by
      match a with
      | ⟨0, _⟩ => rw [show ((⟨0, by decide⟩ : Fin 2)) = 0 from rfl, x10]; exact row.isLt
      | ⟨1, _⟩ => rw [show ((⟨1, by decide⟩ : Fin 2)) = 1 from rfl, x11]; show col.val < _; have := col.isLt; omega
    have e0 : pin0 V c t (ValueIdx.ix2 row col)
        = (V c main_arg0 : S16x1000000.Idx → EReal) (ValueIdx.ix2 row ⟨16384 * t.val + col.val, h⟩) := by
      unfold pin0 Pipeline.Window.fill; rw [dif_pos hm0]
      show V c main_arg0 (((cfg0.win 0).blk t).view.emb _) = V c main_arg0 _
      refine congrArg (V c main_arg0) (funext fun a => Fin.ext ?_)
      match a with
      | ⟨0, _⟩ => show win0_0.index t (0 : Fin 2) * 16 + 1 * row.val = row.val; omega
      | ⟨1, _⟩ => show win0_0.index t (1 : Fin 2) * 16384 + 1 * col.val = 16384 * t.val + col.val; omega
    have e1 : gin0 V c t (ValueIdx.ix2 row col)
        = (V c main_arg1 : S16x1000000.Idx → EReal) (ValueIdx.ix2 row ⟨16384 * t.val + col.val, h⟩) := by
      unfold gin0 Pipeline.Window.fill; rw [dif_pos hm1]
      show V c main_arg1 (((cfg0.win 1).blk t).view.emb _) = V c main_arg1 _
      refine congrArg (V c main_arg1) (funext fun a => Fin.ext ?_)
      match a with
      | ⟨0, _⟩ => show win0_1.index t (0 : Fin 2) * 16 + 1 * row.val = row.val; omega
      | ⟨1, _⟩ => show win0_1.index t (1 : Fin 2) * 16384 + 1 * col.val = 16384 * t.val + col.val; omega
    rw [e0, e1]
    rfl
  · rw [dif_neg h, if_neg h, ValueIdx.select_zero]

/-- The bin of the constant 2: ⌊2 · (30 − 2⁻¹⁰)⌋ = 59. -/
theorem pad_bin : FloatOps.fptosi (F := Ideal) 32 (FloatOps.floor (FloatOps.mulf (FloatOps.ofBits (F := Ideal) .f32 0x40000000#32)
    (FloatOps.ofBits (F := Ideal) .f32 0x41EFFE00#32))) = 59#32 := by
  have h2 : Ideal.ofBits .f32 0x40000000#32 = ((2 : ℝ) : EReal) := by
    simp [Ideal.ofBits, Ideal.ieee, -EReal.coe_mul]; norm_num
  have hs : Ideal.ofBits .f32 0x41EFFE00#32 = (((15728128 : ℝ) / 524288 : ℝ) : EReal) := by
    simp [Ideal.ofBits, Ideal.ieee, -EReal.coe_mul]; norm_num
  show Ideal.fptosi 32 (Ideal.liftRound Int.floor (Ideal.ofBits .f32 0x40000000#32 * Ideal.ofBits .f32 0x41EFFE00#32)) = 59#32
  rw [h2, hs, ← EReal.coe_mul, Ideal.liftRound_coe]
  have hfl : ⌊(2 : ℝ) * (15728128 / 524288)⌋ = 59 := by
    rw [Int.floor_eq_iff]; constructor <;> norm_num
  rw [hfl, Ideal.fptosi, Ideal.toIntClamped_coe]
  norm_num

/-- It is none of the bins 0 … 29. -/
theorem pad_bin_ge : ∀ k : Fin 30, FloatOps.fptosi (F := Ideal) 32 (FloatOps.floor (FloatOps.mulf
    (FloatOps.ofBits (F := Ideal) .f32 0x40000000#32) (FloatOps.ofBits (F := Ideal) .f32 0x41EFFE00#32))) ≠ BitVec.ofNat 32 k.val := by
  intro k
  rw [pad_bin]
  revert k
  decide

end Cert.KernelIdeal.Hand
-- ==== Proof.IdealMaskedSums.lean ====
/-
  One tile's count of a bin, in terms of the arrays.

  At every lane of tile t the body's masked bin index is the bin of the array entry the lane stands for when the lane's
  global column 16384 · t + col is below 1000000, and otherwise the bin of the padding distance 2, which is none of the
  bins 0 … 29. So the tile's count of bin k < 30 is the number of the tile's in-range lanes whose entry has bin k.
-/
import proofs.«149492_j88261577933232_2_alg».proof.Proof.Gen.KernelIdeal.Launch
import proofs.«149492_j88261577933232_2_alg».proof.Proof.Gen.KernelIdeal.Skeleton
import proofs.«149492_j88261577933232_2_alg».proof.Proof.Gen.KernelIdeal.Points
import proofs.«149492_j88261577933232_2_alg».proof.Proof.IdealHistBody
import proofs.«149492_j88261577933232_2_alg».proof.Proof.IdealBinSums
import proofs.«149492_j88261577933232_2_alg».proof.Proof.IdealMaskedBins
import proofs.«149492_j88261577933232_2_alg».proof.Proof.LossSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The tile's count of bin k < 30 is the number of its in-range lanes whose array entry has bin k. -/
theorem tileSum_masked (c : Dev nD) (t : Fin cfg0.N) (k : Fin 30) :
    tileSum (k0_pay3 (F := Ideal) (grid0.coords t) (pin0 V c t) (gin0 V c t)) (BitVec.ofNat 32 k.val)
      = ∑ col : Fin 16384, ∑ row : Fin 16,
          if h : 16384 * t.val + col.val < 1000000 then
            (if Cert.LossSpec.binOf
                  ((V c main_arg0 : S16x1000000.Idx → EReal) (ValueIdx.ix2 row ⟨16384 * t.val + col.val, h⟩))
                  ((V c main_arg1 : S16x1000000.Idx → EReal) (ValueIdx.ix2 row ⟨16384 * t.val + col.val, h⟩))
                = BitVec.ofNat 32 k.val
              then (1 : EReal) else 0)
          else 0 := by
  unfold tileSum
  refine Finset.sum_congr rfl fun col _ => Finset.sum_congr rfl fun row _ => ?_
  rw [binIdx_at V c t row col]
  by_cases h : 16384 * t.val + col.val < 1000000
  · rw [dif_pos h, dif_pos h]
  · rw [dif_neg h, dif_neg h, if_neg (pad_bin_ge k)]

end Cert.KernelIdeal.Hand

end
-- ==== Proof.LibTileSum.lean ====
/-
  Re-indexing a sum over column tiles.

  An array with 1000000 columns is cut into 62 tiles of 16384 columns; the last tile is only partly inside the
  array (61 · 16384 + 576 = 1000000), and the columns of a tile that fall outside contribute zero. Summing, tile by
  tile, the in-range entries of each tile gives the sum over all the columns. The statements hold in any additive
  commutative monoid; the extended reals are one.
-/
import Mathlib.Algebra.BigOperators.Fin
import Mathlib.Logic.Equiv.Fin.Basic
import Mathlib.Data.EReal.Basic

namespace Cert.LibTileSum

open Finset

/-- A sum over `Fin (N + K)` of a function that vanishes from `N` on is the sum over `Fin N`. -/
theorem sum_dite_lt {M : Type*} [AddCommMonoid M] (N K : ℕ) (g : Fin N → M) :
    (∑ n : Fin (N + K), if h : n.val < N then g ⟨n.val, h⟩ else 0) = ∑ col : Fin N, g col := by
  rw [Fin.sum_univ_add]
  have h2 : (∑ i : Fin K, if h : (Fin.natAdd N i).val < N then g ⟨(Fin.natAdd N i).val, h⟩ else 0) = 0 := by
    apply Finset.sum_eq_zero
    intro i _
    rw [dif_neg]
    simp [Fin.natAdd]
  rw [h2, add_zero]
  apply Finset.sum_congr rfl
  intro i _
  have hi : (Fin.castAdd K i).val < N := by simp
  rw [dif_pos hi]
  exact congrArg g (Fin.ext (by simp))

/-- One row: the tiles' in-range entries, summed tile by tile, are the row's entries. -/
theorem tile_sum_row {M : Type*} [AddCommMonoid M] (g : Fin 1000000 → M) :
    (∑ t : Fin 62, ∑ c : Fin 16384,
        if h : 16384 * t.val + c.val < 1000000 then g ⟨16384 * t.val + c.val, h⟩ else 0)
      = ∑ col : Fin 1000000, g col := by
  rw [← sum_dite_lt 1000000 15808 g, ← Fintype.sum_prod_type']
  refine Fintype.sum_equiv (finProdFinEquiv.trans (finCongr (by norm_num))) _ _ ?_
  rintro ⟨t, c⟩
  have hv : ((finProdFinEquiv.trans (finCongr (by norm_num : 62 * 16384 = 1000000 + 15808))) (t, c)).val
      = 16384 * t.val + c.val := by
    simp [finProdFinEquiv, add_comm]
  by_cases h : 16384 * t.val + c.val < 1000000
  · rw [dif_pos h, dif_pos (by rw [hv]; exact h)]
    congr 1
    exact Fin.ext hv.symm
  · rw [dif_neg h, dif_neg (by rw [hv]; exact h)]

/-- 62 column tiles of width 16384 cover the 1000000 columns: the in-range entries of the tiles, summed tile by tile
and row by row, are all the entries. -/
theorem tile_sum_gen {M : Type*} [AddCommMonoid M] (f : Fin 16 → Fin 1000000 → M) :
    (∑ t : Fin 62, ∑ r : Fin 16, ∑ c : Fin 16384,
        if h : 16384 * t.val + c.val < 1000000 then f r ⟨16384 * t.val + c.val, h⟩ else 0)
      = ∑ r : Fin 16, ∑ col : Fin 1000000, f r col := by
  rw [Finset.sum_comm]
  apply Finset.sum_congr rfl
  intro r _
  exact tile_sum_row (f r)

/-- The same over the extended reals. -/
theorem tile_sum (f : Fin 16 → Fin 1000000 → EReal) :
    (∑ t : Fin 62, ∑ r : Fin 16, ∑ c : Fin 16384,
        if h : 16384 * t.val + c.val < 1000000 then f r ⟨16384 * t.val + c.val, h⟩ else 0)
      = ∑ r : Fin 16, ∑ col : Fin 1000000, f r col :=
  tile_sum_gen f

/-- A sum over 62 tiles is the sum over tiles 0 … 30 plus the sum over tiles 31 … 61. -/
theorem sum_halves {M : Type*} [AddCommMonoid M] (T : ℕ → M) :
    (∑ t : Fin 62, T t.val) = (∑ t : Fin 31, T t.val) + (∑ t : Fin 31, T (31 + t.val)) := by
  exact Fin.sum_univ_add (M := M) (a := 31) (b := 31) (fun i => T i.val)

/-- The tiles taken in two halves, 0 … 30 and 31 … 61. -/
theorem tile_sum_halves_gen {M : Type*} [AddCommMonoid M] (f : Fin 16 → Fin 1000000 → M) :
    (∑ t : Fin 31, ∑ r : Fin 16, ∑ c : Fin 16384,
        if h : 16384 * t.val + c.val < 1000000 then f r ⟨16384 * t.val + c.val, h⟩ else 0)
      + (∑ t : Fin 31, ∑ r : Fin 16, ∑ c : Fin 16384,
        if h : 16384 * (31 + t.val) + c.val < 1000000 then f r ⟨16384 * (31 + t.val) + c.val, h⟩ else 0)
      = ∑ r : Fin 16, ∑ col : Fin 1000000, f r col := by
  rw [← tile_sum_gen f]
  exact (sum_halves (fun k => ∑ r : Fin 16, ∑ c : Fin 16384,
    if h : 16384 * k + c.val < 1000000 then f r ⟨16384 * k + c.val, h⟩ else 0)).symm

/-- The same over the extended reals. -/
theorem tile_sum_halves (f : Fin 16 → Fin 1000000 → EReal) :
    (∑ t : Fin 31, ∑ r : Fin 16, ∑ c : Fin 16384,
        if h : 16384 * t.val + c.val < 1000000 then f r ⟨16384 * t.val + c.val, h⟩ else 0)
      + (∑ t : Fin 31, ∑ r : Fin 16, ∑ c : Fin 16384,
        if h : 16384 * (31 + t.val) + c.val < 1000000 then f r ⟨16384 * (31 + t.val) + c.val, h⟩ else 0)
      = ∑ r : Fin 16, ∑ col : Fin 1000000, f r col :=
  tile_sum_halves_gen f

end Cert.LibTileSum
-- ==== Proof.IdealHistCounts.lean ====
/-
  The histogram row holds the bin counts.

  Within a half the accumulator after point t is the sum of the tiles' counts from the half's first point up to t: a
  reset point starts the sum at the tile's own count, any other point adds its tile's count to what the point before
  left. A tile's count of bin k is the number of its lanes, among those whose column exists in the arrays, whose bin is k
  (the other lanes carry a bin of 59, outside 0 … 29). The two halves' totals, at lanes k and 128 + k of the row, add up
  to the number of entries of the whole arrays whose bin is k: the sixty-two tiles cover the 1000000 columns once each.
-/
import proofs.«149492_j88261577933232_2_alg».proof.Proof.Gen.KernelIdeal.Launch
import proofs.«149492_j88261577933232_2_alg».proof.Proof.Gen.KernelIdeal.Skeleton
import proofs.«149492_j88261577933232_2_alg».proof.Proof.Gen.KernelIdeal.Points
import proofs.«149492_j88261577933232_2_alg».proof.Proof.IdealHistArr
import proofs.«149492_j88261577933232_2_alg».proof.Proof.IdealHistValue
import proofs.«149492_j88261577933232_2_alg».proof.Proof.IdealBinSums
import proofs.«149492_j88261577933232_2_alg».proof.Proof.IdealMaskedSums
import proofs.«149492_j88261577933232_2_alg».proof.Proof.LibTileSum
import proofs.«149492_j88261577933232_2_alg».proof.Proof.LossSpec
import proofs.«149492_j88261577933232_2_alg».proof.Proof.IdealRegions
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-- The zero row is zero at every lane. -/
theorem zeroRow_at (l : S1x128.Idx) : (k0_pay2 (F := Ideal)) l = 0 := by
  unfold k0_pay2 broadcast
  exact Ideal.ofBits_zero_f32

/-- Tile s's count of bin k (nothing from lane 30 on). -/
def tileT (c : Dev nD) (k : Fin 128) (s : ℕ) : EReal :=
  if hs : s < cfg0.N then
    (if k.val < 30 then
      tileSum (k0_pay3 (F := Ideal) (grid0.coords ⟨s, hs⟩) (pin0 V c ⟨s, hs⟩) (gin0 V c ⟨s, hs⟩)) (BitVec.ofNat 32 k.val)
    else 0)
  else 0

theorem tileT_of_lt (c : Dev nD) (k : Fin 128) (t : Fin cfg0.N) :
    tileT V c k t.val = if k.val < 30 then
      tileSum (k0_pay3 (F := Ideal) (grid0.coords t) (pin0 V c t) (gin0 V c t)) (BitVec.ofNat 32 k.val) else 0 := by
  unfold tileT; rw [dif_pos t.isLt]

/-- A point that opens its half leaves its own tile's counts. -/
theorem step_A (c : Dev nD) (k : Fin 128) (t : Fin cfg0.N) (h : t.val % 31 = 0) :
    outsAt0 V c t.val t.isLt (ValueIdx.ix2 (0 : Fin 1) k) = tileT V c k t.val := by
  rw [outsAt0_A V c t h, histOutA_eq, accUpTo_at _ _ k 30 (by omega), zeroRow_at, zero_add, tileT_of_lt]

/-- Any other point adds its tile's counts to what the point before left. -/
theorem step_B (c : Dev nD) (k : Fin 128) (t : Fin cfg0.N) (h : ¬ t.val % 31 = 0) :
    outsAt0 V c t.val t.isLt (ValueIdx.ix2 (0 : Fin 1) k)
      = outsAt0 V c (t.val - 1) (Nat.lt_of_le_of_lt (Nat.sub_le _ _) t.isLt) (ValueIdx.ix2 (0 : Fin 1) k)
        + tileT V c k t.val := by
  rw [outsAt0_B V c t h, histOutB_eq, accUpTo_at _ _ k 30 (by omega), tileT_of_lt]

/-- The accumulator after point n: the tiles' counts summed from the first point of n's half. -/
theorem outsAt0_sum (c : Dev nD) (k : Fin 128) : ∀ (n : ℕ) (hn : n < cfg0.N),
    outsAt0 V c n hn (ValueIdx.ix2 (0 : Fin 1) k)
      = ∑ j ∈ Finset.range (n % 31 + 1), tileT V c k (n - n % 31 + j)
  | 0, hn => by
    rw [step_A V c k ⟨0, hn⟩ (Nat.zero_mod _)]; simp
  | n + 1, hn => by
    by_cases h : (n + 1) % 31 = 0
    · rw [step_A V c k ⟨n + 1, hn⟩ h, h]; simp
    · have ih := outsAt0_sum c k n (Nat.lt_of_succ_lt hn)
      have e1 : (n + 1) % 31 = n % 31 + 1 := by omega
      have e2 : n + 1 - (n + 1) % 31 = n - n % 31 := by omega
      rw [step_B V c k ⟨n + 1, hn⟩ h]
      show outsAt0 V c n _ _ + _ = _
      rw [ih, e2, e1, Finset.sum_range_succ _ (n % 31 + 1)]
      refine congrArg₂ (· + ·) rfl (congrArg (tileT V c k) ?_)
      show n + 1 = n - n % 31 + (n % 31 + 1)
      omega

/-- The indicator of bin k at an entry of the arrays. -/
def inBin (c : Dev nD) (k : Fin 30) (r : Fin 16) (col : Fin 1000000) : EReal :=
  if Cert.LossSpec.binOf ((V c main_arg0 : S16x1000000.Idx → EReal) (ValueIdx.ix2 r col))
      ((V c main_arg1 : S16x1000000.Idx → EReal) (ValueIdx.ix2 r col)) = BitVec.ofNat 32 k.val then (1 : EReal) else 0

/-- Tile s's count of bin k < 30, as a sum over the tile's lanes whose column exists. -/
theorem tileT_masked (c : Dev nD) (k : Fin 30) (s : ℕ) (hs : s < cfg0.N) :
    tileT V c (⟨k.val, by omega⟩ : Fin 128) s
      = ∑ r : Fin 16, ∑ col : Fin 16384,
          if h : 16384 * s + col.val < 1000000 then inBin V c k r ⟨16384 * s + col.val, h⟩ else 0 := by
  rw [tileT_of_lt V c _ ⟨s, hs⟩, if_pos (show (⟨k.val, by omega⟩ : Fin 128).val < 30 from k.isLt)]
  rw [tileSum_masked V c ⟨s, hs⟩ k, Finset.sum_comm]
  rfl

/-- THE COUNTS: lanes k and 128 + k of the histogram row add up to the number of entries whose bin is k. -/
theorem counts (c : Dev nD) (k : Fin 30) :
    histArr V c (ValueIdx.ix2 (0 : Fin 1) (⟨k.val, by omega⟩ : Fin 256))
        + histArr V c (ValueIdx.ix2 (0 : Fin 1) (⟨128 + k.val, by omega⟩ : Fin 256))
      = Cert.LossSpec.cnt (V c main_arg0) (V c main_arg1) (BitVec.ofNat 32 k.val) := by
  have hk : k.val < 30 := k.isLt
  have hN : cfg0.N = 62 := N_0
  have h30 : 30 < cfg0.N := by omega
  have h61 : 61 < cfg0.N := by omega
  have a0 : histArr V c (ValueIdx.ix2 (0 : Fin 1) (⟨k.val, by omega⟩ : Fin 256))
      = outsAt0 V c 30 h30 (ValueIdx.ix2 (0 : Fin 1) (⟨k.val, by omega⟩ : Fin 128)) := by
    unfold histArr
    rw [outsAt0_congr V c _ 30 (by show 31 * (k.val / 128) + 30 = 30; omega) _ h30]
    refine congrArg (outsAt0 V c 30 h30) (congrArg (ValueIdx.ix2 (0 : Fin 1)) (Fin.ext ?_))
    show k.val % 128 = k.val; omega
  have a1 : histArr V c (ValueIdx.ix2 (0 : Fin 1) (⟨128 + k.val, by omega⟩ : Fin 256))
      = outsAt0 V c 61 h61 (ValueIdx.ix2 (0 : Fin 1) (⟨k.val, by omega⟩ : Fin 128)) := by
    unfold histArr
    rw [outsAt0_congr V c _ 61 (by show 31 * ((128 + k.val) / 128) + 30 = 61; omega) _ h61]
    refine congrArg (outsAt0 V c 61 h61) (congrArg (ValueIdx.ix2 (0 : Fin 1)) (Fin.ext ?_))
    show (128 + k.val) % 128 = k.val; omega
  rw [a0, a1, outsAt0_sum V c _ 30 h30, outsAt0_sum V c _ 61 h61]
  show ∑ j ∈ Finset.range 31, tileT V c (⟨k.val, by omega⟩ : Fin 128) (0 + j)
      + ∑ j ∈ Finset.range 31, tileT V c (⟨k.val, by omega⟩ : Fin 128) (31 + j) = _
  rw [Finset.sum_range, Finset.sum_range]
  simp only [Nat.zero_add]
  rw [Finset.sum_congr rfl (fun (t : Fin 31) _ => tileT_masked V c k t.val (by omega)),
    Finset.sum_congr rfl (fun (t : Fin 31) _ => tileT_masked V c k (31 + t.val) (by omega))]
  rw [Cert.LibTileSum.tile_sum_halves (inBin V c k)]
  unfold Cert.LossSpec.cnt
  rw [ValueIdx.sum_idx2]
  rfl

end Cert.KernelIdeal.Hand

end
-- ==== Proof.IdealCountsOk.lean ====
/-
  The counts, read off the histogram row as the host arithmetic reads it.

  The row the host operations slice is the first kernel's output array, which ends at `histArr` of the launch memory;
  its lanes k and 128 + k add up to the number of entries of the two input arrays whose bin is k.
-/
import proofs.«149492_j88261577933232_2_alg».proof.Proof.IdealHistCounts
import proofs.«149492_j88261577933232_2_alg».proof.Proof.IdealHostStretch

set_option maxRecDepth 16384

noncomputable section

namespace Cert.KernelIdeal.Hand

open Cert.KernelIdeal Cert.KernelIdeal.Gen
open Idealize.ShloMosaic Idealize.ShloMosaic.TcCoe
open Idealize.SL Idealize.SL.Sem

theorem counts_ok (m : (ℓ : Loc nD τ sig) → Buf (Elt Ideal) ℓ) (c : Dev nD) (k : Fin 30) :
    Cert.KernelIdeal.HostStretch.histRow m c (ValueIdx.ix2 (0 : Fin 1) (⟨k.val, by omega⟩ : Fin 256))
        + Cert.KernelIdeal.HostStretch.histRow m c (ValueIdx.ix2 (0 : Fin 1) (⟨128 + k.val, by omega⟩ : Fin 256))
      = Cert.LossSpec.cnt (m ((c.tc : Thread nD τ).loc main_arg0)) (m ((c.tc : Thread nD τ).loc main_arg1))
          (BitVec.ofNat 32 k.val) := by
  have e : Cert.KernelIdeal.HostStretch.histRow m c = histArr (Ve0 m) c :=
    (W1_arr m c 2).trans (final0 (Ve0 m) c)
  rw [e]
  exact counts (Ve0 m) c k

end Cert.KernelIdeal.Hand

end
-- ==== Proof.RefBins.lean ====
/-
  THE BIN OF AN ENTRY, AS THE REFERENCE COMPUTES IT.

  The reference's integer array of bins (|p − g| times 30 − 2⁻¹⁰, floored, converted to a 32-bit integer) holds at
  every entry the specification's bin of that entry: the host's absolute value and floor are, over the extended reals,
  the plain ones.
-/
import Idealize.ShloMosaic.Lib.ValueIdx
import proofs.«149492_j88261577933232_2_alg».proof.Proof.RefReadPatched
import proofs.«149492_j88261577933232_2_alg».proof.Proof.LossSpec

noncomputable section

open scoped BigOperators

namespace Cert.ReferenceIdeal.RefValue

open Cert.ReferenceIdeal Cert.ReferenceIdeal.Gen Idealize.ShloMosaic Idealize.ShloMosaic.ValueIdx Cert.ReferenceIdeal.ReadP Cert.LossSpec

/-- The reference's bin array at an entry is the specification's bin of the entry. -/
theorem bins_apply (x0 x1 : SBig.Idx → EReal) (i : SBig.Idx) :
    val_main_v5 (F := Ideal) x0 x1 i = binOf (x0 i) (x1 i) := by
  rw [val_main_v5_apply, val_main_v4_apply, val_main_v3_apply, val_main_v2_apply, val_main_cst_apply,
    val_main_v1_apply, val_main_v0_apply]
  rfl

end Cert.ReferenceIdeal.RefValue

end
-- ==== Proof.LibGatherScatterRows.lean ====
/-
  ROW GATHER AND ROW SCATTER-ADD READ AT AN INDEX.

  A gather of whole rows of a two-axis array `x : [N, C]` at a column of start indices `idx : [M, 1]` (offset axis 1,
  collapsed axis 0, start index map `[0]`, index vector axis 1, slice sizes `[1, C]`) has, at `(e, c)`, the element
  `x[clamp(idx[e, 0]), c]`: the start index is read as a signed integer and clamped into `[0, N − 1]`. The same for a
  one-axis operand `x : [N]` (no offset axis, slice sizes `[1]`): at `e` the element `x[clamp(idx[e, 0])]`.

  A scatter-add of rows `upd : [M, C]` into `x : [N, C]` at the same column of indices (update window axis 1, inserted
  window axis 0, scatter-dims-to-operand-dims `[0]`, index vector axis 1), over the extended reals, has at `(v, c)` the
  element `x[v, c] + ∑ e, [idx[e, 0] = v] · upd[e, c]`: the index is read signed and NOT clamped, so an update whose row
  index is outside `[0, N)` meets no `v` and is dropped. The same for one-axis `x : [N]`, `upd : [M]`.

  Last, for any scatter dimension numbers: a scatter-add of real updates into a real element is real.

  Each statement comes twice: for the record of dimension numbers written out with its well-formedness proof as an
  argument (`…_lit`), and for an arbitrary record whose fields are fixed by equations (each `rfl` for a literal record).
-/
import Idealize.ShloMosaic.Lib.ValueIdx
import Idealize.ShloMosaic.PureOps.Contract

noncomputable section

open scoped BigOperators

namespace Idealize.ShloMosaic.RowsIdx

open Idealize.ShloMosaic Idealize.ShloMosaic.ValueIdx

/-! ## Gather of rows of a two-axis array -/

section Gather
variable {α : Type}

/-- The dimension numbers of a row gather: operand `[N, C]`, start indices `[M, 1]`, result `[M, C]`; the result's
    axis 1 is the offset axis, the operand's axis 0 is collapsed and is the one the start index addresses, the index
    vector lies along axis 1 of the start indices, and a slice is one whole row. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row gather at `(e, c)` is the operand at row `idx[e, 0]` — read signed and clamped into `[0, N − 1]` — and
    column `c`: on axis 0 the operand index is the clamped start (no batching, no offset: the axis is collapsed), on
    axis 1 the start is `0` (the start index map does not name it) and the offset coordinate is `c`. -/
theorem gather_rows_lit {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowGatherDims N M C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N M C wf).start (ix2 e c) idx 0 + (rowGatherDims N M C wf).batchCoord (ix2 e c) 0
      + (rowGatherDims N M C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e c) ⟨List.idxOf (0 : Fin 2) (rowGatherDims N M C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N M C wf).start (ix2 e c) idx 1 + (rowGatherDims N M C wf).batchCoord (ix2 e c) 1
      + (rowGatherDims N M C wf).offCoord (ix2 e c) 1 = c.val
    rw [GatherDims.batchCoord_eq_zero _ _ _ List.not_mem_nil]
    unfold GatherDims.start
    rw [dif_neg (show (1 : Fin 2) ∉ (rowGatherDims N M C wf).startIndexMap from
      (show (1 : Fin 2) ∉ ([0] : List (Fin 2)) by decide))]
    unfold GatherDims.offCoord
    rw [dif_pos (show (1 : Fin 2) ∈ (rowGatherDims N M C wf).sKept from
      (GatherDims.mem_sKept _ _).mpr ⟨(show (1 : Fin 2) ∉ ([0] : List (Fin 2)) by decide), List.not_mem_nil⟩)]
    simp only [Nat.add_zero, Nat.zero_add]
    rfl

/-- The same for ANY record of gather dimension numbers of these shapes whose fields are those of a row gather. -/
theorem gather_rows_apply {N M C w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (c : Fin C) :
    Host.gather d x idx (ix2 e c) = x (ix2 ⟨min (idx (ix2 e 0)).toInt.toNat (N - 1), by omega⟩ c) := by
  obtain ⟨od, cd, ob, sb, sm, iv, ss, wf⟩ := d
  simp only at hod hcd hob hsb hsm hiv hss
  subst hod hcd hob hsb hsm hiv hss
  exact gather_rows_lit hN wf x idx e c

end Gather

/-! ## Gather of elements of a one-axis array -/

section GatherVec
variable {α : Type}

/-- The dimension numbers of an element gather: operand `[N]`, start indices `[M, 1]`, result `[M]`; no offset axis,
    the operand's one axis collapsed and addressed by the start index, the index vector along axis 1 of the start
    indices, a slice one element. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The element gather at `e` is the operand at `idx[e, 0]`, read signed and clamped into `[0, N − 1]`. -/
theorem gather_vec_lit {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
    + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The same for ANY record of gather dimension numbers of these shapes whose fields are those of an element gather. -/
theorem gather_vec_apply {N M w : Nat} (hN : 0 < N)
    (d : GatherDims ⟨1, ![N]⟩ ⟨2, ![M, 1]⟩ ⟨1, ![M]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![M, 1]⟩ w) (e : Fin M) :
    Host.gather d x idx (ix1 e) = x (ix1 ⟨min (idx (ix2 e 0)).toInt.toNat (N - 1), by omega⟩) := by
  obtain ⟨od, cd, ob, sb, sm, iv, ss, wf⟩ := d
  simp only at hod hcd hob hsb hsm hiv hss
  subst hod hcd hob hsb hsm hiv hss
  exact gather_vec_lit hN wf x idx e

end GatherVec

/-! ## Scatter-add of rows into a two-axis array, over the extended reals -/

section Scatter

/-- The dimension numbers of a row scatter: operand `[N, C]`, scatter indices `[M, 1]`, updates `[M, C]`; the updates'
    axis 1 is the window axis (it goes to the operand's axis 1), the operand's axis 0 is inserted and is the one the
    scatter index addresses, and the index vector lies along axis 1 of the scatter indices. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N M C w : Nat} (wf : ScatterDims.WF ⟨2, ![N, C]⟩ ⟨2, ![M, 1]⟩ ⟨2, ![M, C]⟩ [1] [0] [0] 1)

/-- On the operand's axis 0 the window of update `j` starts at the signed scatter index `idx[j₀, 0]`. -/
theorem rowScatter_start0 (j : (⟨2, ![M, C]⟩ : Shape).Idx) (idx : IVec ⟨2, ![M, 1]⟩ w) :
    (rowScatterDims N M C wf).start j idx 0 = (idx (ix2 (j 0) 0)).toInt := by
  unfold ScatterDims.start
  rw [dif_pos (show (0 : Fin 2) ∈ (rowScatterDims N M C wf).scatterDimsToOperandDims from List.mem_singleton.mpr rfl)]
  have hsi : (rowScatterDims N M C wf).siIdx j ⟨List.idxOf (0 : Fin 2) (rowScatterDims N M C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the operand's axis 1, which the scatter-dims-to-operand-dims map does not name, the window starts at `0`. -/
theorem rowScatter_start1 (j : (⟨2, ![M, C]⟩ : Shape).Idx) (idx : IVec ⟨2, ![M, 1]⟩ w) :
    (rowScatterDims N M C wf).start j idx 1 = 0 := by
  unfold ScatterDims.start
  rw [dif_neg (show (1 : Fin 2) ∉ (rowScatterDims N M C wf).scatterDimsToOperandDims from
    (show (1 : Fin 2) ∉ ([0] : List (Fin 2)) by decide))]

/-- The operand's axis 0 is an inserted window axis: the window coordinate there is `0`. -/
theorem rowScatter_window0 (j : (⟨2, ![M, C]⟩ : Shape).Idx) :
    (rowScatterDims N M C wf).window j 0 = 0 := by
  unfold ScatterDims.window
  rw [dif_neg (show (0 : Fin 2) ∉ (rowScatterDims N M C wf).sKept from
    (show (0 : Fin 2) ∉ (List.finRange 2).filter (· ∉ ([0] : List (Fin 2))) by decide))]

/-- On the operand's axis 1 the window coordinate of update `j` is `j`'s column. -/
theorem rowScatter_window1 (j : (⟨2, ![M, C]⟩ : Shape).Idx) :
    (rowScatterDims N M C wf).window j 1 = (j 1).val := by
  unfold ScatterDims.window
  rw [dif_pos (show (1 : Fin 2) ∈ (rowScatterDims N M C wf).sKept from
    (show (1 : Fin 2) ∈ (List.finRange 2).filter (· ∉ ([0] : List (Fin 2))) by decide))]
  rfl

/-- Update `j` lands at `(v, c)` exactly when its signed row index `idx[j₀, 0]` is `v` and its column is `c`; an update
    whose row index is negative or `≥ N` lands nowhere. -/
theorem rowScatter_resultIdx?_eq_some (j : (⟨2, ![M, C]⟩ : Shape).Idx) (idx : IVec ⟨2, ![M, 1]⟩ w)
    (v : Fin N) (c : Fin C) :
    (rowScatterDims N M C wf).resultIdx? j idx = some (ix2 v c)
      ↔ (idx (ix2 (j 0) 0)).toInt = (v.val : Int) ∧ j 1 = c := by
  have hv := v.isLt
  have hc := c.isLt
  have hj := idx2_lt1 j
  unfold ScatterDims.resultIdx?
  constructor
  · intro h
    split at h
    · rename_i hh
      have h' := Option.some.inj h
      have h0 : ((rowScatterDims N M C wf).start j idx 0 + ((rowScatterDims N M C wf).window j 0 : Nat)).toNat = v.val :=
        congrArg (fun i : (⟨2, ![N, C]⟩ : Shape).Idx => (i 0).val) h'
      have h1 : ((rowScatterDims N M C wf).start j idx 1 + ((rowScatterDims N M C wf).window j 1 : Nat)).toNat = c.val :=
        congrArg (fun i : (⟨2, ![N, C]⟩ : Shape).Idx => (i 1).val) h'
      have b0 := (hh 0).1
      rw [rowScatter_start0, rowScatter_window0] at h0 b0
      rw [rowScatter_start1, rowScatter_window1] at h1
      refine ⟨by omega, Fin.ext (by omega)⟩
    · exact absurd h (by simp)
  · rintro ⟨h0, h1⟩
    have hh : ∀ a, 0 ≤ (rowScatterDims N M C wf).start j idx a + ((rowScatterDims N M C wf).window j a : Nat)
        ∧ (rowScatterDims N M C wf).start j idx a + ((rowScatterDims N M C wf).window j a : Nat)
          < ((⟨2, ![N, C]⟩ : Shape).size a : Nat) := by
      intro a
      match a with
      | ⟨0, _⟩ =>
        show 0 ≤ (rowScatterDims N M C wf).start j idx 0 + ((rowScatterDims N M C wf).window j 0 : Nat)
          ∧ (rowScatterDims N M C wf).start j idx 0 + ((rowScatterDims N M C wf).window j 0 : Nat) < (N : Int)
        rw [rowScatter_start0, rowScatter_window0]; omega
      | ⟨1, _⟩ =>
        show 0 ≤ (rowScatterDims N M C wf).start j idx 1 + ((rowScatterDims N M C wf).window j 1 : Nat)
          ∧ (rowScatterDims N M C wf).start j idx 1 + ((rowScatterDims N M C wf).window j 1 : Nat) < (C : Int)
        rw [rowScatter_start1, rowScatter_window1]; omega
    rw [dif_pos hh]
    congr 1
    funext a
    refine Fin.ext ?_
    match a with
    | ⟨0, _⟩ =>
      show ((rowScatterDims N M C wf).start j idx 0 + ((rowScatterDims N M C wf).window j 0 : Nat)).toNat = v.val
      rw [rowScatter_start0, rowScatter_window0]; omega
    | ⟨1, _⟩ =>
      show ((rowScatterDims N M C wf).start j idx 1 + ((rowScatterDims N M C wf).window j 1 : Nat)).toNat = c.val
      rw [rowScatter_start1, rowScatter_window1, ← h1]; omega

/-- The row scatter-add over the extended reals at `(v, c)`: the operand's element plus the sum, over the update rows
    `e` whose signed index `idx[e, 0]` is `v`, of `upd[e, c]`. The sum over the update elements landing at `(v, c)`
    is split by coordinates; for each row the inner sum over columns keeps the one column `c`. -/
theorem scatterAdd_rows_lit {φ : FTy} (x : FVec Ideal ⟨2, ![N, C]⟩ φ) (idx : IVec ⟨2, ![M, 1]⟩ w)
    (upd : FVec Ideal ⟨2, ![M, C]⟩ φ) (v : Fin N) (c : Fin C) :
    Host.scatterAdd (F := Ideal) (rowScatterDims N M C wf) x idx upd (ix2 v c)
      = x (ix2 v c) + ∑ e : Fin M, if (idx (ix2 e 0)).toInt = (v.val : Int) then upd (ix2 e c) else 0 := by
  show Ideal.hostScatterAdd (rowScatterDims N M C wf) x idx upd (ix2 v c) = _
  unfold Ideal.hostScatterAdd
  congr 1
  rw [Finset.sum_filter, sum_idx2]
  refine Finset.sum_congr rfl fun e _ => ?_
  by_cases he : (idx (ix2 e 0)).toInt = (v.val : Int)
  · rw [if_pos he]
    have : ∀ c' : Fin C, (if (rowScatterDims N M C wf).resultIdx? (ix2 e c') idx = some (ix2 v c) then upd (ix2 e c') else 0)
        = if c' = c then upd (ix2 e c') else 0 := fun c' =>
      if_congr ((rowScatter_resultIdx?_eq_some wf (ix2 e c') idx v c).trans ⟨fun h => h.2, fun h => ⟨he, h⟩⟩) rfl rfl
    rw [Finset.sum_congr rfl fun c' _ => this c', Finset.sum_ite_eq' Finset.univ c]
    simp
  · rw [if_neg he]
    refine Finset.sum_eq_zero fun c' _ => ?_
    rw [if_neg]
    intro h
    exact he ((rowScatter_resultIdx?_eq_some wf (ix2 e c') idx v c).mp h).1

/-- The same for ANY record of scatter dimension numbers of these shapes whose fields are those of a row scatter. -/
theorem scatterAdd_rows_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![M, 1]⟩ w) (upd : FVec Ideal ⟨2, ![M, C]⟩ φ) (v : Fin N) (c : Fin C) :
    Host.scatterAdd (F := Ideal) d x idx upd (ix2 v c)
      = x (ix2 v c) + ∑ e : Fin M, if (idx (ix2 e 0)).toInt = (v.val : Int) then upd (ix2 e c) else 0 := by
  obtain ⟨uw, iw, sd, iv, wf'⟩ := d
  simp only at huw hiw hsd hiv
  subst huw hiw hsd hiv
  exact scatterAdd_rows_lit wf' x idx upd v c

end Scatter

/-! ## Scatter-add of elements into a one-axis array, over the extended reals -/

section ScatterVec

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-- The dimension numbers of an element scatter: operand `[N]`, scatter indices `[M, 1]`, updates `[M]`; no window
    axis, the operand's one axis inserted and addressed by the scatter index, the index vector along axis 1 of the
    scatter indices. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- On the operand's one axis the window of update `j` starts at the signed scatter index `idx[j₀, 0]`. -/
theorem vecScatter_start0 (j : (⟨1, ![M]⟩ : Shape).Idx) (idx : IVec ⟨2, ![M, 1]⟩ w) :
    (vecScatterDims N M wf).start j idx 0 = (idx (ix2 (j 0) 0)).toInt := by
  unfold ScatterDims.start
  rw [dif_pos (show (0 : Fin 1) ∈ (vecScatterDims N M wf).scatterDimsToOperandDims from List.mem_singleton.mpr rfl)]
  have hsi : (vecScatterDims N M wf).siIdx j ⟨List.idxOf (0 : Fin 1) (vecScatterDims N M wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is an inserted window axis: the window coordinate there is `0`. -/
theorem vecScatter_window0 (j : (⟨1, ![M]⟩ : Shape).Idx) :
    (vecScatterDims N M wf).window j 0 = 0 := by
  unfold ScatterDims.window
  rw [dif_neg (show (0 : Fin 1) ∉ (vecScatterDims N M wf).sKept from
    (show (0 : Fin 1) ∉ (List.finRange 1).filter (· ∉ ([0] : List (Fin 1))) by decide))]

/-- Update `j` lands at `v` exactly when its signed index `idx[j₀, 0]` is `v`; an update whose index is negative or
    `≥ N` lands nowhere. -/
theorem vecScatter_resultIdx?_eq_some (j : (⟨1, ![M]⟩ : Shape).Idx) (idx : IVec ⟨2, ![M, 1]⟩ w) (v : Fin N) :
    (vecScatterDims N M wf).resultIdx? j idx = some (ix1 v) ↔ (idx (ix2 (j 0) 0)).toInt = (v.val : Int) := by
  have hv := v.isLt
  unfold ScatterDims.resultIdx?
  constructor
  · intro h
    split at h
    · rename_i hh
      have h' := Option.some.inj h
      have h0 : ((vecScatterDims N M wf).start j idx 0 + ((vecScatterDims N M wf).window j 0 : Nat)).toNat = v.val :=
        congrArg (fun i : (⟨1, ![N]⟩ : Shape).Idx => (i 0).val) h'
      have b0 := (hh 0).1
      rw [vecScatter_start0, vecScatter_window0] at h0 b0
      omega
    · exact absurd h (by simp)
  · intro h0
    have hh : ∀ a, 0 ≤ (vecScatterDims N M wf).start j idx a + ((vecScatterDims N M wf).window j a : Nat)
        ∧ (vecScatterDims N M wf).start j idx a + ((vecScatterDims N M wf).window j a : Nat)
          < ((⟨1, ![N]⟩ : Shape).size a : Nat) := by
      intro a
      obtain rfl : a = 0 := Subsingleton.elim _ _
      show 0 ≤ (vecScatterDims N M wf).start j idx 0 + ((vecScatterDims N M wf).window j 0 : Nat)
        ∧ (vecScatterDims N M wf).start j idx 0 + ((vecScatterDims N M wf).window j 0 : Nat) < (N : Int)
      rw [vecScatter_start0, vecScatter_window0]; omega
    rw [dif_pos hh]
    congr 1
    funext a
    obtain rfl : a = 0 := Subsingleton.elim _ _
    refine Fin.ext ?_
    show ((vecScatterDims N M wf).start j idx 0 + ((vecScatterDims N M wf).window j 0 : Nat)).toNat = v.val
    rw [vecScatter_start0, vecScatter_window0]; omega

/-- The element scatter-add over the extended reals at `v`: the operand's element plus the sum, over the updates `e`
    whose signed index `idx[e, 0]` is `v`, of `upd[e]`. -/
theorem scatterAdd_vec_lit {φ : FTy} (x : FVec Ideal ⟨1, ![N]⟩ φ) (idx : IVec ⟨2, ![M, 1]⟩ w)
    (upd : FVec Ideal ⟨1, ![M]⟩ φ) (v : Fin N) :
    Host.scatterAdd (F := Ideal) (vecScatterDims N M wf) x idx upd (ix1 v)
      = x (ix1 v) + ∑ e : Fin M, if (idx (ix2 e 0)).toInt = (v.val : Int) then upd (ix1 e) else 0 := by
  show Ideal.hostScatterAdd (vecScatterDims N M wf) x idx upd (ix1 v) = _
  unfold Ideal.hostScatterAdd
  congr 1
  rw [Finset.sum_filter, sum_idx1]
  exact Finset.sum_congr rfl fun e _ => if_congr (vecScatter_resultIdx?_eq_some wf (ix1 e) idx v) rfl rfl

/-- The same for ANY record of scatter dimension numbers of these shapes whose fields are those of an element scatter. -/
theorem scatterAdd_vec_apply {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![M, 1]⟩ w) (upd : FVec Ideal ⟨1, ![M]⟩ φ) (v : Fin N) :
    Host.scatterAdd (F := Ideal) d x idx upd (ix1 v)
      = x (ix1 v) + ∑ e : Fin M, if (idx (ix2 e 0)).toInt = (v.val : Int) then upd (ix1 e) else 0 := by
  obtain ⟨uw, iw, sd, iv, wf'⟩ := d
  simp only at huw hiw hsd hiv
  subst huw hiw hsd hiv
  exact scatterAdd_vec_lit wf' x idx upd v

end ScatterVec

/-! ## A scatter-add of reals is real -/

section Real

/-- A finite sum of real numbers, taken in the extended reals, is the real sum. -/
theorem coe_finset_sum {ι : Type*} (s : Finset ι) (f : ι → ℝ) :
    ∑ i ∈ s, ((f i : ℝ) : EReal) = ((∑ i ∈ s, f i : ℝ) : EReal) := by
  classical
  refine Finset.induction_on s ?_ ?_
  · simp
  · intro a t ha ih
    rw [Finset.sum_insert ha, Finset.sum_insert ha, ih, EReal.coe_add]

/-- For any scatter dimension numbers: where the operand's element is real and every update is real, the scatter-add's
    element is real — a real plus a finite sum of reals (whichever updates land there). -/
theorem scatterAdd_real {s si u : Shape} {w : Nat} {φ : FTy} (d : ScatterDims s si u) (x : FVec Ideal s φ)
    (idx : IVec si w) (upd : FVec Ideal u φ) (i : s.Idx)
    (hx : ∃ r : ℝ, x i = (r : EReal)) (hupd : ∀ j, ∃ r : ℝ, upd j = (r : EReal)) :
    ∃ r : ℝ, Host.scatterAdd (F := Ideal) d x idx upd i = (r : EReal) := by
  obtain ⟨r, hr⟩ := hx
  choose f hf using hupd
  refine ⟨r + ∑ j ∈ Finset.univ.filter (fun j => d.resultIdx? j idx = some i), f j, ?_⟩
  show Ideal.hostScatterAdd d x idx upd i = _
  unfold Ideal.hostScatterAdd
  rw [hr, EReal.coe_add, ← coe_finset_sum]
  congr 1
  exact Finset.sum_congr rfl fun j _ => hf j

end Real

end Idealize.ShloMosaic.RowsIdx

end
-- ==== Proof.RefHist.lean ====
/-
  THE HISTOGRAM.

  The reference scatter-adds a one for every entry into an array of 30 zeros, at the entry's bin (the 16 × 1000000 array
  of bins flattened row-major to 16000000 indices). Over the extended reals the element at bin b < 30 is
  0 + ∑ over the flat positions e whose bin, read as a signed integer, is b, of 1. A 32-bit word reads as the signed
  integer b < 2³¹ exactly when it is the word b; and the flat positions correspond one-to-one to the entries (the
  reshape's index map is a bijection). So the element is the specification's count of the entries in bin b.
-/
import Idealize.ShloMosaic.Lib.ValueIdx
import proofs.«149492_j88261577933232_2_alg».proof.Proof.RefBins
import proofs.«149492_j88261577933232_2_alg».proof.Proof.LibGatherScatterRows
import Idealize.ShloMosaic.Lib.IdealHost
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.ReferenceIdeal.ReadP Cert.LossSpec

open Idealize.ShloMosaic.RowsIdx

/-- A natural number below 2³¹, as a 32-bit word read signed, is the number. -/
theorem toInt_ofNat32 {k : Nat} (hk : k < 2 ^ 31) : (BitVec.ofNat 32 k).toInt = (k : Int) := by
  have h1 : (BitVec.ofNat 32 k).toNat = k := by
    rw [BitVec.toNat_ofNat]; exact Nat.mod_eq_of_lt (by omega)
  rw [BitVec.toInt_eq_toNat_of_lt (by rw [h1]; omega), h1]

/-- A 32-bit word reads as the signed integer k < 2³¹ exactly when it is the word k. -/
theorem toInt_eq_natCast_iff (b : BitVec 32) {k : Nat} (hk : k < 2 ^ 31) :
    b.toInt = (k : Int) ↔ b = BitVec.ofNat 32 k :=
  ⟨fun h => BitVec.eq_of_toInt_eq (h.trans (toInt_ofNat32 hk).symm), fun h => h ▸ toInt_ofNat32 hk⟩

/-- The entry a flat position stands for: the reshape's index map. -/
abbrev unflat : S16000000.Idx ≃ SBig.Idx := Shape.reshapeEquiv shapeCasts_S16x1000000_S16000000

/-- The flattened bin array at a flat position is the bin of the entry the position stands for. -/
theorem flatBins_apply (x0 x1 : SBig.Idx → EReal) (e : Fin 16000000) :
    val_main_v9 (F := Ideal) x0 x1 (ix2 e 0) = binOf (x0 (unflat (ix1 e))) (x1 (unflat (ix1 e))) := by
  have hi : idx_main_v9 (ix2 e (0 : Fin 1)) = ix1 e := by
    funext a; match a with | ⟨0, _⟩ => rfl
  rw [val_main_v9_apply, hi]
  exact bins_apply x0 x1 _

/-- The histogram at bin b is the number of entries in bin b. -/
theorem hist_apply (x0 x1 : SBig.Idx → EReal) (v : Fin 30) :
    val_main_v10 (F := Ideal) x0 x1 (ix1 v) = cnt x0 x1 (BitVec.ofNat 32 v.val) := by
  have h8 : val_main_v8 (F := Ideal) (ix1 v) = 0 := by
    rw [val_main_v8_apply, val_main_cst_1_apply]; exact Ideal.ofBits_zero_f32
  have h7 : ∀ e : Fin 16000000, val_main_v7 (F := Ideal) (ix1 e) = 1 := fun e => by
    rw [val_main_v7_apply, val_main_cst_0_apply]; exact Ideal.ofBits_one_f32
  have hv : v.val < 2 ^ 31 := by have := v.isLt; omega
  unfold val_main_v10
  rw [scatterAdd_vec_apply (φ := .f32) scatter_S30_S16000000x1_S16000000_n_0_0_1 rfl rfl rfl rfl, h8, zero_add]
  unfold cnt
  rw [← Equiv.sum_comp unflat, sum_idx1]
  refine Finset.sum_congr rfl fun e _ => ?_
  rw [flatBins_apply, h7]
  exact if_congr (toInt_eq_natCast_iff _ hv) rfl rfl

end Cert.ReferenceIdeal.RefValue

end
-- ==== Proof.RefCounts.lean ====
/-
  THE TWO COUNTS.

  The reference adds up, in 32-bit integers from zero, the mask bits widened to 32 bits, and converts the sum (read
  signed) to a float; it does the same with the 30 bits "the histogram at b is greater than 0". A sum by 32-bit addition
  of one-bit words widened to 32 bits is the number of ones among them modulo 2³²; with fewer than 2³¹ summands that
  number is below 2³¹, so the word read signed is the number itself, and the conversion gives it as a real. That is
  the specification's sum of indicators: a finite sum of real zeros and ones, taken in the extended reals.
-/
import Idealize.ShloMosaic.Lib.ValueIdx
import proofs.«149492_j88261577933232_2_alg».proof.Proof.RefHist
import Idealize.ShloMosaic.Lib.IndicatorCount
import Idealize.ShloMosaic.PureOps.Reduce

noncomputable section

open scoped BigOperators

namespace Cert.ReferenceIdeal.RefValue

open Cert.ReferenceIdeal Cert.ReferenceIdeal.Gen Idealize.ShloMosaic Idealize.ShloMosaic.ValueIdx Cert.ReferenceIdeal.ReadP Cert.LossSpec

open Idealize.ShloMosaic.IndicatorCount

/-- A sum of indicators over a finite set, in the extended reals, is the number of indices where the property holds. -/
theorem sum_indicator_eq_card {ι : Type*} (s : Finset ι) (p : ι → Prop) [DecidablePred p] :
    ∑ i ∈ s, (if p i then (1 : EReal) else 0) = (((s.filter p).card : ℝ) : EReal) := by
  have h : ∀ i, (if p i then (1 : EReal) else 0) = (((if p i then (1 : ℝ) else 0) : ℝ) : EReal) := fun i => by
    split_ifs <;> simp
  rw [Finset.sum_congr rfl fun i _ => h i, RowsIdx.coe_finset_sum, Finset.sum_boole]

/-- A shape has as many indices as its number of elements. -/
theorem card_idx (s : Shape) : (Finset.univ : Finset s.Idx).card = s.numel :=
  Finset.card_univ.trans ((Fintype.card_congr s.rowMajor).trans (Fintype.card_fin _))

/-- An integer add-reduce of a whole array to a scalar, from zero, of one-bit words widened to 32 bits, converted
    (signed) to a float: over the extended reals the number of ones, when the array has fewer than 2³¹ elements. -/
theorem sitofp_reduce_bits {s u : Shape} {axes : List (Fin s.rank)} (p : s.Idx → BitVec 1)
    (init : u.Idx → BitVec 32) (hinit : ∀ i, init i = 0#32) (h : s.ReducesTo axes S_) (hu : 0 < u.numel)
    (hn : s.numel < 2 ^ 31) (j : S_.Idx) :
    FloatOps.sitofp (F := Ideal) .f32 (Host.reduce IntOp.addi (fun i => (p i).setWidth 32) init h hu j)
      = ∑ i : s.Idx, if p i = 1#1 then (1 : EReal) else 0 := by
  have hall : (Finset.univ.filter fun i => h.drop i = j) = Finset.univ :=
    Finset.filter_true_of_mem fun i _ => funext fun a => a.elim0
  rw [Host.reduce_eq_fold, hinit, hall, fold_addi_setWidth_eq_card, sum_indicator_eq_card]
  show (((BitVec.ofNat 32 _).toInt : ℝ) : EReal) = _
  rw [toInt_ofNat32 (lt_of_le_of_lt (Finset.card_filter_le _ _) (by rw [card_idx]; exact hn))]
  norm_cast

/-- The number of set mask bits, as the reference computes it. -/
theorem nMask_apply (x2 : SBig.Idx → BitVec 1) (j : S_.Idx) :
    val_main_v13 (F := Ideal) x2 j = nMask x2 := by
  rw [val_main_v13_apply]
  exact sitofp_reduce_bits x2 _ (fun _ => rfl) _ _ (by decide) j

/-- "greater than zero" as a bit, over the extended reals. -/
theorem cmp_ogt_zero (c : EReal) : Ideal.cmp .ogt c 0 = 1#1 ↔ 0 < c := by
  unfold Ideal.cmp
  by_cases h : 0 < c <;> simp [h]

/-- The number of non-empty bins, as the reference computes it. -/
theorem nNonempty_apply (x0 x1 : SBig.Idx → EReal) (j : S_.Idx) :
    val_main_v18 (F := Ideal) x0 x1 j = nNonempty x0 x1 := by
  rw [val_main_v18_apply]
  refine (sitofp_reduce_bits (val_main_v15 (F := Ideal) x0 x1) _ (fun _ => rfl) _ _ (by decide) j).trans ?_
  unfold nNonempty
  rw [RowsIdx.sum_idx1]
  refine Finset.sum_congr rfl fun b _ => ?_
  rw [val_main_v15_apply, hist_apply, val_main_v14_apply, val_main_cst_2_apply]
  refine if_congr ?_ rfl rfl
  show Ideal.cmp .ogt _ (Ideal.ofBits .f32 0x00000000#32) = 1#1 ↔ _
  rw [Ideal.ofBits_zero_f32]
  exact cmp_ogt_zero _

end Cert.ReferenceIdeal.RefValue

end
-- ==== Proof.RefGather.lean ====
/-
  THE GATHER OF THE WEIGHTS.

  The reference reads the array of 30 weights at every entry's bin b, after the usual normalisation of a negative index
  (b + 30 where b < 0, else b). The gather reads its start index as a signed integer and clamps it into [0, 29]. For a
  bin in range (its unsigned value below 30) the word is not negative as a signed integer, so the normalisation leaves
  it alone, and the clamp of a number in [0, 29] is the number: the element read is the one at b.
-/
import Idealize.ShloMosaic.Lib.ValueIdx
import proofs.«149492_j88261577933232_2_alg».proof.Proof.RefBins
import Idealize.ShloMosaic.Lib.Affine

noncomputable section

open scoped BigOperators

namespace Cert.ReferenceIdeal.RefValue

open Cert.ReferenceIdeal Cert.ReferenceIdeal.Gen Idealize.ShloMosaic Idealize.ShloMosaic.ValueIdx Cert.ReferenceIdeal.ReadP Cert.LossSpec

/-- The gathered weight at an entry whose bin is in range is the weight array's element at the bin. -/
theorem gather_apply (x0 x1 : SBig.Idx → EReal) (x2 : SBig.Idx → BitVec 1) (i : SBig.Idx)
    (hb : (binOf (x0 i) (x1 i)).toNat < 30) :
    val_main_v30 (F := Ideal) x0 x1 x2 i
      = val_main_v23 (F := Ideal) x0 x1 x2 (ix1 ⟨(binOf (x0 i) (x1 i)).toNat, hb⟩) := by
  have hti : (binOf (x0 i) (x1 i)).toInt = ((binOf (x0 i) (x1 i)).toNat : Int) :=
    BitVec.toInt_eq_toNat_of_lt (by omega)
  have hi : idx_main_v29 (takeIdx i) = i := by
    funext a; match a with | ⟨0, _⟩ => rfl | ⟨1, _⟩ => rfl
  have h29 : val_main_v29 (F := Ideal) x0 x1 (takeIdx i) = binOf (x0 i) (x1 i) := by
    rw [val_main_v29_apply, hi, val_main_v28_apply, val_main_v25_apply, val_main_v24_apply, val_main_c_5_apply,
      bins_apply]
    have hc : IntOp.cmpi .slt (binOf (x0 i) (x1 i)) 0#32 = 0#1 :=
      eq_zero_of_ne_one fun h => by
        have h' := IntOp.cmpi_slt.mp h
        rw [hti] at h'
        have h0 : (0#32 : BitVec 32).toInt = 0 := by decide
        rw [h0] at h'
        omega
    rw [hc, select_zero]
  have hm : min (val_main_v29 (F := Ideal) x0 x1 (takeIdx i)).toInt.toNat (30 - 1)
      = (binOf (x0 i) (x1 i)).toNat := by
    rw [h29, hti, Int.toNat_natCast]; omega
  unfold val_main_v30
  show Host.gather (takeDims 30 16 1000000 Cert.ReferenceIdeal.Gen.gather_S30_S16x1000000x1_S16x1000000_n_0_n_n_0_2_1_wf)
    _ _ i = _
  rw [gather_take_apply (by decide)]
  exact congrArg (fun k => val_main_v23 (F := Ideal) x0 x1 x2 (ix1 k)) (Fin.ext hm)

end Cert.ReferenceIdeal.RefValue

end
-- ==== Proof.RefValue.lean ====
/-
  THE REFERENCE'S RESULT IS THE SPECIFICATION'S.

  At every entry the reference multiplies the entry's binary cross-entropy by the weight it gathers at the entry's bin.
  The cross-entropy is the specification's, operation for operation: the two clips are a maximum and a minimum against
  broadcast constants, the host's log and log1p are the plain ones over the extended reals, and the host's negation −y is
  0 − y. The weight array's element at b < 30 is the specification's weight of bin b (the mask count over the maximum of
  2⁻¹⁰ and the histogram at b times the number of non-empty bins). When every bin is in range the gathered element is the
  one at the entry's own bin, and the word made from a bin's unsigned value is the bin.
-/
import Idealize.ShloMosaic.Lib.ValueIdx
import proofs.«149492_j88261577933232_2_alg».proof.Proof.RefCounts
import proofs.«149492_j88261577933232_2_alg».proof.Proof.RefGather

noncomputable section

open scoped BigOperators

namespace Cert.ReferenceIdeal.RefValue

open Cert.ReferenceIdeal Cert.ReferenceIdeal.Gen Idealize.ShloMosaic Idealize.ShloMosaic.ValueIdx Cert.ReferenceIdeal.ReadP Cert.LossSpec

/-- The clipped probability at an entry. -/
theorem clip_apply (x0 : SBig.Idx → EReal) (i : SBig.Idx) :
    val_main_v31 (F := Ideal) x0 i = clipP (x0 i) := by
  rw [val_main_v31_apply, val_main_call1_v2_apply, val_main_cst_8_apply, val_main_call1_v1_apply,
    val_main_call1_v0_apply, val_main_cst_7_apply]
  rfl

/-- Over the extended reals the host's negation is subtraction from the zero word: −y = 0 − y. -/
theorem hostNegf_eq_zero_sub (y : Ideal .f32) :
    FloatOps.hostNegf y = FloatOps.subf (FloatOps.ofBits (F := Ideal) .f32 0x00000000#32) y := by
  show -(y : EReal) = Ideal.ofBits .f32 0x00000000#32 - (y : EReal)
  rw [Ideal.ofBits_zero_f32, zero_sub]

/-- The cross-entropy at an entry. -/
theorem bce_apply (x0 x1 : SBig.Idx → EReal) (i : SBig.Idx) :
    val_main_v40 (F := Ideal) x0 x1 i = bce (x0 i) (x1 i) := by
  rw [val_main_v40_apply, val_main_v39_apply, val_main_v33_apply, val_main_v32_apply, val_main_v38_apply,
    val_main_v35_apply, val_main_v34_apply, val_main_cst_9_apply, val_main_v37_apply, val_main_v36_apply, clip_apply,
    hostNegf_eq_zero_sub, hostNegf_eq_zero_sub]
  rfl

/-- The weight array at bin b < 30 is the specification's weight of bin b. -/
theorem weight_apply (x0 x1 : SBig.Idx → EReal) (x2 : SBig.Idx → BitVec 1) (v : Fin 30) :
    val_main_v23 (F := Ideal) x0 x1 x2 (ix1 v) = weight x0 x1 x2 (BitVec.ofNat 32 v.val) := by
  rw [val_main_v23_apply, val_main_v22_apply, nMask_apply, val_main_v21_apply, val_main_call0_v0_apply,
    val_main_cst_4_apply, val_main_v20_apply, hist_apply, val_main_v19_apply, nNonempty_apply]
  rfl

/-- THE REFERENCE'S RESULT: when every entry's bin is in range, the reference's result array, as a function of its three
    arguments, is the specification's result. -/
theorem ref_result (x0 x1 : SBig.Idx → EReal) (x2 : SBig.Idx → BitVec 1)
    (hin : ∀ i, (binOf (x0 i) (x1 i)).toNat < 30) :
    val_main_v41 (F := Ideal) x0 x1 x2 = result x0 x1 x2 := by
  funext i
  have hw : BitVec.ofNat 32 (binOf (x0 i) (x1 i)).toNat = binOf (x0 i) (x1 i) := by
    rw [BitVec.ofNat_toNat, BitVec.setWidth_eq]
  rw [val_main_v41_apply, bce_apply, gather_apply x0 x1 x2 i (hin i), weight_apply]
  show FloatOps.mulf _ (weight x0 x1 x2 (BitVec.ofNat 32 (binOf (x0 i) (x1 i)).toNat)) = _
  rw [hw]
  rfl

/-- The term the run states for the result buffer is the specification's result: the run's term is the last stage's
    value (by unfolding), and that value is the result. -/
theorem run_term_eq_result {y : SBig.Idx → EReal} (x0 x1 : SBig.Idx → EReal) (x2 : SBig.Idx → BitVec 1)
    (hin : ∀ i, (binOf (x0 i) (x1 i)).toNat < 30) (hy : y = val_main_v41 (F := Ideal) x0 x1 x2) :
    y = result x0 x1 x2 :=
  hy.trans (ref_result x0 x1 x2 hin)

end Cert.ReferenceIdeal.RefValue

end
-- ==== Proof.lean ====
/-
  The claim: the histogram-weighted cross-entropy kernel against its jnp reference.

  Both programs compute, for every entry of the two 16 × 1000000 arrays p and g,
      bce(p, g) · n / max(count[b] · #nonempty, 2⁻¹⁰),      b = ⌊|p − g| · (30 − 2⁻¹⁰)⌋,
  where count[b] is the number of entries whose index is b, #nonempty the number of bins with a positive count and n
  the number of set mask bits. The kernel counts tile by tile in one pallas_call and applies the weights in a second;
  the reference counts by one scatter-add and reads the weights by a gather. The precondition keeps b within 0 … 29,
  where the gather's clamping and the kernel's thirty compares agree.

  The five conjuncts: the three programs run to the end without a fault and leave their arguments alone (the kernel's
  two frames from its run through both pallas_calls, at the word level and over the extended reals; the reference's
  from its run); the idealization rewrote nothing; and the two idealized programs end with equal results.
-/
import proofs.«149492_j88261577933232_2_alg».proof.Defs
import proofs.«149492_j88261577933232_2_alg».proof.Proof.Gen.Kernel
import proofs.«149492_j88261577933232_2_alg».proof.Proof.Gen.KernelIdeal
import proofs.«149492_j88261577933232_2_alg».proof.Proof.Gen.ReferenceIdeal
import proofs.«149492_j88261577933232_2_alg».proof.Proof.Gen.Pre_finite_inputs
import proofs.«149492_j88261577933232_2_alg».proof.Proof.RefFrame
import proofs.«149492_j88261577933232_2_alg».proof.Proof.BitsFrame
import proofs.«149492_j88261577933232_2_alg».proof.Proof.IdealFrame
import proofs.«149492_j88261577933232_2_alg».proof.Proof.IdealResult
import proofs.«149492_j88261577933232_2_alg».proof.Proof.IdealCountsOk
import proofs.«149492_j88261577933232_2_alg».proof.Proof.RefRunPatched
import proofs.«149492_j88261577933232_2_alg».proof.Proof.RefValue
import proofs.«149492_j88261577933232_2_alg».proof.Proof.PreRange
import Idealize.ShloMosaic.Adequacy
import Idealize.ShloMosaic.Init

set_option maxRecDepth 16384

noncomputable section

namespace Cert.Proof

open Idealize.ShloMosaic Idealize.SL.Sem

/-- The kernel as printed, at the word level: it runs through both pallas_calls and the host arithmetic between them and
    writes none of its arguments. The precondition is not needed for that. -/
theorem frame_k : Cert.frame_Kernel := fun m ρ _ => Cert.Kernel.Hand.frame m ρ

/-- The same program read over the extended reals. -/
theorem frame_ki : Cert.frame_KernelIdeal := fun m ρ _ => Cert.KernelIdeal.Hand.frame m ρ

/-- From memories agreeing on the arguments, the idealized kernel ends with its result array at what the loss kernel's
    write-backs leave, and the idealized reference ends at its composed term; under the precondition both are the
    specification's `result` of the shared arguments, entry by entry: the reference by reading its operations one at a
    time, the kernel through the histogram row's counts, the weights row and the loss tiles. -/
theorem algebraic : Cert.algebraic_KernelIdeal_ReferenceIdeal := by
  intro m ρ m' ρ' hpre hagree
  refine ⟨fun c => (Cert.KernelIdeal.Hand.dat1 (Cert.KernelIdeal.Hand.Ve1 m) c).arrAt 3 Cert.KernelIdeal.cfg1.N,
    Cert.KernelIdeal.Hand.run_result m ρ, ?_⟩
  refine (θ_run _ _ _).mono (fun r h c => ⟨?_, (h c).2⟩) (Cert.ReferenceIdeal.ValueP.run (F := Ideal) m' ρ')
  obtain ⟨h0, h1, h2⟩ := hagree c
  have hin : ∀ i, (Cert.LossSpec.binOf
      ((m' ((c.tc : Thread Cert.ReferenceIdeal.nD Cert.ReferenceIdeal.τ).loc Cert.ReferenceIdeal.main_arg0) : Cert.LossSpec.SBig.Idx → EReal) i)
      ((m' ((c.tc : Thread Cert.ReferenceIdeal.nD Cert.ReferenceIdeal.τ).loc Cert.ReferenceIdeal.main_arg1) : Cert.LossSpec.SBig.Idx → EReal) i)).toNat < 30 := by
    intro i
    rw [h0, h1]
    exact Cert.Proof.PreRange.pre_inRange m hpre c i
  refine (h c).1.trans ((Cert.ReferenceIdeal.ReadP.val_main_v41_eq (F := Ideal) _ _ _).trans
    ((Cert.ReferenceIdeal.RefValue.ref_result _ _ _ hin).trans ?_))
  rw [h0, h1, h2]
  exact (Cert.KernelIdeal.Hand.kernel_result m c hpre (Cert.KernelIdeal.Hand.counts_ok m c)).symm

theorem claim : Cert.Claim :=
  ⟨Cert.Kernel.Gen.facts, Cert.KernelIdeal.Gen.facts, Cert.ReferenceIdeal.Gen.facts, Cert.Pre_finite_inputs.Gen.facts,
    frame_k, frame_ki, Claims.frame_ri, Claims.preserves, algebraic⟩

end Cert.Proof

end
